-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)) (v3 : (c : Dev Cert.KernelIdeal.nD) → Buf (Elt Ideal) ((c.tc : Thread Cert.KernelIdeal.nD Cert.KernelIdeal.τ).loc Cert.KernelIdeal.main_v0_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_v0_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_v8) = v1 c
          ∧ r.2.mem ((c.tc : Thread Cert.ReferenceIdeal.nD Cert.ReferenceIdeal.τ).loc Cert.ReferenceIdeal.main_v18) = v2 c
          ∧ r.2.mem ((c.tc : Thread Cert.ReferenceIdeal.nD Cert.ReferenceIdeal.τ).loc Cert.ReferenceIdeal.main_v24) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x1024 : Shape := ⟨2, ![32, 1024]⟩
abbrev S32x1024x1024 : Shape := ⟨3, ![32, 1024, 1024]⟩
abbrev S1024x1024 : Shape := ⟨2, ![1024, 1024]⟩
abbrev S_ : Shape := ⟨0, ![]⟩

class Facts : Prop where
  bcast_S_S32x1024 : S_.BroadcastsInDim S32x1024 (![] : Fin 0 → Fin S32x1024.rank)
  reducesTo_S32x1024_S_d0_1 : S32x1024.ReducesTo [0, 1] S_
  h_S_ : 0 < S_.numel
  bcast_S_S32x1024x1024 : S_.BroadcastsInDim S32x1024x1024 (![] : Fin 0 → Fin S32x1024x1024.rank)
  reducesTo_S32x1024x1024_S_d0_1_2 : S32x1024x1024.ReducesTo [0, 1, 2] S_
  bcast_S_S1024x1024 : S_.BroadcastsInDim S1024x1024 (![] : Fin 0 → Fin S1024x1024.rank)
  reducesTo_S1024x1024_S_d0_1 : S1024x1024.ReducesTo [0, 1] S_

variable [Facts]

def fn_part2 {F : FTy → Type} [FloatOps F] (main_arg7 : FVec F S1024x1024 .f32) (main_arg8 : FVec F S1024x1024 .f32) (main_v33 : IVec S_ 1) : IVec S_ 1 :=
  let main_v34 : FVec F S1024x1024 .f32 := Host.absf main_arg7
  let main_cst_12 : FVec F S_ .f32 := constant S_ .f32 0x7F800000#32
  let main_v35 : FVec F S1024x1024 .f32 := broadcastInDim S1024x1024 ![] bcast_S_S1024x1024 main_cst_12
  let main_v36 : IVec S1024x1024 1 := cmpf .olt main_v34 main_v35
  let main_c_13 : IVec S_ 1 := constantI S_ 1 1#1
  let main_v37 : IVec S_ 1 := (fun x v => Host.reduce IntOp.andi x v reducesTo_S1024x1024_S_d0_1 h_S_) main_v36 main_c_13
  let main_v38 : IVec S_ 1 := andi main_v33 main_v37
  let main_v39 : FVec F S1024x1024 .f32 := Host.absf main_arg8
  let main_cst_14 : FVec F S_ .f32 := constant S_ .f32 0x7F800000#32
  let main_v40 : FVec F S1024x1024 .f32 := broadcastInDim S1024x1024 ![] bcast_S_S1024x1024 main_cst_14
  let main_v41 : IVec S1024x1024 1 := cmpf .olt main_v39 main_v40
  let main_c_15 : IVec S_ 1 := constantI S_ 1 1#1
  let main_v42 : IVec S_ 1 := (fun x v => Host.reduce IntOp.andi x v reducesTo_S1024x1024_S_d0_1 h_S_) main_v41 main_c_15
  let main_v43 : IVec S_ 1 := andi main_v38 main_v42
  main_v43

def fn_part1 {F : FTy → Type} [FloatOps F] (main_arg4 : FVec F S32x1024 .f32) (main_arg5 : FVec F S1024x1024 .f32) (main_arg6 : FVec F S1024x1024 .f32) (main_arg7 : FVec F S1024x1024 .f32) (main_arg8 : FVec F S1024x1024 .f32) (main_v13 : IVec S_ 1) (main_v16 : IVec S32x1024x1024 1) : IVec S_ 1 :=
  let main_c_5 : IVec S_ 1 := constantI S_ 1 1#1
  let main_v17 : IVec S_ 1 := (fun x v => Host.reduce IntOp.andi x v reducesTo_S32x1024x1024_S_d0_1_2 h_S_) main_v16 main_c_5
  let main_v18 : IVec S_ 1 := andi main_v13 main_v17
  let main_v19 : FVec F S32x1024 .f32 := Host.absf main_arg4
  let main_cst_6 : FVec F S_ .f32 := constant S_ .f32 0x7F800000#32
  let main_v20 : FVec F S32x1024 .f32 := broadcastInDim S32x1024 ![] bcast_S_S32x1024 main_cst_6
  let main_v21 : IVec S32x1024 1 := cmpf .olt main_v19 main_v20
  let main_c_7 : IVec S_ 1 := constantI S_ 1 1#1
  let main_v22 : IVec S_ 1 := (fun x v => Host.reduce IntOp.andi x v reducesTo_S32x1024_S_d0_1 h_S_) main_v21 main_c_7
  let main_v23 : IVec S_ 1 := andi main_v18 main_v22
  let main_v24 : FVec F S1024x1024 .f32 := Host.absf main_arg5
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  let main_v29 : FVec F S1024x1024 .f32 := Host.absf main_arg6
  let main_cst_10 : FVec F S_ .f32 := constant S_ .f32 0x7F800000#32
  let main_v30 : FVec F S1024x1024 .f32 := broadcastInDim S1024x1024 ![] bcast_S_S1024x1024 main_cst_10
  let main_v31 : IVec S1024x1024 1 := cmpf .olt main_v29 main_v30
  let main_c_11 : IVec S_ 1 := constantI S_ 1 1#1
  let main_v32 : IVec S_ 1 := (fun x v => Host.reduce IntOp.andi x v reducesTo_S1024x1024_S_d0_1 h_S_) main_v31 main_c_11
  let main_v33 : IVec S_ 1 := andi main_v28 main_v32
  fn_part2 (F := F) main_arg7 main_arg8 main_v33

def fn {F : FTy → Type} [FloatOps F] (main_arg0 : FVec F S32x1024 .f32) (main_arg1 : FVec F S32x1024 .f32) (main_arg2 : FVec F S32x1024x1024 .f32) (main_arg3 : FVec F S32x1024x1024 .f32) (main_arg4 : FVec F S32x1024 .f32) (main_arg5 : FVec F S1024x1024 .f32) (main_arg6 : FVec F S1024x1024 .f32) (main_arg7 : FVec F S1024x1024 .f32) (main_arg8 : FVec F S1024x1024 .f32) : IVec S_ 1 :=
  let main_v0 : FVec F S32x1024 .f32 := Host.absf main_arg0
  let main_cst : FVec F S_ .f32 := constant S_ .f32 0x7F800000#32
  let main_v1 : FVec F S32x1024 .f32 := broadcastInDim S32x1024 ![] bcast_S_S32x1024 main_cst
  let main_v2 : IVec S32x1024 1 := cmpf .olt main_v0 main_v1
  let main_c : IVec S_ 1 := constantI S_ 1 1#1
  let main_v3 : IVec S_ 1 := (fun x v => Host.reduce IntOp.andi x v reducesTo_S32x1024_S_d0_1 h_S_) main_v2 main_c
  let main_v4 : FVec F S32x1024 .f32 := Host.absf main_arg1
  let main_cst_0 : FVec F S_ .f32 := constant S_ .f32 0x7F800000#32
  let main_v5 : FVec F S32x1024 .f32 := broadcastInDim S32x1024 ![] bcast_S_S32x1024 main_cst_0
  let main_v6 : IVec S32x1024 1 := cmpf .olt main_v4 main_v5
  let main_c_1 : IVec S_ 1 := constantI S_ 1 1#1
  let main_v7 : IVec S_ 1 := (fun x v => Host.reduce IntOp.andi x v reducesTo_S32x1024_S_d0_1 h_S_) main_v6 main_c_1
  let main_v8 : IVec S_ 1 := andi main_v3 main_v7
  let main_v9 : FVec F S32x1024x1024 .f32 := Host.absf main_arg2
  let main_cst_2 : FVec F S_ .f32 := constant S_ .f32 0x7F800000#32
  let main_v10 : FVec F S32x1024x1024 .f32 := broadcastInDim S32x1024x1024 ![] bcast_S_S32x1024x1024 main_cst_2
  let main_v11 : IVec S32x1024x1024 1 := cmpf .olt main_v9 main_v10
  let main_c_3 : IVec S_ 1 := constantI S_ 1 1#1
  let main_v12 : IVec S_ 1 := (fun x v => Host.reduce IntOp.andi x v reducesTo_S32x1024x1024_S_d0_1_2 h_S_) main_v11 main_c_3
  let main_v13 : IVec S_ 1 := andi main_v8 main_v12
  let main_v14 : FVec F S32x1024x1024 .f32 := Host.absf main_arg3
  let main_cst_4 : FVec F S_ .f32 := constant S_ .f32 0x7F800000#32
  let main_v15 : FVec F S32x1024x1024 .f32 := broadcastInDim S32x1024x1024 ![] bcast_S_S32x1024x1024 main_cst_4
  let main_v16 : IVec S32x1024x1024 1 := cmpf .olt main_v14 main_v15
  fn_part1 (F := F) main_arg4 main_arg5 main_arg6 main_arg7 main_arg8 main_v13 main_v16
-- ==== Kernel.lean ====
abbrev S32x1024 : Shape := ⟨2, ![32, 1024]⟩
abbrev S32x1024x1024 : Shape := ⟨3, ![32, 1024, 1024]⟩
abbrev S1024x1024 : Shape := ⟨2, ![1024, 1024]⟩
abbrev S32x128x128 : Shape := ⟨3, ![32, 128, 128]⟩
abbrev S128x128 : Shape := ⟨2, ![128, 128]⟩
abbrev S32x128 : Shape := ⟨2, ![32, 128]⟩
abbrev S1x128x128 : Shape := ⟨3, ![1, 128, 128]⟩
abbrev S32x1x128 : Shape := ⟨3, ![32, 1, 128]⟩

abbrev nBuf : Space → Nat
  | .hbm => 13
  | .vmem => 29
  | .smem => 0
  | _ => 0

abbrev bufTy : (tb : Table) → Fin (tcTables nBuf tb) → BufTy
  | .hbm, ⟨0, _⟩ => ⟨S32x1024, .f32⟩
  | .hbm, ⟨1, _⟩ => ⟨S32x1024, .f32⟩
  | .hbm, ⟨2, _⟩ => ⟨S32x1024x1024, .f32⟩
  | .hbm, ⟨3, _⟩ => ⟨S32x1024x1024, .f32⟩
  | .hbm, ⟨4, _⟩ => ⟨S32x1024, .f32⟩
  | .hbm, ⟨5, _⟩ => ⟨S1024x1024, .f32⟩
  | .hbm, ⟨6, _⟩ => ⟨S1024x1024, .f32⟩
  | .hbm, ⟨7, _⟩ => ⟨S1024x1024, .f32⟩
  | .hbm, ⟨8, _⟩ => ⟨S1024x1024, .f32⟩
  | .hbm, ⟨9, _⟩ => ⟨S32x1024, .f32⟩
  | .hbm, ⟨10, _⟩ => ⟨S32x1024x1024, .f32⟩
  | .hbm, ⟨11, _⟩ => ⟨S32x1024x1024, .f32⟩
  | .hbm, ⟨12, _⟩ => ⟨S32x1024, .f32⟩
  | .local _ .vmem, ⟨0, _⟩ => ⟨S32x128x128, .f32⟩
  | .local _ .vmem, ⟨1, _⟩ => ⟨S32x128x128, .f32⟩
  | .local _ .vmem, ⟨2, _⟩ => ⟨S128x128, .f32⟩
  | .local _ .vmem, ⟨3, _⟩ => ⟨S128x128, .f32⟩
  | .local _ .vmem, ⟨4, _⟩ => ⟨S128x128, .f32⟩
  | .local _ .vmem, ⟨5, _⟩ => ⟨S128x128, .f32⟩
  | .local _ .vmem, ⟨6, _⟩ => ⟨S32x128, .f32⟩
  | .local _ .vmem, ⟨7, _⟩ => ⟨S32x128, .f32⟩
  | .local _ .vmem, ⟨8, _⟩ => ⟨S32x128x128, .f32⟩
  | .local _ .vmem, ⟨9, _⟩ => ⟨S32x128x128, .f32⟩
  | .local _ .vmem, ⟨10, _⟩ => ⟨S128x128, .f32⟩
  | .local _ .vmem, ⟨11, _⟩ => ⟨S128x128, .f32⟩
  | .local _ .vmem, ⟨12, _⟩ => ⟨S128x128, .f32⟩
  | .local _ .vmem, ⟨13, _⟩ => ⟨S128x128, .f32⟩
  | .local _ .vmem, ⟨14, _⟩ => ⟨S32x128, .f32⟩
  | .local _ .vmem, ⟨15, _⟩ => ⟨S32x128, .f32⟩
  | .local _ .vmem, ⟨16, _⟩ => ⟨S32x128, .f32⟩
  | .local _ .vmem, ⟨17, _⟩ => ⟨S32x128, .f32⟩
  | .local _ .vmem, ⟨18, _⟩ => ⟨S32x128, .f32⟩
  | .local _ .vmem, ⟨19, _⟩ => ⟨S32x128, .f32⟩
  | .local _ .vmem, ⟨20, _⟩ => ⟨S32x128, .f32⟩
  | .local _ .vmem, ⟨21, _⟩ => ⟨S32x128, .f32⟩
  | .local _ .vmem, ⟨22, _⟩ => ⟨S32x128x128, .f32⟩
  | .local _ .vmem, ⟨23, _⟩ => ⟨S32x128x128, .f32⟩
  | .local _ .vmem, ⟨24, _⟩ => ⟨S32x128x128, .f32⟩
  | .local _ .vmem, ⟨25, _⟩ => ⟨S32x128x128, .f32⟩
  | .local _ .vmem, ⟨26, _⟩ => ⟨S32x128, .f32⟩
  | .local _ .vmem, ⟨27, _⟩ => ⟨S32x128, .f32⟩
  | .local _ .vmem, ⟨28, _⟩ => ⟨S32x128, .f32⟩
  | _, _ => ⟨S32x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0_0 : Ref sig .tc := ⟨.hbm, 9, rfl⟩
abbrev main_v0_1 : Ref sig .tc := ⟨.hbm, 10, rfl⟩
abbrev main_v0_2 : Ref sig .tc := ⟨.hbm, 11, rfl⟩
abbrev main_v0_3 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_scratch0 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27

abbrev nD : Nat := 1
abbrev τ : Topo := Topo.v7x

variable {F : FTy → Type} [FloatOps F]

abbrev grid0 : Pipeline.Grid := ⟨2, ![8, 8], ![false, false]⟩

def k0_cond2 (i : grid0.Coords) : BitVec 1 :=
  let arg1 : BitVec 32 := BitVec.ofNat 32 (i 1).val
  let c7_i32 : BitVec 32 := 7#32
  let v39 : BitVec 1 := Scalar.cmpi .eq arg1 c7_i32
  let v40 : BitVec 32 := Scalar.extui v39
  let c0_i32_29 : BitVec 32 := 0#32
  let v41 : BitVec 1 := Scalar.cmpi .ne v40 c0_i32_29
  v41

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S32x128x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S32x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S32x128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S128x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S128x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S32x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S32x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S32x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S32x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S32x128x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S32x128x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S32x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]

class Facts₀ : Prop where
  inb_S32x128_S32x128_0_0 : ∀ a, (![0, 0] : Fin 2 → Nat) a + S32x128.size a ≤ S32x128.size a
  h_S32x128 : 0 < S32x128.numel
  shapeCasts_S32x128_S32x128 : S32x128.ShapeCasts S32x128
  inb_S128x128_S128x128_0_0 : ∀ a, (![0, 0] : Fin 2 → Nat) a + S128x128.size a ≤ S128x128.size a
  h_S128x128 : 0 < S128x128.numel
  shapeCasts_S128x128_S1x128x128 : S128x128.ShapeCasts S1x128x128
  inb_S32x128x128_S32x128x128_0_0_0 : ∀ a, (![0, 0, 0] : Fin 3 → Nat) a + S32x128x128.size a ≤ S32x128x128.size a
  h_S32x128x128 : 0 < S32x128x128.numel
  broadcasts_S1x128x128_S32x128x128 : S1x128x128.Broadcasts S32x128x128
  shapeCasts_S32x128_S32x1x128 : S32x128.ShapeCasts S32x1x128
  broadcasts_S32x1x128_S32x128x128 : S32x1x128.Broadcasts S32x128x128
  reduces_S32x128x128_S32x128 : S32x128x128.Reduces [2] S32x128
  natLt_1_32 : 1 < 32
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32x128x128.size a ≤ S32x1024x1024.size a
  hwx0_0 : ∀ i : grid0.Coords, EltTy.bits .f32 = 32 ∨ (Rect.block (s := S32x1024x1024) S32x128x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S1024x1024.size a
  hwx0_1 : ∀ i : grid0.Coords, EltTy.bits .f32 = 32 ∨ (Rect.block (s := S1024x1024) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S1024x1024.size a
  hwx0_2 : ∀ i : grid0.Coords, EltTy.bits .f32 = 32 ∨ (Rect.block (s := S1024x1024) S128x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S32x128.size a ≤ S32x1024.size a
  hwx0_3 : ∀ i : grid0.Coords, EltTy.bits .f32 = 32 ∨ (Rect.block (s := S32x1024) S32x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S32x128x128.size a ≤ S32x1024x1024.size a
  hwx0_4 : ∀ i : grid0.Coords, EltTy.bits .f32 = 32 ∨ (Rect.block (s := S32x1024x1024) S32x128x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S1024x1024.size a
  hwx0_5 : ∀ i : grid0.Coords, EltTy.bits .f32 = 32 ∨ (Rect.block (s := S1024x1024) S128x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S128x128.size a ≤ S1024x1024.size a
  hwx0_6 : ∀ i : grid0.Coords, EltTy.bits .f32 = 32 ∨ (Rect.block (s := S1024x1024) S128x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S32x128.size a ≤ S32x1024.size a
  hwx0_7 : ∀ i : grid0.Coords, EltTy.bits .f32 = 32 ∨ (Rect.block (s := S32x1024) S32x128.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S32x128.size a ≤ S32x1024.size a
  hwx0_8 : ∀ i : grid0.Coords, EltTy.bits .f32 = 32 ∨ (Rect.block (s := S32x1024) S32x128.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S32x128.size a ≤ S32x1024.size a
  hwx0_9 : ∀ i : grid0.Coords, EltTy.bits .f32 = 32 ∨ (Rect.block (s := S32x1024) S32x128.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S32x128.size a ≤ S32x1024.size a
  hwx0_10 : ∀ i : grid0.Coords, EltTy.bits .f32 = 32 ∨ (Rect.block (s := S32x1024) S32x128.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S32x128x128.size a ≤ S32x1024x1024.size a
  hwx0_11 : ∀ i : grid0.Coords, EltTy.bits .f32 = 32 ∨ (Rect.block (s := S32x1024x1024) S32x128x128.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S32x128x128.size a ≤ S32x1024x1024.size a
  hwx0_12 : ∀ i : grid0.Coords, EltTy.bits .f32 = 32 ∨ (Rect.block (s := S32x1024x1024) S32x128x128.size (cc0_transform_12 i) (hinb0_12 i)).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S32x128.size a ≤ S32x1024.size a
  hwx0_13 : ∀ i : grid0.Coords, EltTy.bits .f32 = 32 ∨ (Rect.block (s := S32x1024) S32x128.size (cc0_transform_13 i) (hinb0_13 i)).WholeWords (EltTy.packing .f32)

variable [Facts₀]

abbrev win0_0 : Pipeline.Window sig grid0 :=
  Pipeline.Window.ofSpec (Memref.whole main_arg2) S32x128x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg6) S128x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg5) S128x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg0) S32x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S32x128x128.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg8) S128x128.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_arg7) S128x128.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_arg1) S32x128.size cc0_transform_7 reads0_7 false false 2 stage0_7 sem0_7
    hrank0 hreads0_7 hinb0_7 nbuf0_7 (Memref.isWhole_whole _) hwx0_7 hstage0_7

abbrev win0_8 : Pipeline.Window sig grid0 :=
  Pipeline.Window.ofSpec (Memref.whole main_arg1) S32x128.size cc0_transform_8 reads0_8 false false 2 stage0_8 sem0_8
    hrank0 hreads0_8 hinb0_8 nbuf0_8 (Memref.isWhole_whole _) hwx0_8 hstage0_8

abbrev win0_9 : Pipeline.Window sig grid0 :=
  Pipeline.Window.ofSpec (Memref.whole main_arg4) S32x128.size cc0_transform_9 reads0_9 false false 2 stage0_9 sem0_9
    hrank0 hreads0_9 hinb0_9 nbuf0_9 (Memref.isWhole_whole _) hwx0_9 hstage0_9

abbrev win0_10 : Pipeline.Window sig grid0 :=
  Pipeline.Window.ofSpec (Memref.whole main_v0_0) S32x128.size cc0_transform_10 reads0_10 true false 2 stage0_10 sem0_10
    hrank0 hreads0_10 hinb0_10 nbuf0_10 (Memref.isWhole_whole _) hwx0_10 hstage0_10

abbrev win0_11 : Pipeline.Window sig grid0 :=
  Pipeline.Window.ofSpec (Memref.whole main_v0_1) S32x128x128.size cc0_transform_11 reads0_11 true false 2 stage0_11 sem0_11
    hrank0 hreads0_11 hinb0_11 nbuf0_11 (Memref.isWhole_whole _) hwx0_11 hstage0_11

abbrev win0_12 : Pipeline.Window sig grid0 :=
  Pipeline.Window.ofSpec (Memref.whole main_v0_2) S32x128x128.size cc0_transform_12 reads0_12 true false 2 stage0_12 sem0_12
    hrank0 hreads0_12 hinb0_12 nbuf0_12 (Memref.isWhole_whole _) hwx0_12 hstage0_12

abbrev win0_13 : Pipeline.Window sig grid0 :=
  Pipeline.Window.ofSpec (Memref.whole main_v0_3) S32x128.size cc0_transform_13 reads0_13 true false 2 stage0_13 sem0_13
    hrank0 hreads0_13 hinb0_13 nbuf0_13 (Memref.isWhole_whole _) hwx0_13 hstage0_13

abbrev win0 : Fin 14 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | ⟨_ + 14, h⟩ => absurd h (Nat.not_lt.2 (Nat.le_add_left _ _))
abbrev spec0 : Fin 14 → Pipeline.WinSpec sig grid0.rank := fun w => (win0 w).toWinSpec

abbrev idle0 : Fin 14 → grid0.Coords → Bool := fun | 0 => fun _ => false | 1 => fun _ => false | 2 => fun _ => false | 3 => fun _ => false | 4 => fun _ => false | 5 => fun _ => false | 6 => fun _ => false | 7 => fun _ => false | 8 => fun _ => false | 9 => fun _ => false | 10 => fun i => !(k0_cond2 i == 1#1) | 11 => fun _ => false | 12 => fun _ => false | 13 => fun i => !(k0_cond2 i == 1#1) | ⟨_ + 14, h⟩ => absurd h (Nat.not_lt.2 (Nat.le_add_left _ _))

class Facts : Prop extends Facts₀ where
  halias0_11 : Pipeline.Aliased win0 0 11
  halias0_12 : Pipeline.Aliased win0 4 12

variable [Facts]
-- ==== ReferenceIdeal.lean ====
abbrev S32x1024 : Shape := ⟨2, ![32, 1024]⟩
abbrev S32x1024x1024 : Shape := ⟨3, ![32, 1024, 1024]⟩
abbrev S1024x1024 : Shape := ⟨2, ![1024, 1024]⟩
abbrev S1x1024x1024 : Shape := ⟨3, ![1, 1024, 1024]⟩
abbrev S32x1x1024 : Shape := ⟨3, ![32, 1, 1024]⟩
abbrev S_ : Shape := ⟨0, ![]⟩

abbrev nBuf : Space → Nat
  | .hbm => 47
  | .vmem => 0
  | .smem => 0
  | _ => 0

abbrev bufTy : (tb : Table) → Fin (tcTables nBuf tb) → BufTy
  | .hbm, ⟨0, _⟩ => ⟨S32x1024, .f32⟩
  | .hbm, ⟨1, _⟩ => ⟨S32x1024, .f32⟩
  | .hbm, ⟨2, _⟩ => ⟨S32x1024x1024, .f32⟩
  | .hbm, ⟨3, _⟩ => ⟨S32x1024x1024, .f32⟩
  | .hbm, ⟨4, _⟩ => ⟨S32x1024, .f32⟩
  | .hbm, ⟨5, _⟩ => ⟨S1024x1024, .f32⟩
  | .hbm, ⟨6, _⟩ => ⟨S1024x1024, .f32⟩
  | .hbm, ⟨7, _⟩ => ⟨S1024x1024, .f32⟩
  | .hbm, ⟨8, _⟩ => ⟨S1024x1024, .f32⟩
  | .hbm, ⟨9, _⟩ => ⟨S1x1024x1024, .f32⟩
  | .hbm, ⟨10, _⟩ => ⟨S32x1024x1024, .f32⟩
  | .hbm, ⟨11, _⟩ => ⟨S32x1024x1024, .f32⟩
  | .hbm, ⟨12, _⟩ => ⟨S1x1024x1024, .f32⟩
  | .hbm, ⟨13, _⟩ => ⟨S32x1x1024, .f32⟩
  | .hbm, ⟨14, _⟩ => ⟨S32x1024x1024, .f32⟩
  | .hbm, ⟨15, _⟩ => ⟨S32x1024x1024, .f32⟩
  | .hbm, ⟨16, _⟩ => ⟨S32x1024x1024, .f32⟩
  | .hbm, ⟨17, _⟩ => ⟨S32x1024x1024, .f32⟩
  | .hbm, ⟨18, _⟩ => ⟨S_, .f32⟩
  | .hbm, ⟨19, _⟩ => ⟨S32x1024, .f32⟩
  | .hbm, ⟨20, _⟩ => ⟨S1x1024x1024, .f32⟩
  | .hbm, ⟨21, _⟩ => ⟨S32x1024x1024, .f32⟩
  | .hbm, ⟨22, _⟩ => ⟨S32x1024x1024, .f32⟩
  | .hbm, ⟨23, _⟩ => ⟨S1x1024x1024, .f32⟩
  | .hbm, ⟨24, _⟩ => ⟨S32x1x1024, .f32⟩
  | .hbm, ⟨25, _⟩ => ⟨S32x1024x1024, .f32⟩
  | .hbm, ⟨26, _⟩ => ⟨S32x1024x1024, .f32⟩
  | .hbm, ⟨27, _⟩ => ⟨S32x1024x1024, .f32⟩
  | .hbm, ⟨28, _⟩ => ⟨S32x1024x1024, .f32⟩
  | .hbm, ⟨29, _⟩ => ⟨S_, .f32⟩
  | .hbm, ⟨30, _⟩ => ⟨S32x1024, .f32⟩
  | .hbm, ⟨31, _⟩ => ⟨S_, .f32⟩
  | .hbm, ⟨32, _⟩ => ⟨S32x1024, .f32⟩
  | .hbm, ⟨33, _⟩ => ⟨S32x1024, .f32⟩
  | .hbm, ⟨34, _⟩ => ⟨S_, .f32⟩
  | .hbm, ⟨35, _⟩ => ⟨S32x1024, .f32⟩
  | .hbm, ⟨36, _⟩ => ⟨S32x1024, .f32⟩
  | .hbm, ⟨37, _⟩ => ⟨S32x1024, .f32⟩
  | .hbm, ⟨38, _⟩ => ⟨S32x1024, .f32⟩
  | .hbm, ⟨39, _⟩ => ⟨S32x1024, .f32⟩
  | .hbm, ⟨40, _⟩ => ⟨S_, .f32⟩
  | .hbm, ⟨41, _⟩ => ⟨S32x1024, .f32⟩
  | .hbm, ⟨42, _⟩ => ⟨S32x1024, .f32⟩
  | .hbm, ⟨43, _⟩ => ⟨S_, .f32⟩
  | .hbm, ⟨44, _⟩ => ⟨S32x1024, .f32⟩
  | .hbm, ⟨45, _⟩ => ⟨S32x1024, .i1⟩
  | .hbm, ⟨46, _⟩ => ⟨S32x1024, .f32⟩
  | _, _ => ⟨S32x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_0 : Ref sig .tc := ⟨.hbm, 29, rfl⟩
abbrev main_v19 : Ref sig .tc := ⟨.hbm, 30, rfl⟩
abbrev main_cst_1 : Ref sig .tc := ⟨.hbm, 31, rfl⟩
abbrev main_v20 : Ref sig .tc := ⟨.hbm, 32, rfl⟩
abbrev main_v21 : Ref sig .tc := ⟨.hbm, 33, rfl⟩
abbrev main_cst_2 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_3 : Ref sig .tc := ⟨.hbm, 40, rfl⟩
abbrev main_v27 : Ref sig .tc := ⟨.hbm, 41, rfl⟩
abbrev main_v28 : Ref sig .tc := ⟨.hbm, 42, rfl⟩
abbrev main_cst_4 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩

abbrev nD : Nat := 1
abbrev τ : Topo := Topo.v7x

variable {F : FTy → Type} [FloatOps F]

class Facts₀ : Prop where
  bcast_S1024x1024_S1x1024x1024_1_2 : S1024x1024.BroadcastsInDim S1x1024x1024 (![1, 2] : Fin 2 → Fin S1x1024x1024.rank)
  bcast_S1x1024x1024_S32x1024x1024_0_1_2 : S1x1024x1024.BroadcastsInDim S32x1024x1024 (![0, 1, 2] : Fin 3 → Fin S32x1024x1024.rank)
  bcast_S32x1024_S32x1x1024_0_2 : S32x1024.BroadcastsInDim S32x1x1024 (![0, 2] : Fin 2 → Fin S32x1x1024.rank)
  bcast_S32x1x1024_S32x1024x1024_0_1_2 : S32x1x1024.BroadcastsInDim S32x1024x1024 (![0, 1, 2] : Fin 3 → Fin S32x1024x1024.rank)
  reducesTo_S32x1024x1024_S32x1024_d2 : S32x1024x1024.ReducesTo [2] S32x1024
  h_S_ : 0 < S_.numel
  bcast_S_S32x1024 : S_.BroadcastsInDim S32x1024 (![] : Fin 0 → Fin S32x1024.rank)

variable [Facts₀]

class Facts : Prop extends Facts₀ where

variable [Facts]
-- ==== Proof.LibWholeStore.lean ====
/-
  Whole-buffer stores and loads.

  A rectangle at offset zero whose extent is the whole shape is the whole index set. So a store through it,
  made last, leaves exactly its payload whatever the buffer held and whatever was stored before; and a load
  through it reads the contents as they are.
-/
import Idealize.ShloMosaic.Lib.Pipeline.FrameBody
import Idealize.ShloMosaic.Lib.Pipeline.Value

noncomputable section

namespace Idealize.ShloMosaic.View

open Idealize.ShloMosaic

variable {sig : RefSig} {κ : Kind} {sp : Space} {S : Shape} {e : EltTy} {Val : EltTy → Type} [∀ e, Nonempty (Val e)]

/-- Every index lies in the rectangle at offset zero of full extent. -/
theorem mem_unit_zero_full {off : Fin S.rank → Nat} (h : off = fun _ => 0) (inb : ∀ a, off a + S.size a ≤ S.size a) (y : S.Idx) :
    y ∈ (Rect.unit off S.size inb).set := by
  subst h
  show y ∈ (Rect.whole S).set
  rw [Rect.set_whole]; exact Finset.mem_univ y

/-- A store of the whole buffer, made last, leaves its payload. -/
theorem read_writes_cons_unit_zero (v : View sig κ sp S e) (f : v.ty.Contents Val) {off : Fin S.rank → Nat} (h : off = fun _ => 0)
    (inb : ∀ a, off a + S.size a ≤ S.size a) (w : S.Idx → Val e) (L : List (Piece Val S e)) :
    v.read Val (v.writes Val f ((⟨Rect.unit off S.size inb, w⟩ : Piece Val S e) :: L)) = w := by
  rw [read_writes_eq_canon v f _ (fun y => ⟨_, List.mem_cons_self, mem_unit_zero_full h inb y⟩), canon_cons_unit_zero h inb w L]

/-- A load of the whole buffer reads its contents. -/
theorem readAt_unit_zero (v : View sig κ sp S e) (f : v.ty.Contents Val) {off : Fin S.rank → Nat} (h : off = fun _ => 0)
    (inb : ∀ a, off a + S.size a ≤ S.size a) :
    v.readAt Val (Rect.unit off S.size inb).toLoadRect f = v.read Val f := by
  rw [readAt_eq_ld, ld_unit_zero h inb]

end Idealize.ShloMosaic.View

end
-- ==== Proof.KSteps.lean ====
import proofs.«151799_j59399397704147_2_alg».proof.Proof.Gen.Kernel.Launch
import proofs.«151799_j59399397704147_2_alg».proof.Proof.Gen.Kernel.Skeleton
import proofs.«151799_j59399397704147_2_alg».proof.Proof.Gen.Kernel.Points
import proofs.«151799_j59399397704147_2_alg».proof.Proof.LibWholeStore
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Body

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two conditions of the body, from the grid point

The grid is (row block `i`, reduction step `k`), the reduction step innermost: point `t` is row block `t / 8`,
step `t % 8`. The body clears its running sum at the first step of a row block and, at the last, finishes the
row block: it writes the refractory current and the spikes. -/

/-- The reduction step is the first of its row block. -/
abbrev firstStep (i : grid0.Coords) : Prop := (Scalar.cmpi .ne (Scalar.extui (Scalar.cmpi .eq (BitVec.ofNat 32 (i 1).val) 0#32)) 0#32) = 1#1
/-- The reduction step is the last of its row block. -/
abbrev lastStep (i : grid0.Coords) : Prop := k0_cond2 i = 1#1

theorem firstStep_iff : ∀ t : Fin cfg0.N, firstStep (grid0.coords t) ↔ t.val % 8 = 0 :=
  (by decide +kernel : ∀ t : Fin grid0.N, firstStep (grid0.coords t) ↔ t.val % 8 = 0)
theorem lastStep_iff : ∀ t : Fin cfg0.N, lastStep (grid0.coords t) ↔ t.val % 8 = 7 :=
  (by decide +kernel : ∀ t : Fin grid0.N, lastStep (grid0.coords t) ↔ t.val % 8 = 7)

theorem hz2 : (![0, 0] : Fin 2 → Nat) = fun _ => 0 := by funext a; fin_cases a <;> rfl
theorem hz3 : (![0, 0, 0] : Fin 3 → Nat) = fun _ => 0 := by funext a; fin_cases a <;> rfl

/-- A load of a whole buffer that holds `x` reads `x`. -/
theorem whole_load {S : Shape} {e : EltTy} (a : Memref sig .tc .vmem S e) (h : a.IsWhole) (x : S.Idx → Elt F e) {off : Fin S.rank → Nat}
    (hz : off = fun _ => 0) (inb : ∀ d, off d + S.size d ≤ S.size d) :
    a.view.readAt (Elt F) (Rect.unit off S.size inb).toLoadRect (h.unread x) = x :=
  (View.readAt_unit_zero _ _ hz inb).trans (h.read_unread x)

/-! ## The body, case by case

In every case the ten input blocks are read and handed back as they were; both trace blocks are overwritten whole by
the updated traces; the running sum ends at the previous sum plus this step's two lane sums. -/

set_option maxHeartbeats 8000000 in
/-- First step of a row block (not the last): the running sum, whatever it held, is cleared and then receives this step's two lane sums. -/
theorem run_first (c : Dev nD) (i : grid0.Coords) (arg2 : Memref sig .tc .vmem S32x128x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S32x128 .f32) (harg5 : arg5.IsWhole) (arg6 : Memref sig .tc .vmem S32x128x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S32x128 .f32) (harg9 : arg9.IsWhole) (arg10 : Memref sig .tc .vmem S32x128 .f32) (harg10 : arg10.IsWhole) (arg11 : Memref sig .tc .vmem S32x128 .f32) (harg11 : arg11.IsWhole) (arg12 : Memref sig .tc .vmem S32x128 .f32) (harg12 : arg12.IsWhole) (arg13 : Memref sig .tc .vmem S32x128x128 .f32) (harg13 : arg13.IsWhole) (arg14 : Memref sig .tc .vmem S32x128x128 .f32) (harg14 : arg14.IsWhole) (arg15 : Memref sig .tc .vmem S32x128 .f32) (harg15 : arg15.IsWhole) (arg16 : Memref sig .tc .vmem S32x128 .f32) (harg16 : arg16.IsWhole)
    (hc1 : firstStep i) (hc2 : ¬lastStep i)
    (x0 : Vec F S32x128x128 .f32) (x1 x2 : Vec F S128x128 .f32) (x3 : Vec F S32x128 .f32)
    (x4 : Vec F S32x128x128 .f32) (x5 x6 : Vec F S128x128 .f32) (x7 x8 x9 : Vec F S32x128 .f32)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9
        ∗ (∃ d, owns (c : Thread nD τ) arg13 fullShare d) ∗ (∃ d, owns (c : Thread nD τ) arg14 fullShare d)
        ∗ (∃ d, owns (c : Thread nD τ) arg16 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9
            ∗ owns (c : Thread nD τ) arg13 fullShare (k0_pay5 x1 x0 x2 x3) ∗ owns (c : Thread nD τ) arg14 fullShare (k0_pay7 x5 x4 x6 x7)
            ∗ owns (c : Thread nD τ) arg16 fullShare (k0_pay1 (k0_pay6 x1 x0 x2 x3) (k0_pay7 x5 x4 x6 x7) k0_pay4)) -∗ K ⟨⟩))
      ⊢ wp frame (wpE (defs₀ (F := F)) Variants.none c none) E (cc0__het_syn_kernel i arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  simp only [cc0__het_syn_kernel_eq_skeleton]; unfold cc0__het_syn_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d11, %f11, -, H11⟩, ⟨%d12, %f12, -, H12⟩, ⟨%ds, %fs, -, HS⟩, Hk⟩
  obtain rfl := harg2.eq_unread hf0; obtain rfl := harg3.eq_unread hf1; obtain rfl := harg4.eq_unread hf2; obtain rfl := harg5.eq_unread hf3
  obtain rfl := harg6.eq_unread hf4; obtain rfl := harg7.eq_unread hf5; obtain rfl := harg8.eq_unread hf6; obtain rfl := harg9.eq_unread hf7
  obtain rfl := harg10.eq_unread hf8; obtain rfl := harg11.eq_unread hf9
  sl_exec (disch := first | exact hc1 | exact hc2)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  isplitl [H6]
  · iexists _; isplitr; · ipureintro; exact hf6
    iexact H6
  isplitl [H7]
  · iexists _; isplitr; · ipureintro; exact hf7
    iexact H7
  isplitl [H8]
  · iexists _; isplitr; · ipureintro; exact hf8
    iexact H8
  isplitl [H9]
  · iexists _; isplitr; · ipureintro; exact hf9
    iexact H9
  isplitl [H11]
  · iexists _; isplitr
    swap; · iexact H11
    ipureintro
    refine (View.read_writes_cons_unit_zero _ _ hz3 _ _ _).trans ?_
    (try sl_unfold_run_names)
    simp only [whole_load (S := S128x128) _ _ _ hz2, whole_load (S := S32x128) _ _ _ hz2, whole_load (S := S32x128x128) _ _ _ hz3,
      View.readAt_unit_zero (S := S32x128) _ _ hz2, View.read_writes_cons_unit_zero (S := S32x128) _ _ hz2, View.readCov_unit_zero (S := S32x128) _ hz2]
  isplitl [H12]
  · iexists _; isplitr
    swap; · iexact H12
    ipureintro
    refine (View.read_writes_cons_unit_zero _ _ hz3 _ _ _).trans ?_
    (try sl_unfold_run_names)
    simp only [whole_load (S := S128x128) _ _ _ hz2, whole_load (S := S32x128) _ _ _ hz2, whole_load (S := S32x128x128) _ _ _ hz3,
      View.readAt_unit_zero (S := S32x128) _ _ hz2, View.read_writes_cons_unit_zero (S := S32x128) _ _ hz2, View.readCov_unit_zero (S := S32x128) _ hz2]
  iexists _; isplitr
  swap; · iexact HS
  ipureintro
  refine (View.read_writes_cons_unit_zero _ _ hz2 _ _ _).trans ?_
  (try sl_unfold_run_names)
  simp only [whole_load (S := S128x128) _ _ _ hz2, whole_load (S := S32x128) _ _ _ hz2, whole_load (S := S32x128x128) _ _ _ hz3,
    View.readAt_unit_zero (S := S32x128) _ _ hz2, View.read_writes_cons_unit_zero (S := S32x128) _ _ hz2, View.readCov_unit_zero (S := S32x128) _ hz2]

set_option maxHeartbeats 8000000 in
/-- A middle step: the running sum `xs` left by the step before receives this step's two lane sums. -/
theorem run_mid (c : Dev nD) (i : grid0.Coords) (arg2 : Memref sig .tc .vmem S32x128x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S32x128 .f32) (harg5 : arg5.IsWhole) (arg6 : Memref sig .tc .vmem S32x128x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S32x128 .f32) (harg9 : arg9.IsWhole) (arg10 : Memref sig .tc .vmem S32x128 .f32) (harg10 : arg10.IsWhole) (arg11 : Memref sig .tc .vmem S32x128 .f32) (harg11 : arg11.IsWhole) (arg12 : Memref sig .tc .vmem S32x128 .f32) (harg12 : arg12.IsWhole) (arg13 : Memref sig .tc .vmem S32x128x128 .f32) (harg13 : arg13.IsWhole) (arg14 : Memref sig .tc .vmem S32x128x128 .f32) (harg14 : arg14.IsWhole) (arg15 : Memref sig .tc .vmem S32x128 .f32) (harg15 : arg15.IsWhole) (arg16 : Memref sig .tc .vmem S32x128 .f32) (harg16 : arg16.IsWhole)
    (hc1 : ¬firstStep i) (hc2 : ¬lastStep i)
    (x0 : Vec F S32x128x128 .f32) (x1 x2 : Vec F S128x128 .f32) (x3 : Vec F S32x128 .f32)
    (x4 : Vec F S32x128x128 .f32) (x5 x6 : Vec F S128x128 .f32) (x7 x8 x9 : Vec F S32x128 .f32) (xs : Vec F S32x128 .f32)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9
        ∗ (∃ d, owns (c : Thread nD τ) arg13 fullShare d) ∗ (∃ d, owns (c : Thread nD τ) arg14 fullShare d)
        ∗ owns (c : Thread nD τ) arg16 fullShare xs
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9
            ∗ owns (c : Thread nD τ) arg13 fullShare (k0_pay5 x1 x0 x2 x3) ∗ owns (c : Thread nD τ) arg14 fullShare (k0_pay7 x5 x4 x6 x7)
            ∗ owns (c : Thread nD τ) arg16 fullShare (k0_pay1 (k0_pay6 x1 x0 x2 x3) (k0_pay7 x5 x4 x6 x7) xs)) -∗ K ⟨⟩))
      ⊢ wp frame (wpE (defs₀ (F := F)) Variants.none c none) E (cc0__het_syn_kernel i arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  simp only [cc0__het_syn_kernel_eq_skeleton]; unfold cc0__het_syn_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d11, %f11, -, H11⟩, ⟨%d12, %f12, -, H12⟩, ⟨%fs, %hfs, HS⟩, Hk⟩
  obtain rfl := harg2.eq_unread hf0; obtain rfl := harg3.eq_unread hf1; obtain rfl := harg4.eq_unread hf2; obtain rfl := harg5.eq_unread hf3
  obtain rfl := harg6.eq_unread hf4; obtain rfl := harg7.eq_unread hf5; obtain rfl := harg8.eq_unread hf6; obtain rfl := harg9.eq_unread hf7
  obtain rfl := harg10.eq_unread hf8; obtain rfl := harg11.eq_unread hf9; obtain rfl := harg16.eq_unread hfs
  sl_exec (disch := first | exact hc1 | exact hc2)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  isplitl [H6]
  · iexists _; isplitr; · ipureintro; exact hf6
    iexact H6
  isplitl [H7]
  · iexists _; isplitr; · ipureintro; exact hf7
    iexact H7
  isplitl [H8]
  · iexists _; isplitr; · ipureintro; exact hf8
    iexact H8
  isplitl [H9]
  · iexists _; isplitr; · ipureintro; exact hf9
    iexact H9
  isplitl [H11]
  · iexists _; isplitr
    swap; · iexact H11
    ipureintro
    refine (View.read_writes_cons_unit_zero _ _ hz3 _ _ _).trans ?_
    (try sl_unfold_run_names)
    simp only [whole_load (S := S128x128) _ _ _ hz2, whole_load (S := S32x128) _ _ _ hz2, whole_load (S := S32x128x128) _ _ _ hz3,
      View.readAt_unit_zero (S := S32x128) _ _ hz2, View.read_writes_cons_unit_zero (S := S32x128) _ _ hz2, View.readCov_unit_zero (S := S32x128) _ hz2]
  isplitl [H12]
  · iexists _; isplitr
    swap; · iexact H12
    ipureintro
    refine (View.read_writes_cons_unit_zero _ _ hz3 _ _ _).trans ?_
    (try sl_unfold_run_names)
    simp only [whole_load (S := S128x128) _ _ _ hz2, whole_load (S := S32x128) _ _ _ hz2, whole_load (S := S32x128x128) _ _ _ hz3,
      View.readAt_unit_zero (S := S32x128) _ _ hz2, View.read_writes_cons_unit_zero (S := S32x128) _ _ hz2, View.readCov_unit_zero (S := S32x128) _ hz2]
  iexists _; isplitr
  swap; · iexact HS
  ipureintro
  refine (View.read_writes_cons_unit_zero _ _ hz2 _ _ _).trans ?_
  (try sl_unfold_run_names)
  simp only [whole_load (S := S128x128) _ _ _ hz2, whole_load (S := S32x128) _ _ _ hz2, whole_load (S := S32x128x128) _ _ _ hz3,
    View.readAt_unit_zero (S := S32x128) _ _ hz2, View.read_writes_cons_unit_zero (S := S32x128) _ _ hz2, View.readCov_unit_zero (S := S32x128) _ hz2]

set_option maxHeartbeats 8000000 in
/-- Last step of a row block: as a middle step, and then the refractory current and the spikes of the row block are written, the spikes from the finished sum. -/
theorem run_last (c : Dev nD) (i : grid0.Coords) (arg2 : Memref sig .tc .vmem S32x128x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S32x128 .f32) (harg5 : arg5.IsWhole) (arg6 : Memref sig .tc .vmem S32x128x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S32x128 .f32) (harg9 : arg9.IsWhole) (arg10 : Memref sig .tc .vmem S32x128 .f32) (harg10 : arg10.IsWhole) (arg11 : Memref sig .tc .vmem S32x128 .f32) (harg11 : arg11.IsWhole) (arg12 : Memref sig .tc .vmem S32x128 .f32) (harg12 : arg12.IsWhole) (arg13 : Memref sig .tc .vmem S32x128x128 .f32) (harg13 : arg13.IsWhole) (arg14 : Memref sig .tc .vmem S32x128x128 .f32) (harg14 : arg14.IsWhole) (arg15 : Memref sig .tc .vmem S32x128 .f32) (harg15 : arg15.IsWhole) (arg16 : Memref sig .tc .vmem S32x128 .f32) (harg16 : arg16.IsWhole)
    (hc1 : ¬firstStep i) (hc2 : lastStep i)
    (x0 : Vec F S32x128x128 .f32) (x1 x2 : Vec F S128x128 .f32) (x3 : Vec F S32x128 .f32)
    (x4 : Vec F S32x128x128 .f32) (x5 x6 : Vec F S128x128 .f32) (x7 x8 x9 : Vec F S32x128 .f32) (xs : Vec F S32x128 .f32)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9
        ∗ (∃ d, owns (c : Thread nD τ) arg13 fullShare d) ∗ (∃ d, owns (c : Thread nD τ) arg14 fullShare d)
        ∗ (∃ d, owns (c : Thread nD τ) arg12 fullShare d) ∗ (∃ d, owns (c : Thread nD τ) arg15 fullShare d)
        ∗ owns (c : Thread nD τ) arg16 fullShare xs
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9
            ∗ owns (c : Thread nD τ) arg13 fullShare (k0_pay5 x1 x0 x2 x3) ∗ owns (c : Thread nD τ) arg14 fullShare (k0_pay7 x5 x4 x6 x7)
            ∗ owns (c : Thread nD τ) arg12 fullShare (k0_pay3 x9 x8 (k0_pay1 (k0_pay6 x1 x0 x2 x3) (k0_pay7 x5 x4 x6 x7) xs)) ∗ owns (c : Thread nD τ) arg15 fullShare (k0_pay2 x9 x8)
            ∗ owns (c : Thread nD τ) arg16 fullShare (k0_pay1 (k0_pay6 x1 x0 x2 x3) (k0_pay7 x5 x4 x6 x7) xs)) -∗ K ⟨⟩))
      ⊢ wp frame (wpE (defs₀ (F := F)) Variants.none c none) E (cc0__het_syn_kernel i arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  simp only [cc0__het_syn_kernel_eq_skeleton]; unfold cc0__het_syn_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d11, %f11, -, H11⟩, ⟨%d12, %f12, -, H12⟩, ⟨%d10, %f10, -, H10⟩, ⟨%d13, %f13, -, H13⟩, ⟨%fs, %hfs, HS⟩, Hk⟩
  obtain rfl := harg2.eq_unread hf0; obtain rfl := harg3.eq_unread hf1; obtain rfl := harg4.eq_unread hf2; obtain rfl := harg5.eq_unread hf3
  obtain rfl := harg6.eq_unread hf4; obtain rfl := harg7.eq_unread hf5; obtain rfl := harg8.eq_unread hf6; obtain rfl := harg9.eq_unread hf7
  obtain rfl := harg10.eq_unread hf8; obtain rfl := harg11.eq_unread hf9; obtain rfl := harg16.eq_unread hfs
  sl_exec (disch := first | exact hc1 | exact hc2)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  isplitl [H6]
  · iexists _; isplitr; · ipureintro; exact hf6
    iexact H6
  isplitl [H7]
  · iexists _; isplitr; · ipureintro; exact hf7
    iexact H7
  isplitl [H8]
  · iexists _; isplitr; · ipureintro; exact hf8
    iexact H8
  isplitl [H9]
  · iexists _; isplitr; · ipureintro; exact hf9
    iexact H9
  isplitl [H11]
  · iexists _; isplitr
    swap; · iexact H11
    ipureintro
    refine (View.read_writes_cons_unit_zero _ _ hz3 _ _ _).trans ?_
    (try sl_unfold_run_names)
    simp only [whole_load (S := S128x128) _ _ _ hz2, whole_load (S := S32x128) _ _ _ hz2, whole_load (S := S32x128x128) _ _ _ hz3,
      View.readAt_unit_zero (S := S32x128) _ _ hz2, View.read_writes_cons_unit_zero (S := S32x128) _ _ hz2, View.readCov_unit_zero (S := S32x128) _ hz2]
  isplitl [H12]
  · iexists _; isplitr
    swap; · iexact H12
    ipureintro
    refine (View.read_writes_cons_unit_zero _ _ hz3 _ _ _).trans ?_
    (try sl_unfold_run_names)
    simp only [whole_load (S := S128x128) _ _ _ hz2, whole_load (S := S32x128) _ _ _ hz2, whole_load (S := S32x128x128) _ _ _ hz3,
      View.readAt_unit_zero (S := S32x128) _ _ hz2, View.read_writes_cons_unit_zero (S := S32x128) _ _ hz2, View.readCov_unit_zero (S := S32x128) _ hz2]
  isplitl [H10]
  · iexists _; isplitr
    swap; · iexact H10
    ipureintro
    refine (View.read_writes_cons_unit_zero _ _ hz2 _ _ _).trans ?_
    (try sl_unfold_run_names)
    simp only [whole_load (S := S128x128) _ _ _ hz2, whole_load (S := S32x128) _ _ _ hz2, whole_load (S := S32x128x128) _ _ _ hz3,
      View.readAt_unit_zero (S := S32x128) _ _ hz2, View.read_writes_cons_unit_zero (S := S32x128) _ _ hz2, View.readCov_unit_zero (S := S32x128) _ hz2]
  isplitl [H13]
  · iexists _; isplitr
    swap; · iexact H13
    ipureintro
    refine (View.read_writes_cons_unit_zero _ _ hz2 _ _ _).trans ?_
    (try sl_unfold_run_names)
    simp only [whole_load (S := S128x128) _ _ _ hz2, whole_load (S := S32x128) _ _ _ hz2, whole_load (S := S32x128x128) _ _ _ hz3,
      View.readAt_unit_zero (S := S32x128) _ _ hz2, View.read_writes_cons_unit_zero (S := S32x128) _ _ hz2, View.readCov_unit_zero (S := S32x128) _ hz2]
  iexists _; isplitr
  swap; · iexact HS
  ipureintro
  refine (View.read_writes_cons_unit_zero _ _ hz2 _ _ _).trans ?_
  (try sl_unfold_run_names)
  simp only [whole_load (S := S128x128) _ _ _ hz2, whole_load (S := S32x128) _ _ _ hz2, whole_load (S := S32x128x128) _ _ _ hz3,
    View.readAt_unit_zero (S := S32x128) _ _ hz2, View.read_writes_cons_unit_zero (S := S32x128) _ _ hz2, View.readCov_unit_zero (S := S32x128) _ hz2]

end Cert.Kernel.Body

end
-- ==== Proof.KData.lean ====
import proofs.«151799_j59399397704147_2_alg».proof.Proof.Gen.Kernel.Launch
import proofs.«151799_j59399397704147_2_alg».proof.Proof.Gen.Kernel.Skeleton
import proofs.«151799_j59399397704147_2_alg».proof.Proof.Gen.Kernel.Points
import proofs.«151799_j59399397704147_2_alg».proof.Proof.LibWholeStore
import Idealize.ShloMosaic.Lib.Pipeline.FrameBody
import Idealize.ShloMosaic.Lib.Pipeline.FrameSuffix
import Idealize.ShloMosaic.Lib.Ring
import Idealize.ShloMosaic.Lib.Tactic
import proofs.«151799_j59399397704147_2_alg».proof.Proof.KSteps
set_option maxRecDepth 16384

noncomputable section

namespace Cert.Kernel.Body

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays as the region finds them

Before the region the two trace arrays are copied into the buffers of the two trace results; nothing else moves. -/

abbrev V0 (c : Dev nD) : Valuation τ sig (Elt F) := StableHlo.after (hostOps0 (F := F)) (fun b => m (c, b))
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor

/-- The program is the two copies, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- The two copies before the region write only the two trace results: every argument array is, at the region's entry,
    what it was at launch. -/
theorem V_main_arg0 (c : Dev nD) : V m c main_arg0 = m ((c : Thread nD τ).loc main_arg0) := by
  show StableHlo.after (hostOps0 (F := F)) (fun b => m (c, b)) (Proc.devRef .tc main_arg0) = _
  after_results
theorem V_main_arg1 (c : Dev nD) : V m c main_arg1 = m ((c : Thread nD τ).loc main_arg1) := by
  show StableHlo.after (hostOps0 (F := F)) (fun b => m (c, b)) (Proc.devRef .tc main_arg1) = _
  after_results
theorem V_main_arg2 (c : Dev nD) : V m c main_arg2 = m ((c : Thread nD τ).loc main_arg2) := by
  show StableHlo.after (hostOps0 (F := F)) (fun b => m (c, b)) (Proc.devRef .tc main_arg2) = _
  after_results
theorem V_main_arg3 (c : Dev nD) : V m c main_arg3 = m ((c : Thread nD τ).loc main_arg3) := by
  show StableHlo.after (hostOps0 (F := F)) (fun b => m (c, b)) (Proc.devRef .tc main_arg3) = _
  after_results
theorem V_main_arg4 (c : Dev nD) : V m c main_arg4 = m ((c : Thread nD τ).loc main_arg4) := by
  show StableHlo.after (hostOps0 (F := F)) (fun b => m (c, b)) (Proc.devRef .tc main_arg4) = _
  after_results
theorem V_main_arg5 (c : Dev nD) : V m c main_arg5 = m ((c : Thread nD τ).loc main_arg5) := by
  show StableHlo.after (hostOps0 (F := F)) (fun b => m (c, b)) (Proc.devRef .tc main_arg5) = _
  after_results
theorem V_main_arg6 (c : Dev nD) : V m c main_arg6 = m ((c : Thread nD τ).loc main_arg6) := by
  show StableHlo.after (hostOps0 (F := F)) (fun b => m (c, b)) (Proc.devRef .tc main_arg6) = _
  after_results
theorem V_main_arg7 (c : Dev nD) : V m c main_arg7 = m ((c : Thread nD τ).loc main_arg7) := by
  show StableHlo.after (hostOps0 (F := F)) (fun b => m (c, b)) (Proc.devRef .tc main_arg7) = _
  after_results
theorem V_main_arg8 (c : Dev nD) : V m c main_arg8 = m ((c : Thread nD τ).loc main_arg8) := by
  show StableHlo.after (hostOps0 (F := F)) (fun b => m (c, b)) (Proc.devRef .tc main_arg8) = _
  after_results

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The running sum

At point `t` the body adds to the running sum the lane sums of the two updated trace blocks of that point. The sum
restarts from the cleared value at the first step of every row block. -/

/-- A running sum `prev` after point `t`'s contribution. -/
def stepSum (c : Dev nD) (t : Fin cfg0.N) (prev : Vec F S32x128 .f32) : Vec F S32x128 .f32 :=
  k0_pay1 (k0_pay6 (iblk m c 1 t) (iblk m c 0 t) (iblk m c 2 t) (iblk m c 3 t)) (k0_pay7 (iblk m c 5 t) (iblk m c 4 t) (iblk m c 6 t) (iblk m c 7 t)) prev

/-- What the scratch holds after the body at position `n`. -/
def accAt (c : Dev nD) : (n : ℕ) → n < cfg0.N → Vec F S32x128 .f32
  | 0, hn => stepSum m c ⟨0, hn⟩ k0_pay4
  | n + 1, hn => stepSum m c ⟨n + 1, hn⟩ (if (n + 1) % 8 = 0 then k0_pay4 else accAt c n (Nat.lt_of_succ_lt hn))

theorem accAt_first (c : Dev nD) (t : Fin cfg0.N) (h : t.val % 8 = 0) : accAt m c t.val t.isLt = stepSum m c t k0_pay4 := by
  obtain ⟨n, hn⟩ := t
  cases n with
  | zero => rfl
  | succ n => show stepSum m c ⟨n + 1, hn⟩ (if (n + 1) % 8 = 0 then _ else _) = _; rw [if_pos h]

theorem accAt_next (c : Dev nD) (t : Fin cfg0.N) (h : ¬t.val % 8 = 0) :
    accAt m c t.val t.isLt = stepSum m c t (accAt m c (t.val - 1) (Nat.lt_of_le_of_lt (Nat.sub_le _ _) t.isLt)) := by
  obtain ⟨n, hn⟩ := t
  cases n with
  | zero => exact absurd (Nat.zero_mod _) h
  | succ n => show stepSum m c ⟨n + 1, hn⟩ (if (n + 1) % 8 = 0 then _ else _) = _; rw [if_neg h]; rfl

/-! ## The invariant between points: the scratch at the running sum -/

abbrev scM : Memref sig .tc .vmem S32x128 .f32 := Memref.whole cc0_scratch0

/-- What the launch hands the region of the core's own buffers: the scratch, at anything. -/
theorem scopedRest_scratch (c : Dev nD) :
    (Pipeline.scopedRest (Ix := Unit) (Name := ℕ) (U := UR sig nD τ) (Lvl := ℕ) (Val := Elt F) spec0 c : sProp 𝕄)
      = iprop(∃ d, owns (c : Thread nD τ) scM fullShare d) := by
  rw [scopedRest0_eq]; simp only [scM, owns_whole]; try rfl

def PhiS (c : Dev nD) : (n : ℕ) → n ≤ cfg0.N → sProp 𝕄
  | 0, _ => Pipeline.scopedRest (Ix := Unit) (Name := ℕ) (U := UR sig nD τ) (Lvl := ℕ) (Val := Elt F) spec0 c
  | n + 1, hn => owns (c : Thread nD τ) scM fullShare (accAt m c n hn)

theorem PhiS_zero (c : Dev nD) (n : ℕ) (h : n ≤ cfg0.N) (hz : n = 0) :
    PhiS m c n h = iprop(∃ d, owns (c : Thread nD τ) scM fullShare d) := by
  subst hz; exact scopedRest_scratch c
theorem PhiS_succ (c : Dev nD) (n : ℕ) (hn : n < cfg0.N) :
    PhiS m c (n + 1) hn = owns (c : Thread nD τ) scM fullShare (accAt m c n hn) := rfl
theorem PhiS_pos (c : Dev nD) (n : ℕ) (h : n ≤ cfg0.N) (hz : n ≠ 0) :
    PhiS m c n h = owns (c : Thread nD τ) scM fullShare (accAt m c (n - 1) (by omega)) := by
  cases n with
  | zero => exact absurd rfl hz
  | succ n => rfl

/-! ## The proof data

After the body at point `t`: every input's buffer still at its block; the two trace outputs at the updated traces of
the point's blocks; the refractory output at the updated refractory current of the point's blocks, and the spike
output at the spikes computed from the running sum (both consulted only at the last step of a row block). The
previous-spike array is read through two windows, each holding half of it. -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => k0_pay3 (iblk m c 9 t) (iblk m c 8 t) (accAt m c t.val t.isLt)
    | ⟨11, _⟩ => k0_pay5 (iblk m c 1 t) (iblk m c 0 t) (iblk m c 2 t) (iblk m c 3 t)
    | ⟨12, _⟩ => k0_pay7 (iblk m c 5 t) (iblk m c 4 t) (iblk m c 6 t) (iblk m c 7 t)
    | ⟨13, _⟩ => k0_pay2 (iblk m c 9 t) (iblk m c 8 t)
  Φ t := PhiS m c t.val (Nat.le_of_lt_succ t.isLt)
  q w := match w with
    | ⟨0, _⟩ => fullShare
    | ⟨1, _⟩ => fullShare
    | ⟨2, _⟩ => fullShare
    | ⟨3, _⟩ => fullShare
    | ⟨4, _⟩ => fullShare
    | ⟨5, _⟩ => fullShare
    | ⟨6, _⟩ => fullShare
    | ⟨7, _⟩ => fullShare.left
    | ⟨8, _⟩ => fullShare.right
    | ⟨9, _⟩ => fullShare
    | ⟨10, _⟩ => fullShare
    | ⟨11, _⟩ => fullShare
    | ⟨12, _⟩ => fullShare
    | ⟨13, _⟩ => fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = iblk m c 8 t := by dsimp only [dats]
theorem after9 (c : Dev nD) (t : Fin cfg0.N) : (dats m 0 c).after 9 t = iblk m c 9 t := by dsimp only [dats]
theorem after10 (c : Dev nD) (t : Fin cfg0.N) : (dats m 0 c).after 10 t = k0_pay3 (iblk m c 9 t) (iblk m c 8 t) (accAt m c t.val t.isLt) := by dsimp only [dats]
theorem after11 (c : Dev nD) (t : Fin cfg0.N) : (dats m 0 c).after 11 t = k0_pay5 (iblk m c 1 t) (iblk m c 0 t) (iblk m c 2 t) (iblk m c 3 t) := by dsimp only [dats]
theorem after12 (c : Dev nD) (t : Fin cfg0.N) : (dats m 0 c).after 12 t = k0_pay7 (iblk m c 5 t) (iblk m c 4 t) (iblk m c 6 t) (iblk m c 7 t) := by dsimp only [dats]
theorem after13 (c : Dev nD) (t : Fin cfg0.N) : (dats m 0 c).after 13 t = k0_pay2 (iblk m c 9 t) (iblk m c 8 t) := by dsimp only [dats]

theorem before0 (c : Dev nD) (t : Fin cfg0.N) (d) : (dats m 0 c).before 0 t d = iblk m c 0 t :=
  ((dats m 0 c).before_in_eq_fetched 0 rfl (fun _ => rfl) (fun _ _ _ => rfl) (fun t => by rw [after0]; unfold Dat.blockOf iblk; rw [A_eq]; try rfl) t d).trans
    (by unfold Dat.fetched Dat.blockOf iblk; rw [A_eq]; try rfl)
theorem before1 (c : Dev nD) (t : Fin cfg0.N) (d) : (dats m 0 c).before 1 t d = iblk m c 1 t :=
  ((dats m 0 c).before_in_eq_fetched 1 rfl (fun _ => rfl) (fun _ _ _ => rfl) (fun t => by rw [after1]; unfold Dat.blockOf iblk; rw [A_eq]; try rfl) t d).trans
    (by unfold Dat.fetched Dat.blockOf iblk; rw [A_eq]; try rfl)
theorem before2 (c : Dev nD) (t : Fin cfg0.N) (d) : (dats m 0 c).before 2 t d = iblk m c 2 t :=
  ((dats m 0 c).before_in_eq_fetched 2 rfl (fun _ => rfl) (fun _ _ _ => rfl) (fun t => by rw [after2]; unfold Dat.blockOf iblk; rw [A_eq]; try rfl) t d).trans
    (by unfold Dat.fetched Dat.blockOf iblk; rw [A_eq]; try rfl)
theorem before3 (c : Dev nD) (t : Fin cfg0.N) (d) : (dats m 0 c).before 3 t d = iblk m c 3 t :=
  ((dats m 0 c).before_in_eq_fetched 3 rfl (fun _ => rfl) (fun _ _ _ => rfl) (fun t => by rw [after3]; unfold Dat.blockOf iblk; rw [A_eq]; try rfl) t d).trans
    (by unfold Dat.fetched Dat.blockOf iblk; rw [A_eq]; try rfl)
theorem before4 (c : Dev nD) (t : Fin cfg0.N) (d) : (dats m 0 c).before 4 t d = iblk m c 4 t :=
  ((dats m 0 c).before_in_eq_fetched 4 rfl (fun _ => rfl) (fun _ _ _ => rfl) (fun t => by rw [after4]; unfold Dat.blockOf iblk; rw [A_eq]; try rfl) t d).trans
    (by unfold Dat.fetched Dat.blockOf iblk; rw [A_eq]; try rfl)
theorem before5 (c : Dev nD) (t : Fin cfg0.N) (d) : (dats m 0 c).before 5 t d = iblk m c 5 t :=
  ((dats m 0 c).before_in_eq_fetched 5 rfl (fun _ => rfl) (fun _ _ _ => rfl) (fun t => by rw [after5]; unfold Dat.blockOf iblk; rw [A_eq]; try rfl) t d).trans
    (by unfold Dat.fetched Dat.blockOf iblk; rw [A_eq]; try rfl)
theorem before6 (c : Dev nD) (t : Fin cfg0.N) (d) : (dats m 0 c).before 6 t d = iblk m c 6 t :=
  ((dats m 0 c).before_in_eq_fetched 6 rfl (fun _ => rfl) (fun _ _ _ => rfl) (fun t => by rw [after6]; unfold Dat.blockOf iblk; rw [A_eq]; try rfl) t d).trans
    (by unfold Dat.fetched Dat.blockOf iblk; rw [A_eq]; try rfl)
theorem before7 (c : Dev nD) (t : Fin cfg0.N) (d) : (dats m 0 c).before 7 t d = iblk m c 7 t :=
  ((dats m 0 c).before_in_eq_fetched 7 rfl (fun _ => rfl) (fun _ _ _ => rfl) (fun t => by rw [after7]; unfold Dat.blockOf iblk; rw [A_eq]; try rfl) t d).trans
    (by unfold Dat.fetched Dat.blockOf iblk; rw [A_eq]; try rfl)
theorem before8 (c : Dev nD) (t : Fin cfg0.N) (d) : (dats m 0 c).before 8 t d = iblk m c 8 t :=
  ((dats m 0 c).before_in_eq_fetched 8 rfl (fun _ => rfl) (fun _ _ _ => rfl) (fun t => by rw [after8]; unfold Dat.blockOf iblk; rw [A_eq]; try rfl) t d).trans
    (by unfold Dat.fetched Dat.blockOf iblk; rw [A_eq]; try rfl)
theorem before9 (c : Dev nD) (t : Fin cfg0.N) (d) : (dats m 0 c).before 9 t d = iblk m c 9 t :=
  ((dats m 0 c).before_in_eq_fetched 9 rfl (fun _ => rfl) (fun _ _ _ => rfl) (fun t => by rw [after9]; unfold Dat.blockOf iblk; rw [A_eq]; try rfl) t d).trans
    (by unfold Dat.fetched Dat.blockOf iblk; rw [A_eq]; try rfl)

/-! ## Where the windows are idle -/

theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem live3 : ∀ t : Fin cfg0.N, cfg0.idle 3 (grid0.coords t) = false := by decide +kernel
theorem live4 : ∀ t : Fin cfg0.N, cfg0.idle 4 (grid0.coords t) = false := by decide +kernel
theorem live5 : ∀ t : Fin cfg0.N, cfg0.idle 5 (grid0.coords t) = false := by decide +kernel
theorem live6 : ∀ t : Fin cfg0.N, cfg0.idle 6 (grid0.coords t) = false := by decide +kernel
theorem live7 : ∀ t : Fin cfg0.N, cfg0.idle 7 (grid0.coords t) = false := by decide +kernel
theorem live8 : ∀ t : Fin cfg0.N, cfg0.idle 8 (grid0.coords t) = false := by decide +kernel
theorem live9 : ∀ t : Fin cfg0.N, cfg0.idle 9 (grid0.coords t) = false := by decide +kernel
theorem live11 : ∀ t : Fin cfg0.N, cfg0.idle 11 (grid0.coords t) = false := by decide +kernel
theorem live12 : ∀ t : Fin cfg0.N, cfg0.idle 12 (grid0.coords t) = false := by decide +kernel
theorem idle10_of : ∀ t : Fin cfg0.N, ¬lastStep (grid0.coords t) → cfg0.idle 10 (grid0.coords t) = true := by decide +kernel
theorem noFlush10_of : ∀ t : Fin cfg0.N, ¬lastStep (grid0.coords t) → (cfg0.win 10).flush t = false := by decide +kernel
theorem live10_of : ∀ t : Fin cfg0.N, lastStep (grid0.coords t) → cfg0.idle 10 (grid0.coords t) = false := by decide +kernel
theorem idle13_of : ∀ t : Fin cfg0.N, ¬lastStep (grid0.coords t) → cfg0.idle 13 (grid0.coords t) = true := by decide +kernel
theorem noFlush13_of : ∀ t : Fin cfg0.N, ¬lastStep (grid0.coords t) → (cfg0.win 13).flush t = false := by decide +kernel
theorem live13_of : ∀ t : Fin cfg0.N, lastStep (grid0.coords t) → cfg0.idle 13 (grid0.coords t) = false := by decide +kernel

/-! ## The body obligation -/

abbrev ms0 (t : Fin cfg0.N) : Memref sig .tc .vmem S32x128x128 .f32 := win0_0.stage (cfg0.slots t 0)
abbrev ms1 (t : Fin cfg0.N) : Memref sig .tc .vmem S128x128 .f32 := win0_1.stage (cfg0.slots t 1)
abbrev ms2 (t : Fin cfg0.N) : Memref sig .tc .vmem S128x128 .f32 := win0_2.stage (cfg0.slots t 2)
abbrev ms3 (t : Fin cfg0.N) : Memref sig .tc .vmem S32x128 .f32 := win0_3.stage (cfg0.slots t 3)
abbrev ms4 (t : Fin cfg0.N) : Memref sig .tc .vmem S32x128x128 .f32 := win0_4.stage (cfg0.slots t 4)
abbrev ms5 (t : Fin cfg0.N) : Memref sig .tc .vmem S128x128 .f32 := win0_5.stage (cfg0.slots t 5)
abbrev ms6 (t : Fin cfg0.N) : Memref sig .tc .vmem S128x128 .f32 := win0_6.stage (cfg0.slots t 6)
abbrev ms7 (t : Fin cfg0.N) : Memref sig .tc .vmem S32x128 .f32 := win0_7.stage (cfg0.slots t 7)
abbrev ms8 (t : Fin cfg0.N) : Memref sig .tc .vmem S32x128 .f32 := win0_8.stage (cfg0.slots t 8)
abbrev ms9 (t : Fin cfg0.N) : Memref sig .tc .vmem S32x128 .f32 := win0_9.stage (cfg0.slots t 9)
abbrev ms10 (t : Fin cfg0.N) : Memref sig .tc .vmem S32x128 .f32 := win0_10.stage (cfg0.slots t 10)
abbrev ms11 (t : Fin cfg0.N) : Memref sig .tc .vmem S32x128x128 .f32 := win0_11.stage (cfg0.slots t 11)
abbrev ms12 (t : Fin cfg0.N) : Memref sig .tc .vmem S32x128x128 .f32 := win0_12.stage (cfg0.slots t 12)
abbrev ms13 (t : Fin cfg0.N) : Memref sig .tc .vmem S32x128 .f32 := win0_13.stage (cfg0.slots t 13)

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d))
    ∗ (∃ d, owns (c : Thread nD τ) (ms9 t) fullShare ((dats m 0 c).before 9 t d))
    ∗ (∃ d, owns (c : Thread nD τ) (ms10 t) fullShare ((dats m 0 c).before 10 t d))
    ∗ (∃ d, owns (c : Thread nD τ) (ms11 t) fullShare ((dats m 0 c).before 11 t d))
    ∗ (∃ d, owns (c : Thread nD τ) (ms12 t) fullShare ((dats m 0 c).before 12 t d))
    ∗ (∃ d, owns (c : Thread nD τ) (ms13 t) fullShare ((dats m 0 c).before 13 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t)

set_option maxHeartbeats 4800000 in
/-- The body at any point. The inputs' buffers hold their blocks; the reduction step decides the case; the scratch is
    handed over at the running sum the point before left (at anything at the very first point, and at the first step
    of a row block its contents do not matter) and taken back at this point's running sum. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7, before8, before9]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (ms0 t) fullShare ((dats m 0 c).after 0 t) from by
    unfold Dat.leavesExact; rw [live0 t], after0]
  rw [show (dats m 0 c).leavesExact 1 t = owns (c : Thread nD τ) (ms1 t) fullShare ((dats m 0 c).after 1 t) from by
    unfold Dat.leavesExact; rw [live1 t], after1]
  rw [show (dats m 0 c).leavesExact 2 t = owns (c : Thread nD τ) (ms2 t) fullShare ((dats m 0 c).after 2 t) from by
    unfold Dat.leavesExact; rw [live2 t], after2]
  rw [show (dats m 0 c).leavesExact 3 t = owns (c : Thread nD τ) (ms3 t) fullShare ((dats m 0 c).after 3 t) from by
    unfold Dat.leavesExact; rw [live3 t], after3]
  rw [show (dats m 0 c).leavesExact 4 t = owns (c : Thread nD τ) (ms4 t) fullShare ((dats m 0 c).after 4 t) from by
    unfold Dat.leavesExact; rw [live4 t], after4]
  rw [show (dats m 0 c).leavesExact 5 t = owns (c : Thread nD τ) (ms5 t) fullShare ((dats m 0 c).after 5 t) from by
    unfold Dat.leavesExact; rw [live5 t], after5]
  rw [show (dats m 0 c).leavesExact 6 t = owns (c : Thread nD τ) (ms6 t) fullShare ((dats m 0 c).after 6 t) from by
    unfold Dat.leavesExact; rw [live6 t], after6]
  rw [show (dats m 0 c).leavesExact 7 t = owns (c : Thread nD τ) (ms7 t) fullShare ((dats m 0 c).after 7 t) from by
    unfold Dat.leavesExact; rw [live7 t], after7]
  rw [show (dats m 0 c).leavesExact 8 t = owns (c : Thread nD τ) (ms8 t) fullShare ((dats m 0 c).after 8 t) from by
    unfold Dat.leavesExact; rw [live8 t], after8]
  rw [show (dats m 0 c).leavesExact 9 t = owns (c : Thread nD τ) (ms9 t) fullShare ((dats m 0 c).after 9 t) from by
    unfold Dat.leavesExact; rw [live9 t], after9]
  rw [show (dats m 0 c).leavesExact 11 t = owns (c : Thread nD τ) (ms11 t) fullShare ((dats m 0 c).after 11 t) from by
    unfold Dat.leavesExact; rw [live11 t], after11]
  rw [show (dats m 0 c).leavesExact 12 t = owns (c : Thread nD τ) (ms12 t) fullShare ((dats m 0 c).after 12 t) from by
    unfold Dat.leavesExact; rw [live12 t], after12]
  rw [PhiS_castSucc m c t]
  by_cases h0 : t.val % 8 = 0
  · have hc1 : firstStep (grid0.coords t) := (firstStep_iff t).mpr h0
    have hc2 : ¬lastStep (grid0.coords t) := fun h => by have := (lastStep_iff t).mp h; omega
    rw [Dat.leavesExact_idle (dats m 0 c) 10 t (idle10_of t hc2) (noFlush10_of t hc2)]
    rw [Dat.leavesExact_idle (dats m 0 c) 13 t (idle13_of t hc2) (noFlush13_of t hc2)]
    rw [accAt_first m c t h0]; unfold stepSum
    have hΦ : PhiS m c t.val (Nat.le_of_lt t.isLt) ⊢ iprop(∃ d, owns (c : Thread nD τ) scM fullShare d) := by
      by_cases hz : t.val = 0
      · rw [PhiS_zero m c _ _ hz]
      · rw [PhiS_pos m c _ _ hz]; iintro H; iexists _; iexact H
    iintro ⟨HP, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
    iapply (run_first c (grid0.coords t) _ _ _ _ _ _ _ _ _ _ _ _ _ _ _ _ _ _ _ _ _ _ _ _ _ _ _ _ _ _ hc1 hc2 (iblk m c 0 t) (iblk m c 1 t) (iblk m c 2 t) (iblk m c 3 t) (iblk m c 4 t) (iblk m c 5 t) (iblk m c 6 t) (iblk m c 7 t) (iblk m c 8 t) (iblk m c 9 t) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H11]; · iexists _; iexact H11
    isplitl [H12]; · iexists _; iexact H12
    isplitl [HP]; · iapply hΦ; iexact HP
    iintro ⟨H0, H1, H2, H3, H4, H5, H6, H7, H8, H9, H11, H12, HS⟩
    isplitl [HS]; · iexact HS
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexists _; iexact H10
    isplitl [H11]; · iexact H11
    isplitl [H12]; · iexact H12
    iexists _; iexact H13
  · have hc1 : ¬firstStep (grid0.coords t) := fun h => h0 ((firstStep_iff t).mp h)
    have hz : t.val ≠ 0 := by omega
    rw [PhiS_pos m c _ _ hz]
    by_cases h7 : t.val % 8 = 7
    · have hc2 : lastStep (grid0.coords t) := (lastStep_iff t).mpr h7
      rw [show (dats m 0 c).leavesExact 10 t = owns (c : Thread nD τ) (ms10 t) fullShare ((dats m 0 c).after 10 t) from by
        unfold Dat.leavesExact; rw [live10_of t hc2], after10]
      rw [show (dats m 0 c).leavesExact 13 t = owns (c : Thread nD τ) (ms13 t) fullShare ((dats m 0 c).after 13 t) from by
        unfold Dat.leavesExact; rw [live13_of t hc2], after13]
      rw [accAt_next m c t h0]; unfold stepSum
      iintro ⟨HP, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
      iapply (run_last c (grid0.coords t) _ _ _ _ _ _ _ _ _ _ _ _ _ _ _ _ _ _ _ _ _ _ _ _ _ _ _ _ _ _ hc1 hc2 (iblk m c 0 t) (iblk m c 1 t) (iblk m c 2 t) (iblk m c 3 t) (iblk m c 4 t) (iblk m c 5 t) (iblk m c 6 t) (iblk m c 7 t) (iblk m c 8 t) (iblk m c 9 t) _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H11]; · iexists _; iexact H11
      isplitl [H12]; · iexists _; iexact H12
      isplitl [H10]; · iexists _; iexact H10
      isplitl [H13]; · iexists _; iexact H13
      isplitl [HP]; · iexact HP
      iintro ⟨H0, H1, H2, H3, H4, H5, H6, H7, H8, H9, H11, H12, H10, H13, HS⟩
      isplitl [HS]; · iexact HS
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      iexact H13
    · have hc2 : ¬lastStep (grid0.coords t) := fun h => h7 ((lastStep_iff t).mp h)
      rw [Dat.leavesExact_idle (dats m 0 c) 10 t (idle10_of t hc2) (noFlush10_of t hc2)]
      rw [Dat.leavesExact_idle (dats m 0 c) 13 t (idle13_of t hc2) (noFlush13_of t hc2)]
      rw [accAt_next m c t h0]; unfold stepSum
      iintro ⟨HP, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
      iapply (run_mid c (grid0.coords t) _ _ _ _ _ _ _ _ _ _ _ _ _ _ _ _ _ _ _ _ _ _ _ _ _ _ _ _ _ _ hc1 hc2 (iblk m c 0 t) (iblk m c 1 t) (iblk m c 2 t) (iblk m c 3 t) (iblk m c 4 t) (iblk m c 5 t) (iblk m c 6 t) (iblk m c 7 t) (iblk m c 8 t) (iblk m c 9 t) _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H11]; · iexists _; iexact H11
      isplitl [H12]; · iexists _; iexact H12
      isplitl [HP]; · iexact HP
      iintro ⟨H0, H1, H2, H3, H4, H5, H6, H7, H8, H9, H11, H12, HS⟩
      isplitl [HS]; · iexact HS
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexists _; iexact H10
      isplitl [H11]; · iexact H11
      isplitl [H12]; · iexact H12
      iexists _; iexact H13

/-- The library's body obligation, at every point. -/
theorem body_obligation (c : Dev nD) : BodyObligation (dats (F := F) m 0 c) (defs₀ (F := F)) Variants.none () Set.univ := fun t => by
  rw [bigSep_W0, bigSep_W0]
  exact sound_body m c t

end Cert.Kernel.Body

end
-- ==== Proof.KLaunch.lean ====
import proofs.«151799_j59399397704147_2_alg».proof.Proof.Gen.Kernel.Launch
import proofs.«151799_j59399397704147_2_alg».proof.Proof.Gen.Kernel.Skeleton
import proofs.«151799_j59399397704147_2_alg».proof.Proof.Gen.Kernel.Points
import proofs.«151799_j59399397704147_2_alg».proof.Proof.LibWholeStore
import Idealize.ShloMosaic.Lib.Pipeline.FrameBody
import Idealize.ShloMosaic.Lib.Pipeline.FrameSuffix
import Idealize.ShloMosaic.Lib.Ring
import Idealize.ShloMosaic.Lib.Tactic
import proofs.«151799_j59399397704147_2_alg».proof.Proof.KData
set_option maxRecDepth 16384

noncomputable section

namespace Cert.Kernel.Body

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays at the region's entry: one buffer read through two windows

The fourteen windows read thirteen distinct buffers: the previous-spike array is read once blocked along the
reduction axis (the drive of the recurrent path) and once along the neuron axis (the refractory current). The whole
buffer is split in two halves, one per window; every other window holds its array whole. -/

theorem arrRefs_eq : (Finset.univ.image (Pipeline.arrRef spec0) : Finset (Ref sig .tc))
    = [main_arg2, main_arg6, main_arg5, main_arg0, main_arg3, main_arg8, main_arg7, main_arg1, main_arg4, main_v0_0, main_v0_1, main_v0_2, main_v0_3].toFinset := by decide

/-- A proposition at each of the thirteen buffers, one by one. -/
theorem bigSep_arrRefs {M : Type} [URA M] (Φ : Ref sig .tc → sProp M) :
    bigSep (Finset.univ.image (Pipeline.arrRef spec0)) Φ
      = iprop(Φ main_arg2 ∗ Φ main_arg6 ∗ Φ main_arg5 ∗ Φ main_arg0 ∗ Φ main_arg3 ∗ Φ main_arg8 ∗ Φ main_arg7 ∗ Φ main_arg1
          ∗ Φ main_arg4 ∗ Φ main_v0_0 ∗ Φ main_v0_1 ∗ Φ main_v0_2 ∗ Φ main_v0_3) :=
  bigSep_eq_bigSepL_of_eq [main_arg2, main_arg6, main_arg5, main_arg0, main_arg3, main_arg8, main_arg7, main_arg1, main_arg4,
    main_v0_0, main_v0_1, main_v0_2, main_v0_3] arrRefs_eq (by decide) Φ

/-- A window that alone reads or writes its array holds it whole. -/
theorem arr_full (c : Dev nD) (w : Fin cfg0.W) (hs : (dats m 0 c).share w = fullShare) :
    ((((c.tc : Thread nD τ).loc (Pipeline.arrRef spec0 w)) ↦{fullShare} V m c (Pipeline.arrRef spec0 w)) : sProp 𝕄)
      ⊢ ((cfg0.win w).arr.view.loc (c.tc : Thread nD τ) ↦[(cfg0.win w).arr.view.set]{(dats m 0 c).share w} (dats m 0 c).arrAt w 0) := by
  rw [(arr_whole0 w).set_eq_univ, hs]
  exact Entails.of_eq rfl

/-- The previous-spike buffer, held whole, is its two windows' halves. -/
theorem arr_halves (c : Dev nD) :
    ((((c.tc : Thread nD τ).loc main_arg1) ↦{fullShare} V m c main_arg1) : sProp 𝕄)
      ⊢ iprop(((cfg0.win 7).arr.view.loc (c.tc : Thread nD τ) ↦[(cfg0.win 7).arr.view.set]{(dats m 0 c).share 7} (dats m 0 c).arrAt 7 0)
          ∗ ((cfg0.win 8).arr.view.loc (c.tc : Thread nD τ) ↦[(cfg0.win 8).arr.view.set]{(dats m 0 c).share 8} (dats m 0 c).arrAt 8 0)) := by
  rw [(arr_whole0 7).set_eq_univ,
    show (dats m 0 c).share 7 = fullShare.left from rfl, show (dats m 0 c).share 8 = fullShare.right from rfl]
  exact (pointsTo_share (PosShare.mem_left_op_right fullShare)).1

theorem hsplit (c : Dev nD) :
    (Pipeline.arrBufs spec0 c (V m c) : sProp 𝕄) ⊢ (dats m 0 c).arrays ((dats m 0 c).arrAt · 0) := by
  unfold Pipeline.arrBufs Dat.arrays
  rw [bigSep_arrRefs, bigSep_W0]
  iintro ⟨A_arg2, A_arg6, A_arg5, A_arg0, A_arg3, A_arg8, A_arg7, A_arg1, A_arg4, A_v0_0, A_v0_1, A_v0_2, A_v0_3⟩
  ihave Hh := (arr_halves m c) $$ A_arg1
  icases Hh with ⟨A_arg1a, A_arg1b⟩
  isplitl [A_arg2]; · iapply (arr_full m c 0 rfl); iexact A_arg2
  isplitl [A_arg6]; · iapply (arr_full m c 1 rfl); iexact A_arg6
  isplitl [A_arg5]; · iapply (arr_full m c 2 rfl); iexact A_arg5
  isplitl [A_arg0]; · iapply (arr_full m c 3 rfl); iexact A_arg0
  isplitl [A_arg3]; · iapply (arr_full m c 4 rfl); iexact A_arg3
  isplitl [A_arg8]; · iapply (arr_full m c 5 rfl); iexact A_arg8
  isplitl [A_arg7]; · iapply (arr_full m c 6 rfl); iexact A_arg7
  isplitl [A_arg1a]; · iexact A_arg1a
  isplitl [A_arg1b]; · iexact A_arg1b
  isplitl [A_arg4]; · iapply (arr_full m c 9 rfl); iexact A_arg4
  isplitl [A_v0_0]; · iapply (arr_full m c 10 rfl); iexact A_v0_0
  isplitl [A_v0_1]; · iapply (arr_full m c 11 rfl); iexact A_v0_1
  isplitl [A_v0_2]; · iapply (arr_full m c 12 rfl); iexact A_v0_2
  iapply (arr_full m c 13 rfl); iexact A_v0_3

/-! ## The run -/

set_option backward.isDefEq.respectTransparency.types false in
/-- From any memory with zero counters every weakly fair execution of the program terminates, and every window's array
    ends at what the write-backs of the proof data leave in it. -/
theorem run_main : θ_run defs (onTc (τ := τ) (main (F := F))) ⟨m, fun _ => 0, ρ⟩
    (fun r => ∀ c : Dev nD, ∀ w, r.2.mem (((cfg0).spec w).arr.view.loc (c.tc : Thread nD τ)) = (dats m 0 c).arrAt w cfg0.N) := by
  classical
  exact Pipeline.θ_run_region_noSem_shared cfgs (dats m) () cellOf_inj (0 : Fin 1) winFacts₀0 emb₁ defs₀ Variants.none m ρ main
    (hbody := fun c => (body_obligation m c).loose)
    (hne := block_pos0) (harr := arr_whole0) (hstage := stage_whole0) (howed := fun _ _ => rfl)
    (u₀ := initOf (Pipeline.cells cfgs cellOf_inj) (Pipeline.launchToks cfgs cellOf_inj))
    (hu₀ := (show (ownU _ : sProp 𝕄) ⊢ BI.own (emb₁ (initOf (Pipeline.cells cfgs cellOf_inj) (Pipeline.launchToks cfgs cellOf_inj))) from .rfl))
    (V := V m) (hmain := hmain m Variants.none)
    (hsplit := hsplit m)
    (X := fun _ => iprop(emp)) (Y := fun _ => iprop(emp))
    (Z := fun c => Pipeline.unscopedRest (Ix := Unit) (Name := ℕ) (U := UR sig nD τ) (Lvl := ℕ) spec0 c (V m c))
    (hX := fun c => by iintro H; isplitr; · iempintro
                       iexact H)
    (hin := fun c => by
      show iprop(emp ∗ Pipeline.scopedRest (Ix := Unit) (Name := ℕ) (U := UR sig nD τ) (Lvl := ℕ) (Val := Elt F) spec0 c)
        ⊢ Pipeline.scopedRest (Ix := Unit) (Name := ℕ) (U := UR sig nD τ) (Lvl := ℕ) (Val := Elt F) spec0 c
      iintro ⟨-, H⟩; iexact H)
    (hout := fun c => by
      rw [show (dats m 0 c).Φ (Fin.last cfg0.N) = PhiS m c cfg0.N (Nat.le_refl _) from rfl,
        PhiS_pos m c _ _ (by rw [show cfg0.N = 64 from N_0]; decide), scopedRest_scratch]
      iintro H; isplitr; · iempintro
      iexists _; iexact H)
    (QY := fun _ _ => True)
    (hY := fun c s' => by
      iintro ⟨-, -, HSI⟩; imodintro
      isplitr; · ipureintro; trivial
      iexact HSI)
    (hQ := fun s h c w => (h c).1 w)

/-! ## The frame: every argument array ends as it began -/

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => ⟨((h c 3).trans (((dats m 0 c).arrAt_in 3 rfl _).trans ((A_eq m c 3).trans (V_main_arg0 m c)))),
    ((h c 7).trans (((dats m 0 c).arrAt_in 7 rfl _).trans ((A_eq m c 7).trans (V_main_arg1 m c)))),
    ((h c 0).trans (((dats m 0 c).arrAt_in 0 rfl _).trans ((A_eq m c 0).trans (V_main_arg2 m c)))),
    ((h c 4).trans (((dats m 0 c).arrAt_in 4 rfl _).trans ((A_eq m c 4).trans (V_main_arg3 m c)))),
    ((h c 9).trans (((dats m 0 c).arrAt_in 9 rfl _).trans ((A_eq m c 9).trans (V_main_arg4 m c)))),
    ((h c 2).trans (((dats m 0 c).arrAt_in 2 rfl _).trans ((A_eq m c 2).trans (V_main_arg5 m c)))),
    ((h c 1).trans (((dats m 0 c).arrAt_in 1 rfl _).trans ((A_eq m c 1).trans (V_main_arg6 m c)))),
    ((h c 6).trans (((dats m 0 c).arrAt_in 6 rfl _).trans ((A_eq m c 6).trans (V_main_arg7 m c)))),
    ((h c 5).trans (((dats m 0 c).arrAt_in 5 rfl _).trans ((A_eq m c 5).trans (V_main_arg8 m c))))⟩)
    (run_main m ρ)

end Cert.Kernel.Body

end
-- ==== Proof.KISteps.lean ====
import proofs.«151799_j59399397704147_2_alg».proof.Proof.Gen.KernelIdeal.Launch
import proofs.«151799_j59399397704147_2_alg».proof.Proof.Gen.KernelIdeal.Skeleton
import proofs.«151799_j59399397704147_2_alg».proof.Proof.Gen.KernelIdeal.Points
import proofs.«151799_j59399397704147_2_alg».proof.Proof.LibWholeStore
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Body

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two conditions of the body, from the grid point

The grid is (row block `i`, reduction step `k`), the reduction step innermost: point `t` is row block `t / 8`,
step `t % 8`. The body clears its running sum at the first step of a row block and, at the last, finishes the
row block: it writes the refractory current and the spikes. -/

/-- The reduction step is the first of its row block. -/
abbrev firstStep (i : grid0.Coords) : Prop := (Scalar.cmpi .ne (Scalar.extui (Scalar.cmpi .eq (BitVec.ofNat 32 (i 1).val) 0#32)) 0#32) = 1#1
/-- The reduction step is the last of its row block. -/
abbrev lastStep (i : grid0.Coords) : Prop := k0_cond2 i = 1#1

theorem firstStep_iff : ∀ t : Fin cfg0.N, firstStep (grid0.coords t) ↔ t.val % 8 = 0 :=
  (by decide +kernel : ∀ t : Fin grid0.N, firstStep (grid0.coords t) ↔ t.val % 8 = 0)
theorem lastStep_iff : ∀ t : Fin cfg0.N, lastStep (grid0.coords t) ↔ t.val % 8 = 7 :=
  (by decide +kernel : ∀ t : Fin grid0.N, lastStep (grid0.coords t) ↔ t.val % 8 = 7)

theorem hz2 : (![0, 0] : Fin 2 → Nat) = fun _ => 0 := by funext a; fin_cases a <;> rfl
theorem hz3 : (![0, 0, 0] : Fin 3 → Nat) = fun _ => 0 := by funext a; fin_cases a <;> rfl

/-- A load of a whole buffer that holds `x` reads `x`. -/
theorem whole_load {S : Shape} {e : EltTy} (a : Memref sig .tc .vmem S e) (h : a.IsWhole) (x : S.Idx → Elt F e) {off : Fin S.rank → Nat}
    (hz : off = fun _ => 0) (inb : ∀ d, off d + S.size d ≤ S.size d) :
    a.view.readAt (Elt F) (Rect.unit off S.size inb).toLoadRect (h.unread x) = x :=
  (View.readAt_unit_zero _ _ hz inb).trans (h.read_unread x)

/-! ## The body, case by case

In every case the ten input blocks are read and handed back as they were; both trace blocks are overwritten whole by
the updated traces; the running sum ends at the previous sum plus this step's two lane sums. -/

set_option maxHeartbeats 8000000 in
/-- First step of a row block (not the last): the running sum, whatever it held, is cleared and then receives this step's two lane sums. -/
theorem run_first (c : Dev nD) (i : grid0.Coords) (arg2 : Memref sig .tc .vmem S32x128x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S32x128 .f32) (harg5 : arg5.IsWhole) (arg6 : Memref sig .tc .vmem S32x128x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S32x128 .f32) (harg9 : arg9.IsWhole) (arg10 : Memref sig .tc .vmem S32x128 .f32) (harg10 : arg10.IsWhole) (arg11 : Memref sig .tc .vmem S32x128 .f32) (harg11 : arg11.IsWhole) (arg12 : Memref sig .tc .vmem S32x128 .f32) (harg12 : arg12.IsWhole) (arg13 : Memref sig .tc .vmem S32x128x128 .f32) (harg13 : arg13.IsWhole) (arg14 : Memref sig .tc .vmem S32x128x128 .f32) (harg14 : arg14.IsWhole) (arg15 : Memref sig .tc .vmem S32x128 .f32) (harg15 : arg15.IsWhole) (arg16 : Memref sig .tc .vmem S32x128 .f32) (harg16 : arg16.IsWhole)
    (hc1 : firstStep i) (hc2 : ¬lastStep i)
    (x0 : Vec F S32x128x128 .f32) (x1 x2 : Vec F S128x128 .f32) (x3 : Vec F S32x128 .f32)
    (x4 : Vec F S32x128x128 .f32) (x5 x6 : Vec F S128x128 .f32) (x7 x8 x9 : Vec F S32x128 .f32)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9
        ∗ (∃ d, owns (c : Thread nD τ) arg13 fullShare d) ∗ (∃ d, owns (c : Thread nD τ) arg14 fullShare d)
        ∗ (∃ d, owns (c : Thread nD τ) arg16 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9
            ∗ owns (c : Thread nD τ) arg13 fullShare (k0_pay5 x1 x0 x2 x3) ∗ owns (c : Thread nD τ) arg14 fullShare (k0_pay7 x5 x4 x6 x7)
            ∗ owns (c : Thread nD τ) arg16 fullShare (k0_pay1 (k0_pay6 x1 x0 x2 x3) (k0_pay7 x5 x4 x6 x7) k0_pay4)) -∗ K ⟨⟩))
      ⊢ wp frame (wpE (defs₀ (F := F)) Variants.none c none) E (cc0__het_syn_kernel i arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  simp only [cc0__het_syn_kernel_eq_skeleton]; unfold cc0__het_syn_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d11, %f11, -, H11⟩, ⟨%d12, %f12, -, H12⟩, ⟨%ds, %fs, -, HS⟩, Hk⟩
  obtain rfl := harg2.eq_unread hf0; obtain rfl := harg3.eq_unread hf1; obtain rfl := harg4.eq_unread hf2; obtain rfl := harg5.eq_unread hf3
  obtain rfl := harg6.eq_unread hf4; obtain rfl := harg7.eq_unread hf5; obtain rfl := harg8.eq_unread hf6; obtain rfl := harg9.eq_unread hf7
  obtain rfl := harg10.eq_unread hf8; obtain rfl := harg11.eq_unread hf9
  sl_exec (disch := first | exact hc1 | exact hc2)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  isplitl [H6]
  · iexists _; isplitr; · ipureintro; exact hf6
    iexact H6
  isplitl [H7]
  · iexists _; isplitr; · ipureintro; exact hf7
    iexact H7
  isplitl [H8]
  · iexists _; isplitr; · ipureintro; exact hf8
    iexact H8
  isplitl [H9]
  · iexists _; isplitr; · ipureintro; exact hf9
    iexact H9
  isplitl [H11]
  · iexists _; isplitr
    swap; · iexact H11
    ipureintro
    refine (View.read_writes_cons_unit_zero _ _ hz3 _ _ _).trans ?_
    (try sl_unfold_run_names)
    simp only [whole_load (S := S128x128) _ _ _ hz2, whole_load (S := S32x128) _ _ _ hz2, whole_load (S := S32x128x128) _ _ _ hz3,
      View.readAt_unit_zero (S := S32x128) _ _ hz2, View.read_writes_cons_unit_zero (S := S32x128) _ _ hz2, View.readCov_unit_zero (S := S32x128) _ hz2]
  isplitl [H12]
  · iexists _; isplitr
    swap; · iexact H12
    ipureintro
    refine (View.read_writes_cons_unit_zero _ _ hz3 _ _ _).trans ?_
    (try sl_unfold_run_names)
    simp only [whole_load (S := S128x128) _ _ _ hz2, whole_load (S := S32x128) _ _ _ hz2, whole_load (S := S32x128x128) _ _ _ hz3,
      View.readAt_unit_zero (S := S32x128) _ _ hz2, View.read_writes_cons_unit_zero (S := S32x128) _ _ hz2, View.readCov_unit_zero (S := S32x128) _ hz2]
  iexists _; isplitr
  swap; · iexact HS
  ipureintro
  refine (View.read_writes_cons_unit_zero _ _ hz2 _ _ _).trans ?_
  (try sl_unfold_run_names)
  simp only [whole_load (S := S128x128) _ _ _ hz2, whole_load (S := S32x128) _ _ _ hz2, whole_load (S := S32x128x128) _ _ _ hz3,
    View.readAt_unit_zero (S := S32x128) _ _ hz2, View.read_writes_cons_unit_zero (S := S32x128) _ _ hz2, View.readCov_unit_zero (S := S32x128) _ hz2]

set_option maxHeartbeats 8000000 in
/-- A middle step: the running sum `xs` left by the step before receives this step's two lane sums. -/
theorem run_mid (c : Dev nD) (i : grid0.Coords) (arg2 : Memref sig .tc .vmem S32x128x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S32x128 .f32) (harg5 : arg5.IsWhole) (arg6 : Memref sig .tc .vmem S32x128x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S32x128 .f32) (harg9 : arg9.IsWhole) (arg10 : Memref sig .tc .vmem S32x128 .f32) (harg10 : arg10.IsWhole) (arg11 : Memref sig .tc .vmem S32x128 .f32) (harg11 : arg11.IsWhole) (arg12 : Memref sig .tc .vmem S32x128 .f32) (harg12 : arg12.IsWhole) (arg13 : Memref sig .tc .vmem S32x128x128 .f32) (harg13 : arg13.IsWhole) (arg14 : Memref sig .tc .vmem S32x128x128 .f32) (harg14 : arg14.IsWhole) (arg15 : Memref sig .tc .vmem S32x128 .f32) (harg15 : arg15.IsWhole) (arg16 : Memref sig .tc .vmem S32x128 .f32) (harg16 : arg16.IsWhole)
    (hc1 : ¬firstStep i) (hc2 : ¬lastStep i)
    (x0 : Vec F S32x128x128 .f32) (x1 x2 : Vec F S128x128 .f32) (x3 : Vec F S32x128 .f32)
    (x4 : Vec F S32x128x128 .f32) (x5 x6 : Vec F S128x128 .f32) (x7 x8 x9 : Vec F S32x128 .f32) (xs : Vec F S32x128 .f32)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9
        ∗ (∃ d, owns (c : Thread nD τ) arg13 fullShare d) ∗ (∃ d, owns (c : Thread nD τ) arg14 fullShare d)
        ∗ owns (c : Thread nD τ) arg16 fullShare xs
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9
            ∗ owns (c : Thread nD τ) arg13 fullShare (k0_pay5 x1 x0 x2 x3) ∗ owns (c : Thread nD τ) arg14 fullShare (k0_pay7 x5 x4 x6 x7)
            ∗ owns (c : Thread nD τ) arg16 fullShare (k0_pay1 (k0_pay6 x1 x0 x2 x3) (k0_pay7 x5 x4 x6 x7) xs)) -∗ K ⟨⟩))
      ⊢ wp frame (wpE (defs₀ (F := F)) Variants.none c none) E (cc0__het_syn_kernel i arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  simp only [cc0__het_syn_kernel_eq_skeleton]; unfold cc0__het_syn_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d11, %f11, -, H11⟩, ⟨%d12, %f12, -, H12⟩, ⟨%fs, %hfs, HS⟩, Hk⟩
  obtain rfl := harg2.eq_unread hf0; obtain rfl := harg3.eq_unread hf1; obtain rfl := harg4.eq_unread hf2; obtain rfl := harg5.eq_unread hf3
  obtain rfl := harg6.eq_unread hf4; obtain rfl := harg7.eq_unread hf5; obtain rfl := harg8.eq_unread hf6; obtain rfl := harg9.eq_unread hf7
  obtain rfl := harg10.eq_unread hf8; obtain rfl := harg11.eq_unread hf9; obtain rfl := harg16.eq_unread hfs
  sl_exec (disch := first | exact hc1 | exact hc2)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  isplitl [H6]
  · iexists _; isplitr; · ipureintro; exact hf6
    iexact H6
  isplitl [H7]
  · iexists _; isplitr; · ipureintro; exact hf7
    iexact H7
  isplitl [H8]
  · iexists _; isplitr; · ipureintro; exact hf8
    iexact H8
  isplitl [H9]
  · iexists _; isplitr; · ipureintro; exact hf9
    iexact H9
  isplitl [H11]
  · iexists _; isplitr
    swap; · iexact H11
    ipureintro
    refine (View.read_writes_cons_unit_zero _ _ hz3 _ _ _).trans ?_
    (try sl_unfold_run_names)
    simp only [whole_load (S := S128x128) _ _ _ hz2, whole_load (S := S32x128) _ _ _ hz2, whole_load (S := S32x128x128) _ _ _ hz3,
      View.readAt_unit_zero (S := S32x128) _ _ hz2, View.read_writes_cons_unit_zero (S := S32x128) _ _ hz2, View.readCov_unit_zero (S := S32x128) _ hz2]
  isplitl [H12]
  · iexists _; isplitr
    swap; · iexact H12
    ipureintro
    refine (View.read_writes_cons_unit_zero _ _ hz3 _ _ _).trans ?_
    (try sl_unfold_run_names)
    simp only [whole_load (S := S128x128) _ _ _ hz2, whole_load (S := S32x128) _ _ _ hz2, whole_load (S := S32x128x128) _ _ _ hz3,
      View.readAt_unit_zero (S := S32x128) _ _ hz2, View.read_writes_cons_unit_zero (S := S32x128) _ _ hz2, View.readCov_unit_zero (S := S32x128) _ hz2]
  iexists _; isplitr
  swap; · iexact HS
  ipureintro
  refine (View.read_writes_cons_unit_zero _ _ hz2 _ _ _).trans ?_
  (try sl_unfold_run_names)
  simp only [whole_load (S := S128x128) _ _ _ hz2, whole_load (S := S32x128) _ _ _ hz2, whole_load (S := S32x128x128) _ _ _ hz3,
    View.readAt_unit_zero (S := S32x128) _ _ hz2, View.read_writes_cons_unit_zero (S := S32x128) _ _ hz2, View.readCov_unit_zero (S := S32x128) _ hz2]

set_option maxHeartbeats 8000000 in
/-- Last step of a row block: as a middle step, and then the refractory current and the spikes of the row block are written, the spikes from the finished sum. -/
theorem run_last (c : Dev nD) (i : grid0.Coords) (arg2 : Memref sig .tc .vmem S32x128x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S32x128 .f32) (harg5 : arg5.IsWhole) (arg6 : Memref sig .tc .vmem S32x128x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S32x128 .f32) (harg9 : arg9.IsWhole) (arg10 : Memref sig .tc .vmem S32x128 .f32) (harg10 : arg10.IsWhole) (arg11 : Memref sig .tc .vmem S32x128 .f32) (harg11 : arg11.IsWhole) (arg12 : Memref sig .tc .vmem S32x128 .f32) (harg12 : arg12.IsWhole) (arg13 : Memref sig .tc .vmem S32x128x128 .f32) (harg13 : arg13.IsWhole) (arg14 : Memref sig .tc .vmem S32x128x128 .f32) (harg14 : arg14.IsWhole) (arg15 : Memref sig .tc .vmem S32x128 .f32) (harg15 : arg15.IsWhole) (arg16 : Memref sig .tc .vmem S32x128 .f32) (harg16 : arg16.IsWhole)
    (hc1 : ¬firstStep i) (hc2 : lastStep i)
    (x0 : Vec F S32x128x128 .f32) (x1 x2 : Vec F S128x128 .f32) (x3 : Vec F S32x128 .f32)
    (x4 : Vec F S32x128x128 .f32) (x5 x6 : Vec F S128x128 .f32) (x7 x8 x9 : Vec F S32x128 .f32) (xs : Vec F S32x128 .f32)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9
        ∗ (∃ d, owns (c : Thread nD τ) arg13 fullShare d) ∗ (∃ d, owns (c : Thread nD τ) arg14 fullShare d)
        ∗ (∃ d, owns (c : Thread nD τ) arg12 fullShare d) ∗ (∃ d, owns (c : Thread nD τ) arg15 fullShare d)
        ∗ owns (c : Thread nD τ) arg16 fullShare xs
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9
            ∗ owns (c : Thread nD τ) arg13 fullShare (k0_pay5 x1 x0 x2 x3) ∗ owns (c : Thread nD τ) arg14 fullShare (k0_pay7 x5 x4 x6 x7)
            ∗ owns (c : Thread nD τ) arg12 fullShare (k0_pay3 x9 x8 (k0_pay1 (k0_pay6 x1 x0 x2 x3) (k0_pay7 x5 x4 x6 x7) xs)) ∗ owns (c : Thread nD τ) arg15 fullShare (k0_pay2 x9 x8)
            ∗ owns (c : Thread nD τ) arg16 fullShare (k0_pay1 (k0_pay6 x1 x0 x2 x3) (k0_pay7 x5 x4 x6 x7) xs)) -∗ K ⟨⟩))
      ⊢ wp frame (wpE (defs₀ (F := F)) Variants.none c none) E (cc0__het_syn_kernel i arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  simp only [cc0__het_syn_kernel_eq_skeleton]; unfold cc0__het_syn_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d11, %f11, -, H11⟩, ⟨%d12, %f12, -, H12⟩, ⟨%d10, %f10, -, H10⟩, ⟨%d13, %f13, -, H13⟩, ⟨%fs, %hfs, HS⟩, Hk⟩
  obtain rfl := harg2.eq_unread hf0; obtain rfl := harg3.eq_unread hf1; obtain rfl := harg4.eq_unread hf2; obtain rfl := harg5.eq_unread hf3
  obtain rfl := harg6.eq_unread hf4; obtain rfl := harg7.eq_unread hf5; obtain rfl := harg8.eq_unread hf6; obtain rfl := harg9.eq_unread hf7
  obtain rfl := harg10.eq_unread hf8; obtain rfl := harg11.eq_unread hf9; obtain rfl := harg16.eq_unread hfs
  sl_exec (disch := first | exact hc1 | exact hc2)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  isplitl [H6]
  · iexists _; isplitr; · ipureintro; exact hf6
    iexact H6
  isplitl [H7]
  · iexists _; isplitr; · ipureintro; exact hf7
    iexact H7
  isplitl [H8]
  · iexists _; isplitr; · ipureintro; exact hf8
    iexact H8
  isplitl [H9]
  · iexists _; isplitr; · ipureintro; exact hf9
    iexact H9
  isplitl [H11]
  · iexists _; isplitr
    swap; · iexact H11
    ipureintro
    refine (View.read_writes_cons_unit_zero _ _ hz3 _ _ _).trans ?_
    (try sl_unfold_run_names)
    simp only [whole_load (S := S128x128) _ _ _ hz2, whole_load (S := S32x128) _ _ _ hz2, whole_load (S := S32x128x128) _ _ _ hz3,
      View.readAt_unit_zero (S := S32x128) _ _ hz2, View.read_writes_cons_unit_zero (S := S32x128) _ _ hz2, View.readCov_unit_zero (S := S32x128) _ hz2]
  isplitl [H12]
  · iexists _; isplitr
    swap; · iexact H12
    ipureintro
    refine (View.read_writes_cons_unit_zero _ _ hz3 _ _ _).trans ?_
    (try sl_unfold_run_names)
    simp only [whole_load (S := S128x128) _ _ _ hz2, whole_load (S := S32x128) _ _ _ hz2, whole_load (S := S32x128x128) _ _ _ hz3,
      View.readAt_unit_zero (S := S32x128) _ _ hz2, View.read_writes_cons_unit_zero (S := S32x128) _ _ hz2, View.readCov_unit_zero (S := S32x128) _ hz2]
  isplitl [H10]
  · iexists _; isplitr
    swap; · iexact H10
    ipureintro
    refine (View.read_writes_cons_unit_zero _ _ hz2 _ _ _).trans ?_
    (try sl_unfold_run_names)
    simp only [whole_load (S := S128x128) _ _ _ hz2, whole_load (S := S32x128) _ _ _ hz2, whole_load (S := S32x128x128) _ _ _ hz3,
      View.readAt_unit_zero (S := S32x128) _ _ hz2, View.read_writes_cons_unit_zero (S := S32x128) _ _ hz2, View.readCov_unit_zero (S := S32x128) _ hz2]
  isplitl [H13]
  · iexists _; isplitr
    swap; · iexact H13
    ipureintro
    refine (View.read_writes_cons_unit_zero _ _ hz2 _ _ _).trans ?_
    (try sl_unfold_run_names)
    simp only [whole_load (S := S128x128) _ _ _ hz2, whole_load (S := S32x128) _ _ _ hz2, whole_load (S := S32x128x128) _ _ _ hz3,
      View.readAt_unit_zero (S := S32x128) _ _ hz2, View.read_writes_cons_unit_zero (S := S32x128) _ _ hz2, View.readCov_unit_zero (S := S32x128) _ hz2]
  iexists _; isplitr
  swap; · iexact HS
  ipureintro
  refine (View.read_writes_cons_unit_zero _ _ hz2 _ _ _).trans ?_
  (try sl_unfold_run_names)
  simp only [whole_load (S := S128x128) _ _ _ hz2, whole_load (S := S32x128) _ _ _ hz2, whole_load (S := S32x128x128) _ _ _ hz3,
    View.readAt_unit_zero (S := S32x128) _ _ hz2, View.read_writes_cons_unit_zero (S := S32x128) _ _ hz2, View.readCov_unit_zero (S := S32x128) _ hz2]

end Cert.KernelIdeal.Body

end
-- ==== Proof.KIData.lean ====
import proofs.«151799_j59399397704147_2_alg».proof.Proof.Gen.KernelIdeal.Launch
import proofs.«151799_j59399397704147_2_alg».proof.Proof.Gen.KernelIdeal.Skeleton
import proofs.«151799_j59399397704147_2_alg».proof.Proof.Gen.KernelIdeal.Points
import proofs.«151799_j59399397704147_2_alg».proof.Proof.LibWholeStore
import Idealize.ShloMosaic.Lib.Pipeline.FrameBody
import Idealize.ShloMosaic.Lib.Pipeline.FrameSuffix
import Idealize.ShloMosaic.Lib.Ring
import Idealize.ShloMosaic.Lib.Tactic
import proofs.«151799_j59399397704147_2_alg».proof.Proof.KISteps
set_option maxRecDepth 16384

noncomputable section

namespace Cert.KernelIdeal.Body

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays as the region finds them

Before the region the two trace arrays are copied into the buffers of the two trace results; nothing else moves. -/

abbrev V0 (c : Dev nD) : Valuation τ sig (Elt F) := StableHlo.after (hostOps0 (F := F)) (fun b => m (c, b))
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor

/-- The program is the two copies, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- The two copies before the region write only the two trace results: every argument array is, at the region's entry,
    what it was at launch. -/
theorem V_main_arg0 (c : Dev nD) : V m c main_arg0 = m ((c : Thread nD τ).loc main_arg0) := by
  show StableHlo.after (hostOps0 (F := F)) (fun b => m (c, b)) (Proc.devRef .tc main_arg0) = _
  after_results
theorem V_main_arg1 (c : Dev nD) : V m c main_arg1 = m ((c : Thread nD τ).loc main_arg1) := by
  show StableHlo.after (hostOps0 (F := F)) (fun b => m (c, b)) (Proc.devRef .tc main_arg1) = _
  after_results
theorem V_main_arg2 (c : Dev nD) : V m c main_arg2 = m ((c : Thread nD τ).loc main_arg2) := by
  show StableHlo.after (hostOps0 (F := F)) (fun b => m (c, b)) (Proc.devRef .tc main_arg2) = _
  after_results
theorem V_main_arg3 (c : Dev nD) : V m c main_arg3 = m ((c : Thread nD τ).loc main_arg3) := by
  show StableHlo.after (hostOps0 (F := F)) (fun b => m (c, b)) (Proc.devRef .tc main_arg3) = _
  after_results
theorem V_main_arg4 (c : Dev nD) : V m c main_arg4 = m ((c : Thread nD τ).loc main_arg4) := by
  show StableHlo.after (hostOps0 (F := F)) (fun b => m (c, b)) (Proc.devRef .tc main_arg4) = _
  after_results
theorem V_main_arg5 (c : Dev nD) : V m c main_arg5 = m ((c : Thread nD τ).loc main_arg5) := by
  show StableHlo.after (hostOps0 (F := F)) (fun b => m (c, b)) (Proc.devRef .tc main_arg5) = _
  after_results
theorem V_main_arg6 (c : Dev nD) : V m c main_arg6 = m ((c : Thread nD τ).loc main_arg6) := by
  show StableHlo.after (hostOps0 (F := F)) (fun b => m (c, b)) (Proc.devRef .tc main_arg6) = _
  after_results
theorem V_main_arg7 (c : Dev nD) : V m c main_arg7 = m ((c : Thread nD τ).loc main_arg7) := by
  show StableHlo.after (hostOps0 (F := F)) (fun b => m (c, b)) (Proc.devRef .tc main_arg7) = _
  after_results
theorem V_main_arg8 (c : Dev nD) : V m c main_arg8 = m ((c : Thread nD τ).loc main_arg8) := by
  show StableHlo.after (hostOps0 (F := F)) (fun b => m (c, b)) (Proc.devRef .tc main_arg8) = _
  after_results

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The running sum

At point `t` the body adds to the running sum the lane sums of the two updated trace blocks of that point. The sum
restarts from the cleared value at the first step of every row block. -/

/-- A running sum `prev` after point `t`'s contribution. -/
def stepSum (c : Dev nD) (t : Fin cfg0.N) (prev : Vec F S32x128 .f32) : Vec F S32x128 .f32 :=
  k0_pay1 (k0_pay6 (iblk m c 1 t) (iblk m c 0 t) (iblk m c 2 t) (iblk m c 3 t)) (k0_pay7 (iblk m c 5 t) (iblk m c 4 t) (iblk m c 6 t) (iblk m c 7 t)) prev

/-- What the scratch holds after the body at position `n`. -/
def accAt (c : Dev nD) : (n : ℕ) → n < cfg0.N → Vec F S32x128 .f32
  | 0, hn => stepSum m c ⟨0, hn⟩ k0_pay4
  | n + 1, hn => stepSum m c ⟨n + 1, hn⟩ (if (n + 1) % 8 = 0 then k0_pay4 else accAt c n (Nat.lt_of_succ_lt hn))

theorem accAt_first (c : Dev nD) (t : Fin cfg0.N) (h : t.val % 8 = 0) : accAt m c t.val t.isLt = stepSum m c t k0_pay4 := by
  obtain ⟨n, hn⟩ := t
  cases n with
  | zero => rfl
  | succ n => show stepSum m c ⟨n + 1, hn⟩ (if (n + 1) % 8 = 0 then _ else _) = _; rw [if_pos h]

theorem accAt_next (c : Dev nD) (t : Fin cfg0.N) (h : ¬t.val % 8 = 0) :
    accAt m c t.val t.isLt = stepSum m c t (accAt m c (t.val - 1) (Nat.lt_of_le_of_lt (Nat.sub_le _ _) t.isLt)) := by
  obtain ⟨n, hn⟩ := t
  cases n with
  | zero => exact absurd (Nat.zero_mod _) h
  | succ n => show stepSum m c ⟨n + 1, hn⟩ (if (n + 1) % 8 = 0 then _ else _) = _; rw [if_neg h]; rfl

/-! ## The invariant between points: the scratch at the running sum -/

abbrev scM : Memref sig .tc .vmem S32x128 .f32 := Memref.whole cc0_scratch0

/-- What the launch hands the region of the core's own buffers: the scratch, at anything. -/
theorem scopedRest_scratch (c : Dev nD) :
    (Pipeline.scopedRest (Ix := Unit) (Name := ℕ) (U := UR sig nD τ) (Lvl := ℕ) (Val := Elt F) spec0 c : sProp 𝕄)
      = iprop(∃ d, owns (c : Thread nD τ) scM fullShare d) := by
  rw [scopedRest0_eq]; simp only [scM, owns_whole]; try rfl

def PhiS (c : Dev nD) : (n : ℕ) → n ≤ cfg0.N → sProp 𝕄
  | 0, _ => Pipeline.scopedRest (Ix := Unit) (Name := ℕ) (U := UR sig nD τ) (Lvl := ℕ) (Val := Elt F) spec0 c
  | n + 1, hn => owns (c : Thread nD τ) scM fullShare (accAt m c n hn)

theorem PhiS_zero (c : Dev nD) (n : ℕ) (h : n ≤ cfg0.N) (hz : n = 0) :
    PhiS m c n h = iprop(∃ d, owns (c : Thread nD τ) scM fullShare d) := by
  subst hz; exact scopedRest_scratch c
theorem PhiS_succ (c : Dev nD) (n : ℕ) (hn : n < cfg0.N) :
    PhiS m c (n + 1) hn = owns (c : Thread nD τ) scM fullShare (accAt m c n hn) := rfl
theorem PhiS_pos (c : Dev nD) (n : ℕ) (h : n ≤ cfg0.N) (hz : n ≠ 0) :
    PhiS m c n h = owns (c : Thread nD τ) scM fullShare (accAt m c (n - 1) (by omega)) := by
  cases n with
  | zero => exact absurd rfl hz
  | succ n => rfl

/-! ## The proof data

After the body at point `t`: every input's buffer still at its block; the two trace outputs at the updated traces of
the point's blocks; the refractory output at the updated refractory current of the point's blocks, and the spike
output at the spikes computed from the running sum (both consulted only at the last step of a row block). The
previous-spike array is read through two windows, each holding half of it. -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => k0_pay3 (iblk m c 9 t) (iblk m c 8 t) (accAt m c t.val t.isLt)
    | ⟨11, _⟩ => k0_pay5 (iblk m c 1 t) (iblk m c 0 t) (iblk m c 2 t) (iblk m c 3 t)
    | ⟨12, _⟩ => k0_pay7 (iblk m c 5 t) (iblk m c 4 t) (iblk m c 6 t) (iblk m c 7 t)
    | ⟨13, _⟩ => k0_pay2 (iblk m c 9 t) (iblk m c 8 t)
  Φ t := PhiS m c t.val (Nat.le_of_lt_succ t.isLt)
  q w := match w with
    | ⟨0, _⟩ => fullShare
    | ⟨1, _⟩ => fullShare
    | ⟨2, _⟩ => fullShare
    | ⟨3, _⟩ => fullShare
    | ⟨4, _⟩ => fullShare
    | ⟨5, _⟩ => fullShare
    | ⟨6, _⟩ => fullShare
    | ⟨7, _⟩ => fullShare.left
    | ⟨8, _⟩ => fullShare.right
    | ⟨9, _⟩ => fullShare
    | ⟨10, _⟩ => fullShare
    | ⟨11, _⟩ => fullShare
    | ⟨12, _⟩ => fullShare
    | ⟨13, _⟩ => fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = iblk m c 8 t := by dsimp only [dats]
theorem after9 (c : Dev nD) (t : Fin cfg0.N) : (dats m 0 c).after 9 t = iblk m c 9 t := by dsimp only [dats]
theorem after10 (c : Dev nD) (t : Fin cfg0.N) : (dats m 0 c).after 10 t = k0_pay3 (iblk m c 9 t) (iblk m c 8 t) (accAt m c t.val t.isLt) := by dsimp only [dats]
theorem after11 (c : Dev nD) (t : Fin cfg0.N) : (dats m 0 c).after 11 t = k0_pay5 (iblk m c 1 t) (iblk m c 0 t) (iblk m c 2 t) (iblk m c 3 t) := by dsimp only [dats]
theorem after12 (c : Dev nD) (t : Fin cfg0.N) : (dats m 0 c).after 12 t = k0_pay7 (iblk m c 5 t) (iblk m c 4 t) (iblk m c 6 t) (iblk m c 7 t) := by dsimp only [dats]
theorem after13 (c : Dev nD) (t : Fin cfg0.N) : (dats m 0 c).after 13 t = k0_pay2 (iblk m c 9 t) (iblk m c 8 t) := by dsimp only [dats]

theorem before0 (c : Dev nD) (t : Fin cfg0.N) (d) : (dats m 0 c).before 0 t d = iblk m c 0 t :=
  ((dats m 0 c).before_in_eq_fetched 0 rfl (fun _ => rfl) (fun _ _ _ => rfl) (fun t => by rw [after0]; unfold Dat.blockOf iblk; rw [A_eq]; try rfl) t d).trans
    (by unfold Dat.fetched Dat.blockOf iblk; rw [A_eq]; try rfl)
theorem before1 (c : Dev nD) (t : Fin cfg0.N) (d) : (dats m 0 c).before 1 t d = iblk m c 1 t :=
  ((dats m 0 c).before_in_eq_fetched 1 rfl (fun _ => rfl) (fun _ _ _ => rfl) (fun t => by rw [after1]; unfold Dat.blockOf iblk; rw [A_eq]; try rfl) t d).trans
    (by unfold Dat.fetched Dat.blockOf iblk; rw [A_eq]; try rfl)
theorem before2 (c : Dev nD) (t : Fin cfg0.N) (d) : (dats m 0 c).before 2 t d = iblk m c 2 t :=
  ((dats m 0 c).before_in_eq_fetched 2 rfl (fun _ => rfl) (fun _ _ _ => rfl) (fun t => by rw [after2]; unfold Dat.blockOf iblk; rw [A_eq]; try rfl) t d).trans
    (by unfold Dat.fetched Dat.blockOf iblk; rw [A_eq]; try rfl)
theorem before3 (c : Dev nD) (t : Fin cfg0.N) (d) : (dats m 0 c).before 3 t d = iblk m c 3 t :=
  ((dats m 0 c).before_in_eq_fetched 3 rfl (fun _ => rfl) (fun _ _ _ => rfl) (fun t => by rw [after3]; unfold Dat.blockOf iblk; rw [A_eq]; try rfl) t d).trans
    (by unfold Dat.fetched Dat.blockOf iblk; rw [A_eq]; try rfl)
theorem before4 (c : Dev nD) (t : Fin cfg0.N) (d) : (dats m 0 c).before 4 t d = iblk m c 4 t :=
  ((dats m 0 c).before_in_eq_fetched 4 rfl (fun _ => rfl) (fun _ _ _ => rfl) (fun t => by rw [after4]; unfold Dat.blockOf iblk; rw [A_eq]; try rfl) t d).trans
    (by unfold Dat.fetched Dat.blockOf iblk; rw [A_eq]; try rfl)
theorem before5 (c : Dev nD) (t : Fin cfg0.N) (d) : (dats m 0 c).before 5 t d = iblk m c 5 t :=
  ((dats m 0 c).before_in_eq_fetched 5 rfl (fun _ => rfl) (fun _ _ _ => rfl) (fun t => by rw [after5]; unfold Dat.blockOf iblk; rw [A_eq]; try rfl) t d).trans
    (by unfold Dat.fetched Dat.blockOf iblk; rw [A_eq]; try rfl)
theorem before6 (c : Dev nD) (t : Fin cfg0.N) (d) : (dats m 0 c).before 6 t d = iblk m c 6 t :=
  ((dats m 0 c).before_in_eq_fetched 6 rfl (fun _ => rfl) (fun _ _ _ => rfl) (fun t => by rw [after6]; unfold Dat.blockOf iblk; rw [A_eq]; try rfl) t d).trans
    (by unfold Dat.fetched Dat.blockOf iblk; rw [A_eq]; try rfl)
theorem before7 (c : Dev nD) (t : Fin cfg0.N) (d) : (dats m 0 c).before 7 t d = iblk m c 7 t :=
  ((dats m 0 c).before_in_eq_fetched 7 rfl (fun _ => rfl) (fun _ _ _ => rfl) (fun t => by rw [after7]; unfold Dat.blockOf iblk; rw [A_eq]; try rfl) t d).trans
    (by unfold Dat.fetched Dat.blockOf iblk; rw [A_eq]; try rfl)
theorem before8 (c : Dev nD) (t : Fin cfg0.N) (d) : (dats m 0 c).before 8 t d = iblk m c 8 t :=
  ((dats m 0 c).before_in_eq_fetched 8 rfl (fun _ => rfl) (fun _ _ _ => rfl) (fun t => by rw [after8]; unfold Dat.blockOf iblk; rw [A_eq]; try rfl) t d).trans
    (by unfold Dat.fetched Dat.blockOf iblk; rw [A_eq]; try rfl)
theorem before9 (c : Dev nD) (t : Fin cfg0.N) (d) : (dats m 0 c).before 9 t d = iblk m c 9 t :=
  ((dats m 0 c).before_in_eq_fetched 9 rfl (fun _ => rfl) (fun _ _ _ => rfl) (fun t => by rw [after9]; unfold Dat.blockOf iblk; rw [A_eq]; try rfl) t d).trans
    (by unfold Dat.fetched Dat.blockOf iblk; rw [A_eq]; try rfl)

/-! ## Where the windows are idle -/

theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem live3 : ∀ t : Fin cfg0.N, cfg0.idle 3 (grid0.coords t) = false := by decide +kernel
theorem live4 : ∀ t : Fin cfg0.N, cfg0.idle 4 (grid0.coords t) = false := by decide +kernel
theorem live5 : ∀ t : Fin cfg0.N, cfg0.idle 5 (grid0.coords t) = false := by decide +kernel
theorem live6 : ∀ t : Fin cfg0.N, cfg0.idle 6 (grid0.coords t) = false := by decide +kernel
theorem live7 : ∀ t : Fin cfg0.N, cfg0.idle 7 (grid0.coords t) = false := by decide +kernel
theorem live8 : ∀ t : Fin cfg0.N, cfg0.idle 8 (grid0.coords t) = false := by decide +kernel
theorem live9 : ∀ t : Fin cfg0.N, cfg0.idle 9 (grid0.coords t) = false := by decide +kernel
theorem live11 : ∀ t : Fin cfg0.N, cfg0.idle 11 (grid0.coords t) = false := by decide +kernel
theorem live12 : ∀ t : Fin cfg0.N, cfg0.idle 12 (grid0.coords t) = false := by decide +kernel
theorem idle10_of : ∀ t : Fin cfg0.N, ¬lastStep (grid0.coords t) → cfg0.idle 10 (grid0.coords t) = true := by decide +kernel
theorem noFlush10_of : ∀ t : Fin cfg0.N, ¬lastStep (grid0.coords t) → (cfg0.win 10).flush t = false := by decide +kernel
theorem live10_of : ∀ t : Fin cfg0.N, lastStep (grid0.coords t) → cfg0.idle 10 (grid0.coords t) = false := by decide +kernel
theorem idle13_of : ∀ t : Fin cfg0.N, ¬lastStep (grid0.coords t) → cfg0.idle 13 (grid0.coords t) = true := by decide +kernel
theorem noFlush13_of : ∀ t : Fin cfg0.N, ¬lastStep (grid0.coords t) → (cfg0.win 13).flush t = false := by decide +kernel
theorem live13_of : ∀ t : Fin cfg0.N, lastStep (grid0.coords t) → cfg0.idle 13 (grid0.coords t) = false := by decide +kernel

/-! ## The body obligation -/

abbrev ms0 (t : Fin cfg0.N) : Memref sig .tc .vmem S32x128x128 .f32 := win0_0.stage (cfg0.slots t 0)
abbrev ms1 (t : Fin cfg0.N) : Memref sig .tc .vmem S128x128 .f32 := win0_1.stage (cfg0.slots t 1)
abbrev ms2 (t : Fin cfg0.N) : Memref sig .tc .vmem S128x128 .f32 := win0_2.stage (cfg0.slots t 2)
abbrev ms3 (t : Fin cfg0.N) : Memref sig .tc .vmem S32x128 .f32 := win0_3.stage (cfg0.slots t 3)
abbrev ms4 (t : Fin cfg0.N) : Memref sig .tc .vmem S32x128x128 .f32 := win0_4.stage (cfg0.slots t 4)
abbrev ms5 (t : Fin cfg0.N) : Memref sig .tc .vmem S128x128 .f32 := win0_5.stage (cfg0.slots t 5)
abbrev ms6 (t : Fin cfg0.N) : Memref sig .tc .vmem S128x128 .f32 := win0_6.stage (cfg0.slots t 6)
abbrev ms7 (t : Fin cfg0.N) : Memref sig .tc .vmem S32x128 .f32 := win0_7.stage (cfg0.slots t 7)
abbrev ms8 (t : Fin cfg0.N) : Memref sig .tc .vmem S32x128 .f32 := win0_8.stage (cfg0.slots t 8)
abbrev ms9 (t : Fin cfg0.N) : Memref sig .tc .vmem S32x128 .f32 := win0_9.stage (cfg0.slots t 9)
abbrev ms10 (t : Fin cfg0.N) : Memref sig .tc .vmem S32x128 .f32 := win0_10.stage (cfg0.slots t 10)
abbrev ms11 (t : Fin cfg0.N) : Memref sig .tc .vmem S32x128x128 .f32 := win0_11.stage (cfg0.slots t 11)
abbrev ms12 (t : Fin cfg0.N) : Memref sig .tc .vmem S32x128x128 .f32 := win0_12.stage (cfg0.slots t 12)
abbrev ms13 (t : Fin cfg0.N) : Memref sig .tc .vmem S32x128 .f32 := win0_13.stage (cfg0.slots t 13)

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d))
    ∗ (∃ d, owns (c : Thread nD τ) (ms9 t) fullShare ((dats m 0 c).before 9 t d))
    ∗ (∃ d, owns (c : Thread nD τ) (ms10 t) fullShare ((dats m 0 c).before 10 t d))
    ∗ (∃ d, owns (c : Thread nD τ) (ms11 t) fullShare ((dats m 0 c).before 11 t d))
    ∗ (∃ d, owns (c : Thread nD τ) (ms12 t) fullShare ((dats m 0 c).before 12 t d))
    ∗ (∃ d, owns (c : Thread nD τ) (ms13 t) fullShare ((dats m 0 c).before 13 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t)

set_option maxHeartbeats 4800000 in
/-- The body at any point. The inputs' buffers hold their blocks; the reduction step decides the case; the scratch is
    handed over at the running sum the point before left (at anything at the very first point, and at the first step
    of a row block its contents do not matter) and taken back at this point's running sum. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7, before8, before9]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (ms0 t) fullShare ((dats m 0 c).after 0 t) from by
    unfold Dat.leavesExact; rw [live0 t], after0]
  rw [show (dats m 0 c).leavesExact 1 t = owns (c : Thread nD τ) (ms1 t) fullShare ((dats m 0 c).after 1 t) from by
    unfold Dat.leavesExact; rw [live1 t], after1]
  rw [show (dats m 0 c).leavesExact 2 t = owns (c : Thread nD τ) (ms2 t) fullShare ((dats m 0 c).after 2 t) from by
    unfold Dat.leavesExact; rw [live2 t], after2]
  rw [show (dats m 0 c).leavesExact 3 t = owns (c : Thread nD τ) (ms3 t) fullShare ((dats m 0 c).after 3 t) from by
    unfold Dat.leavesExact; rw [live3 t], after3]
  rw [show (dats m 0 c).leavesExact 4 t = owns (c : Thread nD τ) (ms4 t) fullShare ((dats m 0 c).after 4 t) from by
    unfold Dat.leavesExact; rw [live4 t], after4]
  rw [show (dats m 0 c).leavesExact 5 t = owns (c : Thread nD τ) (ms5 t) fullShare ((dats m 0 c).after 5 t) from by
    unfold Dat.leavesExact; rw [live5 t], after5]
  rw [show (dats m 0 c).leavesExact 6 t = owns (c : Thread nD τ) (ms6 t) fullShare ((dats m 0 c).after 6 t) from by
    unfold Dat.leavesExact; rw [live6 t], after6]
  rw [show (dats m 0 c).leavesExact 7 t = owns (c : Thread nD τ) (ms7 t) fullShare ((dats m 0 c).after 7 t) from by
    unfold Dat.leavesExact; rw [live7 t], after7]
  rw [show (dats m 0 c).leavesExact 8 t = owns (c : Thread nD τ) (ms8 t) fullShare ((dats m 0 c).after 8 t) from by
    unfold Dat.leavesExact; rw [live8 t], after8]
  rw [show (dats m 0 c).leavesExact 9 t = owns (c : Thread nD τ) (ms9 t) fullShare ((dats m 0 c).after 9 t) from by
    unfold Dat.leavesExact; rw [live9 t], after9]
  rw [show (dats m 0 c).leavesExact 11 t = owns (c : Thread nD τ) (ms11 t) fullShare ((dats m 0 c).after 11 t) from by
    unfold Dat.leavesExact; rw [live11 t], after11]
  rw [show (dats m 0 c).leavesExact 12 t = owns (c : Thread nD τ) (ms12 t) fullShare ((dats m 0 c).after 12 t) from by
    unfold Dat.leavesExact; rw [live12 t], after12]
  rw [PhiS_castSucc m c t]
  by_cases h0 : t.val % 8 = 0
  · have hc1 : firstStep (grid0.coords t) := (firstStep_iff t).mpr h0
    have hc2 : ¬lastStep (grid0.coords t) := fun h => by have := (lastStep_iff t).mp h; omega
    rw [Dat.leavesExact_idle (dats m 0 c) 10 t (idle10_of t hc2) (noFlush10_of t hc2)]
    rw [Dat.leavesExact_idle (dats m 0 c) 13 t (idle13_of t hc2) (noFlush13_of t hc2)]
    rw [accAt_first m c t h0]; unfold stepSum
    have hΦ : PhiS m c t.val (Nat.le_of_lt t.isLt) ⊢ iprop(∃ d, owns (c : Thread nD τ) scM fullShare d) := by
      by_cases hz : t.val = 0
      · rw [PhiS_zero m c _ _ hz]
      · rw [PhiS_pos m c _ _ hz]; iintro H; iexists _; iexact H
    iintro ⟨HP, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
    iapply (run_first c (grid0.coords t) _ _ _ _ _ _ _ _ _ _ _ _ _ _ _ _ _ _ _ _ _ _ _ _ _ _ _ _ _ _ hc1 hc2 (iblk m c 0 t) (iblk m c 1 t) (iblk m c 2 t) (iblk m c 3 t) (iblk m c 4 t) (iblk m c 5 t) (iblk m c 6 t) (iblk m c 7 t) (iblk m c 8 t) (iblk m c 9 t) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H11]; · iexists _; iexact H11
    isplitl [H12]; · iexists _; iexact H12
    isplitl [HP]; · iapply hΦ; iexact HP
    iintro ⟨H0, H1, H2, H3, H4, H5, H6, H7, H8, H9, H11, H12, HS⟩
    isplitl [HS]; · iexact HS
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexists _; iexact H10
    isplitl [H11]; · iexact H11
    isplitl [H12]; · iexact H12
    iexists _; iexact H13
  · have hc1 : ¬firstStep (grid0.coords t) := fun h => h0 ((firstStep_iff t).mp h)
    have hz : t.val ≠ 0 := by omega
    rw [PhiS_pos m c _ _ hz]
    by_cases h7 : t.val % 8 = 7
    · have hc2 : lastStep (grid0.coords t) := (lastStep_iff t).mpr h7
      rw [show (dats m 0 c).leavesExact 10 t = owns (c : Thread nD τ) (ms10 t) fullShare ((dats m 0 c).after 10 t) from by
        unfold Dat.leavesExact; rw [live10_of t hc2], after10]
      rw [show (dats m 0 c).leavesExact 13 t = owns (c : Thread nD τ) (ms13 t) fullShare ((dats m 0 c).after 13 t) from by
        unfold Dat.leavesExact; rw [live13_of t hc2], after13]
      rw [accAt_next m c t h0]; unfold stepSum
      iintro ⟨HP, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
      iapply (run_last c (grid0.coords t) _ _ _ _ _ _ _ _ _ _ _ _ _ _ _ _ _ _ _ _ _ _ _ _ _ _ _ _ _ _ hc1 hc2 (iblk m c 0 t) (iblk m c 1 t) (iblk m c 2 t) (iblk m c 3 t) (iblk m c 4 t) (iblk m c 5 t) (iblk m c 6 t) (iblk m c 7 t) (iblk m c 8 t) (iblk m c 9 t) _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H11]; · iexists _; iexact H11
      isplitl [H12]; · iexists _; iexact H12
      isplitl [H10]; · iexists _; iexact H10
      isplitl [H13]; · iexists _; iexact H13
      isplitl [HP]; · iexact HP
      iintro ⟨H0, H1, H2, H3, H4, H5, H6, H7, H8, H9, H11, H12, H10, H13, HS⟩
      isplitl [HS]; · iexact HS
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      iexact H13
    · have hc2 : ¬lastStep (grid0.coords t) := fun h => h7 ((lastStep_iff t).mp h)
      rw [Dat.leavesExact_idle (dats m 0 c) 10 t (idle10_of t hc2) (noFlush10_of t hc2)]
      rw [Dat.leavesExact_idle (dats m 0 c) 13 t (idle13_of t hc2) (noFlush13_of t hc2)]
      rw [accAt_next m c t h0]; unfold stepSum
      iintro ⟨HP, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
      iapply (run_mid c (grid0.coords t) _ _ _ _ _ _ _ _ _ _ _ _ _ _ _ _ _ _ _ _ _ _ _ _ _ _ _ _ _ _ hc1 hc2 (iblk m c 0 t) (iblk m c 1 t) (iblk m c 2 t) (iblk m c 3 t) (iblk m c 4 t) (iblk m c 5 t) (iblk m c 6 t) (iblk m c 7 t) (iblk m c 8 t) (iblk m c 9 t) _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H11]; · iexists _; iexact H11
      isplitl [H12]; · iexists _; iexact H12
      isplitl [HP]; · iexact HP
      iintro ⟨H0, H1, H2, H3, H4, H5, H6, H7, H8, H9, H11, H12, HS⟩
      isplitl [HS]; · iexact HS
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexists _; iexact H10
      isplitl [H11]; · iexact H11
      isplitl [H12]; · iexact H12
      iexists _; iexact H13

/-- The library's body obligation, at every point. -/
theorem body_obligation (c : Dev nD) : BodyObligation (dats (F := F) m 0 c) (defs₀ (F := F)) Variants.none () Set.univ := fun t => by
  rw [bigSep_W0, bigSep_W0]
  exact sound_body m c t

end Cert.KernelIdeal.Body

end
-- ==== Proof.KILaunch.lean ====
import proofs.«151799_j59399397704147_2_alg».proof.Proof.Gen.KernelIdeal.Launch
import proofs.«151799_j59399397704147_2_alg».proof.Proof.Gen.KernelIdeal.Skeleton
import proofs.«151799_j59399397704147_2_alg».proof.Proof.Gen.KernelIdeal.Points
import proofs.«151799_j59399397704147_2_alg».proof.Proof.LibWholeStore
import Idealize.ShloMosaic.Lib.Pipeline.FrameBody
import Idealize.ShloMosaic.Lib.Pipeline.FrameSuffix
import Idealize.ShloMosaic.Lib.Ring
import Idealize.ShloMosaic.Lib.Tactic
import proofs.«151799_j59399397704147_2_alg».proof.Proof.KIData
set_option maxRecDepth 16384

noncomputable section

namespace Cert.KernelIdeal.Body

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays at the region's entry: one buffer read through two windows

The fourteen windows read thirteen distinct buffers: the previous-spike array is read once blocked along the
reduction axis (the drive of the recurrent path) and once along the neuron axis (the refractory current). The whole
buffer is split in two halves, one per window; every other window holds its array whole. -/

theorem arrRefs_eq : (Finset.univ.image (Pipeline.arrRef spec0) : Finset (Ref sig .tc))
    = [main_arg2, main_arg6, main_arg5, main_arg0, main_arg3, main_arg8, main_arg7, main_arg1, main_arg4, main_v0_0, main_v0_1, main_v0_2, main_v0_3].toFinset := by decide

/-- A proposition at each of the thirteen buffers, one by one. -/
theorem bigSep_arrRefs {M : Type} [URA M] (Φ : Ref sig .tc → sProp M) :
    bigSep (Finset.univ.image (Pipeline.arrRef spec0)) Φ
      = iprop(Φ main_arg2 ∗ Φ main_arg6 ∗ Φ main_arg5 ∗ Φ main_arg0 ∗ Φ main_arg3 ∗ Φ main_arg8 ∗ Φ main_arg7 ∗ Φ main_arg1
          ∗ Φ main_arg4 ∗ Φ main_v0_0 ∗ Φ main_v0_1 ∗ Φ main_v0_2 ∗ Φ main_v0_3) :=
  bigSep_eq_bigSepL_of_eq [main_arg2, main_arg6, main_arg5, main_arg0, main_arg3, main_arg8, main_arg7, main_arg1, main_arg4,
    main_v0_0, main_v0_1, main_v0_2, main_v0_3] arrRefs_eq (by decide) Φ

/-- A window that alone reads or writes its array holds it whole. -/
theorem arr_full (c : Dev nD) (w : Fin cfg0.W) (hs : (dats m 0 c).share w = fullShare) :
    ((((c.tc : Thread nD τ).loc (Pipeline.arrRef spec0 w)) ↦{fullShare} V m c (Pipeline.arrRef spec0 w)) : sProp 𝕄)
      ⊢ ((cfg0.win w).arr.view.loc (c.tc : Thread nD τ) ↦[(cfg0.win w).arr.view.set]{(dats m 0 c).share w} (dats m 0 c).arrAt w 0) := by
  rw [(arr_whole0 w).set_eq_univ, hs]
  exact Entails.of_eq rfl

/-- The previous-spike buffer, held whole, is its two windows' halves. -/
theorem arr_halves (c : Dev nD) :
    ((((c.tc : Thread nD τ).loc main_arg1) ↦{fullShare} V m c main_arg1) : sProp 𝕄)
      ⊢ iprop(((cfg0.win 7).arr.view.loc (c.tc : Thread nD τ) ↦[(cfg0.win 7).arr.view.set]{(dats m 0 c).share 7} (dats m 0 c).arrAt 7 0)
          ∗ ((cfg0.win 8).arr.view.loc (c.tc : Thread nD τ) ↦[(cfg0.win 8).arr.view.set]{(dats m 0 c).share 8} (dats m 0 c).arrAt 8 0)) := by
  rw [(arr_whole0 7).set_eq_univ,
    show (dats m 0 c).share 7 = fullShare.left from rfl, show (dats m 0 c).share 8 = fullShare.right from rfl]
  exact (pointsTo_share (PosShare.mem_left_op_right fullShare)).1

theorem hsplit (c : Dev nD) :
    (Pipeline.arrBufs spec0 c (V m c) : sProp 𝕄) ⊢ (dats m 0 c).arrays ((dats m 0 c).arrAt · 0) := by
  unfold Pipeline.arrBufs Dat.arrays
  rw [bigSep_arrRefs, bigSep_W0]
  iintro ⟨A_arg2, A_arg6, A_arg5, A_arg0, A_arg3, A_arg8, A_arg7, A_arg1, A_arg4, A_v0_0, A_v0_1, A_v0_2, A_v0_3⟩
  ihave Hh := (arr_halves m c) $$ A_arg1
  icases Hh with ⟨A_arg1a, A_arg1b⟩
  isplitl [A_arg2]; · iapply (arr_full m c 0 rfl); iexact A_arg2
  isplitl [A_arg6]; · iapply (arr_full m c 1 rfl); iexact A_arg6
  isplitl [A_arg5]; · iapply (arr_full m c 2 rfl); iexact A_arg5
  isplitl [A_arg0]; · iapply (arr_full m c 3 rfl); iexact A_arg0
  isplitl [A_arg3]; · iapply (arr_full m c 4 rfl); iexact A_arg3
  isplitl [A_arg8]; · iapply (arr_full m c 5 rfl); iexact A_arg8
  isplitl [A_arg7]; · iapply (arr_full m c 6 rfl); iexact A_arg7
  isplitl [A_arg1a]; · iexact A_arg1a
  isplitl [A_arg1b]; · iexact A_arg1b
  isplitl [A_arg4]; · iapply (arr_full m c 9 rfl); iexact A_arg4
  isplitl [A_v0_0]; · iapply (arr_full m c 10 rfl); iexact A_v0_0
  isplitl [A_v0_1]; · iapply (arr_full m c 11 rfl); iexact A_v0_1
  isplitl [A_v0_2]; · iapply (arr_full m c 12 rfl); iexact A_v0_2
  iapply (arr_full m c 13 rfl); iexact A_v0_3

/-! ## The run -/

set_option backward.isDefEq.respectTransparency.types false in
/-- From any memory with zero counters every weakly fair execution of the program terminates, and every window's array
    ends at what the write-backs of the proof data leave in it. -/
theorem run_main : θ_run defs (onTc (τ := τ) (main (F := F))) ⟨m, fun _ => 0, ρ⟩
    (fun r => ∀ c : Dev nD, ∀ w, r.2.mem (((cfg0).spec w).arr.view.loc (c.tc : Thread nD τ)) = (dats m 0 c).arrAt w cfg0.N) := by
  classical
  exact Pipeline.θ_run_region_noSem_shared cfgs (dats m) () cellOf_inj (0 : Fin 1) winFacts₀0 emb₁ defs₀ Variants.none m ρ main
    (hbody := fun c => (body_obligation m c).loose)
    (hne := block_pos0) (harr := arr_whole0) (hstage := stage_whole0) (howed := fun _ _ => rfl)
    (u₀ := initOf (Pipeline.cells cfgs cellOf_inj) (Pipeline.launchToks cfgs cellOf_inj))
    (hu₀ := (show (ownU _ : sProp 𝕄) ⊢ BI.own (emb₁ (initOf (Pipeline.cells cfgs cellOf_inj) (Pipeline.launchToks cfgs cellOf_inj))) from .rfl))
    (V := V m) (hmain := hmain m Variants.none)
    (hsplit := hsplit m)
    (X := fun _ => iprop(emp)) (Y := fun _ => iprop(emp))
    (Z := fun c => Pipeline.unscopedRest (Ix := Unit) (Name := ℕ) (U := UR sig nD τ) (Lvl := ℕ) spec0 c (V m c))
    (hX := fun c => by iintro H; isplitr; · iempintro
                       iexact H)
    (hin := fun c => by
      show iprop(emp ∗ Pipeline.scopedRest (Ix := Unit) (Name := ℕ) (U := UR sig nD τ) (Lvl := ℕ) (Val := Elt F) spec0 c)
        ⊢ Pipeline.scopedRest (Ix := Unit) (Name := ℕ) (U := UR sig nD τ) (Lvl := ℕ) (Val := Elt F) spec0 c
      iintro ⟨-, H⟩; iexact H)
    (hout := fun c => by
      rw [show (dats m 0 c).Φ (Fin.last cfg0.N) = PhiS m c cfg0.N (Nat.le_refl _) from rfl,
        PhiS_pos m c _ _ (by rw [show cfg0.N = 64 from N_0]; decide), scopedRest_scratch]
      iintro H; isplitr; · iempintro
      iexists _; iexact H)
    (QY := fun _ _ => True)
    (hY := fun c s' => by
      iintro ⟨-, -, HSI⟩; imodintro
      isplitr; · ipureintro; trivial
      iexact HSI)
    (hQ := fun s h c w => (h c).1 w)

/-! ## The frame: every argument array ends as it began -/

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => ⟨((h c 3).trans (((dats m 0 c).arrAt_in 3 rfl _).trans ((A_eq m c 3).trans (V_main_arg0 m c)))),
    ((h c 7).trans (((dats m 0 c).arrAt_in 7 rfl _).trans ((A_eq m c 7).trans (V_main_arg1 m c)))),
    ((h c 0).trans (((dats m 0 c).arrAt_in 0 rfl _).trans ((A_eq m c 0).trans (V_main_arg2 m c)))),
    ((h c 4).trans (((dats m 0 c).arrAt_in 4 rfl _).trans ((A_eq m c 4).trans (V_main_arg3 m c)))),
    ((h c 9).trans (((dats m 0 c).arrAt_in 9 rfl _).trans ((A_eq m c 9).trans (V_main_arg4 m c)))),
    ((h c 2).trans (((dats m 0 c).arrAt_in 2 rfl _).trans ((A_eq m c 2).trans (V_main_arg5 m c)))),
    ((h c 1).trans (((dats m 0 c).arrAt_in 1 rfl _).trans ((A_eq m c 1).trans (V_main_arg6 m c)))),
    ((h c 6).trans (((dats m 0 c).arrAt_in 6 rfl _).trans ((A_eq m c 6).trans (V_main_arg7 m c)))),
    ((h c 5).trans (((dats m 0 c).arrAt_in 5 rfl _).trans ((A_eq m c 5).trans (V_main_arg8 m c))))⟩)
    (run_main m ρ)

end Cert.KernelIdeal.Body

end
-- ==== Proof.PayloadAt.lean ====
/-
  The kernel body's arithmetic, read at an index, over the extended reals.

  Inside one block the body works on a batch row `b` (of 32), a target neuron `r` (of 128) and a source `q` (of 128).
  A table `(r, q)` is viewed with a leading unit axis and repeated over the batch; a spike row `(b, q)` is viewed with a
  middle unit axis and repeated over the target neurons; so the updated trace at `(b, r, q)` is
  `rho (r, q) · h (b, r, q) + w (r, q) · s (b, q)`. A sum along the last axis is the plain sum over `q`. The
  comparison's one bit, widened to 32 bits and read as a signed integer, is the bit read as a natural number, so the
  spike is one or zero.
-/
import proofs.«151799_j59399397704147_2_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelIdeal.PayloadAt

open Cert.KernelIdeal Cert.KernelIdeal.Gen Idealize.ShloMosaic Idealize.ShloMosaic.ValueIdx

/-! ## Three layout operations read at an index -/

section Layout
variable {α : Type}

/-- An `[a, b]` array cast to `[a, 1, b]` reads, at `(i, u, j)`, the operand at `(i, j)`, whatever the unit
    coordinate `u`: both have row-major position `i · b + j`. -/
theorem shapeCast_ab_a1b_apply {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_three, Shape.rowMajor_val_two]
    show i.val * b + j.val = (i.val * 1 + u.val) * b + j.val
    rw [hu, Nat.mul_one, Nat.add_zero])

/-- A `[1, b, c]` array broadcast to `[a, b, c]` reads, at `(p, i, j)`, the operand's one slab at `(i, j)`. -/
theorem broadcastTo_1bc_abc_apply {a b c : ℕ} (v : (⟨3, ![1, b, c]⟩ : Shape).Idx → α)
    (h : (⟨3, ![1, b, c]⟩ : Shape).Broadcasts ⟨3, ![a, b, c]⟩) (p : Fin a) (i : Fin b) (j : Fin c) :
    broadcastTo ⟨3, ![a, b, c]⟩ v h (ix3 p i j) = v (ix3 (0 : Fin 1) i j) := by
  refine broadcastTo_apply v h (ix3 p i j) (ix3 (0 : Fin 1) i j) fun ax => ?_
  match ax with
  | ⟨0, _⟩ => rfl
  | ⟨1, _⟩ =>
    show i.val = if b = 1 then 0 else i.val
    split
    · have := i.isLt; omega
    · rfl
  | ⟨2, _⟩ =>
    show j.val = if c = 1 then 0 else j.val
    split
    · have := j.isLt; omega
    · rfl

/-- An `[a, 1, c]` array broadcast to `[a, b, c]` reads, at `(p, i, j)`, the operand's row `p` at `j`. -/
theorem broadcastTo_a1c_abc_apply {a b c : ℕ} (v : (⟨3, ![a, 1, c]⟩ : Shape).Idx → α)
    (h : (⟨3, ![a, 1, c]⟩ : Shape).Broadcasts ⟨3, ![a, b, c]⟩) (p : Fin a) (i : Fin b) (j : Fin c) :
    broadcastTo ⟨3, ![a, b, c]⟩ v h (ix3 p i j) = v (ix3 p (0 : Fin 1) j) := by
  refine broadcastTo_apply v h (ix3 p i j) (ix3 p (0 : Fin 1) j) fun ax => ?_
  match ax with
  | ⟨0, _⟩ =>
    show p.val = if a = 1 then 0 else p.val
    split
    · have := p.isLt; omega
    · rfl
  | ⟨1, _⟩ => rfl
  | ⟨2, _⟩ =>
    show j.val = if c = 1 then 0 else j.val
    split
    · have := j.isLt; omega
    · rfl

end Layout

/-- A `128 × 128` table viewed with a leading unit axis and repeated over the batch reads, at `(b, r, q)`, the table at
    `(r, q)`. -/
theorem table_at (v : Vec Ideal S128x128 .f32) (b : Fin 32) (r q : Fin 128) :
    broadcastTo S32x128x128 (shapeCast S1x128x128 v shapeCasts_S128x128_S1x128x128) broadcasts_S1x128x128_S32x128x128
        (ix3 b r q) = v (ix2 r q) :=
  (broadcastTo_1bc_abc_apply _ _ b r q).trans (shapeCast_ab_1ab_apply v _ (0 : Fin 1) r q)

/-- A `32 × 128` array of spike rows viewed with a middle unit axis and repeated over the target neurons reads, at
    `(b, r, q)`, the row `b` at `q`. -/
theorem row_at (v : Vec Ideal S32x128 .f32) (b : Fin 32) (r q : Fin 128) :
    broadcastTo S32x128x128 (shapeCast S32x1x128 v shapeCasts_S32x128_S32x1x128) broadcasts_S32x1x128_S32x128x128
        (ix3 b r q) = v (ix2 b q) :=
  (broadcastTo_a1c_abc_apply _ _ b r q).trans (shapeCast_ab_a1b_apply v _ b (0 : Fin 1) q)

/-! ## The two traces -/

/-- The input path's updated trace at `(b, r, q)`: `rho (r, q) · h (b, r, q) + w (r, q) · x (b, q)`. -/
theorem pay5_at (v3 v8 : Vec Ideal S128x128 .f32) (v5 : Vec Ideal S32x128x128 .f32) (v10 : Vec Ideal S32x128 .f32)
    (b : Fin 32) (r q : Fin 128) :
    k0_pay5 (F := Ideal) v3 v5 v8 v10 (ix3 b r q)
      = v3 (ix2 r q) * v5 (ix3 b r q) + v8 (ix2 r q) * v10 (ix2 b q) := by
  unfold k0_pay5
  show broadcastTo S32x128x128 (shapeCast S1x128x128 v3 shapeCasts_S128x128_S1x128x128) broadcasts_S1x128x128_S32x128x128
          (ix3 b r q) * v5 (ix3 b r q)
      + broadcastTo S32x128x128 (shapeCast S1x128x128 v8 shapeCasts_S128x128_S1x128x128) broadcasts_S1x128x128_S32x128x128
          (ix3 b r q)
        * broadcastTo S32x128x128 (shapeCast S32x1x128 v10 shapeCasts_S32x128_S32x1x128) broadcasts_S32x1x128_S32x128x128
          (ix3 b r q)
      = v3 (ix2 r q) * v5 (ix3 b r q) + v8 (ix2 r q) * v10 (ix2 b q)
  exact congrArg₂ (· + ·) (congrArg (· * v5 (ix3 b r q)) (table_at v3 b r q))
    (congrArg₂ (· * ·) (table_at v8 b r q) (row_at v10 b r q))

/-- The recurrent path's updated trace at `(b, r, q)`: `rho (r, q) · h (b, r, q) + w (r, q) · hz (b, q)`. -/
theorem pay7_at (v18 v23 : Vec Ideal S128x128 .f32) (v20 : Vec Ideal S32x128x128 .f32) (v25 : Vec Ideal S32x128 .f32)
    (b : Fin 32) (r q : Fin 128) :
    k0_pay7 (F := Ideal) v18 v20 v23 v25 (ix3 b r q)
      = v18 (ix2 r q) * v20 (ix3 b r q) + v23 (ix2 r q) * v25 (ix2 b q) := by
  unfold k0_pay7
  show broadcastTo S32x128x128 (shapeCast S1x128x128 v18 shapeCasts_S128x128_S1x128x128) broadcasts_S1x128x128_S32x128x128
          (ix3 b r q) * v20 (ix3 b r q)
      + broadcastTo S32x128x128 (shapeCast S1x128x128 v23 shapeCasts_S128x128_S1x128x128) broadcasts_S1x128x128_S32x128x128
          (ix3 b r q)
        * broadcastTo S32x128x128 (shapeCast S32x1x128 v25 shapeCasts_S32x128_S32x1x128) broadcasts_S32x1x128_S32x128x128
          (ix3 b r q)
      = v18 (ix2 r q) * v20 (ix3 b r q) + v23 (ix2 r q) * v25 (ix2 b q)
  exact congrArg₂ (· + ·) (congrArg (· * v20 (ix3 b r q)) (table_at v18 b r q))
    (congrArg₂ (· * ·) (table_at v23 b r q) (row_at v25 b r q))

/-! ## The sum along the last axis -/

/-- The sum of a `32 × 128 × 128` array along its last axis, read at `(b, r)`, is the sum over `q` of the array at
    `(b, r, q)`. -/
theorem laneSum7_at (v30 : FVec Ideal S32x128x128 .f32) (b : Fin 32) (r : Fin 128) :
    multiReduction (F := Ideal) .add [2] S32x128 v30 0x00000000#32 reduces_S32x128x128_S32x128 (.inl rfl) rfl (ix2 b r)
      = ∑ q : Fin 128, v30 (ix3 b r q) := by
  refine (Ideal.multiReduction_add_single v30 0x00000000#32 reduces_S32x128x128_S32x128 (.inl rfl) rfl (ix2 b r)).trans ?_
  exact Finset.sum_congr rfl fun k _ => congrArg v30
    (funext fun c => Fin.ext (by match c with | ⟨0, _⟩ => rfl | ⟨1, _⟩ => rfl | ⟨2, _⟩ => rfl))

/-- The input path's drive at `(b, r)` is the sum over the sources `q` of its updated trace. -/
theorem pay6_at (v3 v8 : Vec Ideal S128x128 .f32) (v5 : Vec Ideal S32x128x128 .f32) (v10 : Vec Ideal S32x128 .f32)
    (b : Fin 32) (r : Fin 128) :
    k0_pay6 (F := Ideal) v3 v5 v8 v10 (ix2 b r) = ∑ q : Fin 128, k0_pay5 (F := Ideal) v3 v5 v8 v10 (ix3 b r q) := by
  unfold k0_pay6
  exact laneSum7_at (k0_pay5 (F := Ideal) v3 v5 v8 v10) b r

/-- The membrane drive stored at `(b, r)`: what was there, plus the input path's drive, plus the sum over the sources of
    the recurrent path's trace (the cast to the same shape changes nothing). -/
theorem pay1_at (v17 : FVec Ideal S32x128 .f32) (v30 : FVec Ideal S32x128x128 .f32) (v33 : Vec Ideal S32x128 .f32)
    (b : Fin 32) (r : Fin 128) :
    k0_pay1 (F := Ideal) v17 v30 v33 (ix2 b r) = v33 (ix2 b r) + (v17 (ix2 b r) + ∑ q : Fin 128, v30 (ix3 b r q)) := by
  unfold k0_pay1
  show shapeCast S32x128
        (addf v33 (addf v17 (multiReduction (F := Ideal) .add [2] S32x128 v30 0x00000000#32 reduces_S32x128x128_S32x128
          (.inl rfl) rfl))) shapeCasts_S32x128_S32x128 (ix2 b r) = _
  refine (congrFun (shapeCast_self _ shapeCasts_S32x128_S32x128) (ix2 b r)).trans ?_
  exact congrArg (fun z => v33 (ix2 b r) + (v17 (ix2 b r) + z)) (laneSum7_at v30 b r)

/-! ## The constants, the refractory current and the spike -/

/-- The zero block is zero everywhere. -/
theorem pay4_at (b : Fin 32) (r : Fin 128) : k0_pay4 (F := Ideal) (ix2 b r) = 0 := by
  unfold k0_pay4
  show shapeCast S32x128 (broadcast S32x128 (Scalar.ofBits (F := Ideal) .f32 0x00000000#32)) shapeCasts_S32x128_S32x128
        (ix2 b r) = 0
  exact (congrFun (shapeCast_self _ shapeCasts_S32x128_S32x128) (ix2 b r)).trans Ideal.ofBits_zero_f32

/-- The updated refractory current at `(b, r)`: `decay · hIr (b, r) + one · hz (b, r)`, the two constants as words. -/
theorem pay2_at (v42 v45 : Vec Ideal S32x128 .f32) (b : Fin 32) (r : Fin 128) :
    k0_pay2 (F := Ideal) v42 v45 (ix2 b r)
      = Ideal.ofBits .f32 0x3F7383C6#32 * v42 (ix2 b r) + Ideal.ofBits .f32 0x3F800000#32 * v45 (ix2 b r) := by
  unfold k0_pay2
  rfl

/-- A one-bit word widened to 32 bits and read as a signed integer is the bit read as a natural number. -/
theorem toInt_setWidth_bit (c : BitVec 1) : (c.setWidth 32).toInt = (c.toNat : ℤ) := by
  rcases BitVec.eq_zero_or_eq_one c with h | h <;> subst h <;> decide

/-- So converting the widened bit as a signed integer gives what converting the bit as an unsigned one gives. -/
theorem sitofp_setWidth_bit (c : BitVec 1) :
    FloatOps.sitofp (F := Ideal) .f32 (c.setWidth 32) = FloatOps.uitofp (F := Ideal) .f32 c := by
  show (((c.setWidth 32).toInt : ℝ) : EReal) = ((c.toNat : ℝ) : EReal)
  rw [toInt_setWidth_bit, Int.cast_natCast]

/-- The spike at `(b, r)`: one where drive − refractory − one is strictly positive, zero elsewhere; the threshold and
    the compared zero stay words. -/
theorem pay3_at (v42 v45 v50 : Vec Ideal S32x128 .f32) (b : Fin 32) (r : Fin 128) :
    k0_pay3 (F := Ideal) v42 v45 v50 (ix2 b r)
      = FloatOps.uitofp (F := Ideal) .f32 (FloatOps.cmpf (F := Ideal) .ogt
          ((v50 (ix2 b r) - k0_pay2 (F := Ideal) v42 v45 (ix2 b r)) - Ideal.ofBits .f32 0x3F800000#32)
          (Ideal.ofBits .f32 0x00000000#32)) := by
  unfold k0_pay3
  show FloatOps.sitofp (F := Ideal) .f32 ((FloatOps.cmpf (F := Ideal) .ogt
          ((v50 (ix2 b r) - k0_pay2 (F := Ideal) v42 v45 (ix2 b r)) - Ideal.ofBits .f32 0x3F800000#32)
          (Ideal.ofBits .f32 0x00000000#32)).setWidth 32) = _
  exact sitofp_setWidth_bit _

end Cert.KernelIdeal.PayloadAt

end
-- ==== Proof.Spec.lean ====
/-
  The mathematics both programs are compared against, over the extended reals, index by index.

  One step of a recurrent spiking layer whose every synapse carries its own trace. For a batch row `b`, a target
  neuron `n` and a source `j`:
    • the trace decays by the synapse's own factor and is driven by the source's spike weighted by the synapse:
        trace' (b, n, j) = rho (n, j) · trace (b, n, j) + w (n, j) · s (b, j);
    • the refractory current decays by a fixed factor and is raised by the neuron's previous spike:
        refr (b, n) = decay · hIr (b, n) + one · hz (b, n);
    • the membrane drive of neuron `n` is the sum over ALL sources of the input-path trace plus the sum over all
      sources of the recurrent-path trace;
    • the neuron spikes (value one, else zero) when drive − refr − one is strictly positive.
  The two float literals are kept as the binary words both programs print; they are never evaluated.
-/
import Idealize.ShloMosaic.PureOps.Ideal
import Idealize.ShloMosaic.PureOps.Ideal.Laws
import Idealize.ShloMosaic.Lib.ValueIdx

noncomputable section

open scoped BigOperators

namespace Cert.Spec

open Idealize.ShloMosaic Idealize.ShloMosaic.ValueIdx

/-- batch × neurons -/
abbrev SBN : Shape := ⟨2, ![32, 1024]⟩
/-- batch × target neuron × source -/
abbrev SBNJ : Shape := ⟨3, ![32, 1024, 1024]⟩
/-- target neuron × source -/
abbrev SNJ : Shape := ⟨2, ![1024, 1024]⟩

/-- The refractory current's decay factor per step, as the word both programs carry. -/
abbrev decayR : EReal := Ideal.ofBits .f32 0x3F7383C6#32
/-- The firing threshold and the weight of the previous spike in the refractory current: the word of one. -/
abbrev oneW : EReal := Ideal.ofBits .f32 0x3F800000#32

/-- The updated trace of synapse `(n, j)` in batch row `b`. -/
def trace (rho w : FVec Ideal SNJ .f32) (h : FVec Ideal SBNJ .f32) (s : FVec Ideal SBN .f32) : FVec Ideal SBNJ .f32 :=
  fun i => rho (ix2 (i 1) (i 2)) * h i + w (ix2 (i 1) (i 2)) * s (ix2 (i 0) (i 2))

/-- The updated refractory current. -/
def refr (hIr hz : FVec Ideal SBN .f32) : FVec Ideal SBN .f32 :=
  fun i => decayR * hIr i + oneW * hz i

/-- The membrane drive: every source's input-path trace, plus every source's recurrent-path trace. -/
def drive (tin trec : FVec Ideal SBNJ .f32) : FVec Ideal SBN .f32 :=
  fun i => (∑ j : Fin 1024, tin (ix3 (i 0) (i 1) j)) + ∑ j : Fin 1024, trec (ix3 (i 0) (i 1) j)

/-- The spike: one where drive − refractory − threshold is strictly positive, zero elsewhere. -/
def spike (v r : FVec Ideal SBN .f32) : FVec Ideal SBN .f32 :=
  fun i => FloatOps.uitofp (F := Ideal) .f32 (FloatOps.cmpf (F := Ideal) .ogt ((v i - r i) - oneW) (Ideal.ofBits .f32 0x00000000#32))

/-- The four results as functions of the nine arguments (named as the layer names them). -/
def traceIn (x : FVec Ideal SBN .f32) (hIn : FVec Ideal SBNJ .f32) (wIn rhoIn : FVec Ideal SNJ .f32) : FVec Ideal SBNJ .f32 :=
  trace rhoIn wIn hIn x
def traceRec (hz : FVec Ideal SBN .f32) (hRec : FVec Ideal SBNJ .f32) (wRec rhoRec : FVec Ideal SNJ .f32) : FVec Ideal SBNJ .f32 :=
  trace rhoRec wRec hRec hz
def spikes (x hz : FVec Ideal SBN .f32) (hIn hRec : FVec Ideal SBNJ .f32) (hIr : FVec Ideal SBN .f32)
    (wIn rhoIn wRec rhoRec : FVec Ideal SNJ .f32) : FVec Ideal SBN .f32 :=
  spike (drive (traceIn x hIn wIn rhoIn) (traceRec hz hRec wRec rhoRec)) (refr hIr hz)

end Cert.Spec

end
-- ==== Proof.LibBlockSum.lean ====
/-
  A finite sum read block by block.

  The indices below `a * b` are the pairs (block `p` below `a`, position `q` below `b`) through `j = p * b + q`; in a
  commutative monoid the order of summation does not matter, so the sum over all `j` is the sum over the blocks of the
  sum inside each block.
-/
import Mathlib.Algebra.BigOperators.Fin
import Mathlib.Logic.Equiv.Fin.Basic

open scoped BigOperators

namespace Cert.LibBlockSum

/-- Position `q` of block `p`, among `a` blocks of length `b`, is an index below `a * b`. -/
theorem block_lt {a b : ℕ} (p : Fin a) (q : Fin b) : p.val * b + q.val < a * b := by
  have hp : p.val + 1 ≤ a := p.isLt
  have hq : q.val < b := q.isLt
  calc p.val * b + q.val < p.val * b + b := Nat.add_lt_add_left hq _
    _ = (p.val + 1) * b := (Nat.succ_mul _ _).symm
    _ ≤ a * b := Nat.mul_le_mul_right b hp

/-- In a commutative additive monoid, the sum of `f` over the indices below `a * b` is the sum over the `a` consecutive
    blocks of length `b` of the sums of `f` inside each block: `∑ j, f j = ∑ p, ∑ q, f (p * b + q)`. -/
theorem sum_blocks {M : Type*} [AddCommMonoid M] (a b : ℕ) (f : Fin (a * b) → M) :
    ∑ j : Fin (a * b), f j = ∑ p : Fin a, ∑ q : Fin b, f ⟨p.val * b + q.val, block_lt p q⟩ := by
  rw [← Equiv.sum_comp (finProdFinEquiv (m := a) (n := b)) f, Fintype.sum_prod_type]
  refine Finset.sum_congr rfl fun p _ => Finset.sum_congr rfl fun q _ => congrArg f (Fin.ext ?_)
  show q.val + b * p.val = p.val * b + q.val
  rw [Nat.mul_comm, Nat.add_comm]

/-- The instance for 1024 = 8 · 128: a sum over 1024 indices is the sum over 8 blocks of 128 consecutive indices. -/
theorem sum_8x128 {M : Type*} [AddCommMonoid M] (f : Fin 1024 → M) :
    ∑ j : Fin 1024, f j = ∑ p : Fin 8, ∑ q : Fin 128, f ⟨p.val * 128 + q.val, by omega⟩ :=
  sum_blocks 8 128 f

end Cert.LibBlockSum
-- ==== Proof.KIValueA.lean ====
import proofs.«151799_j59399397704147_2_alg».proof.Proof.Gen.KernelIdeal.Launch
import proofs.«151799_j59399397704147_2_alg».proof.Proof.Gen.KernelIdeal.Skeleton
import proofs.«151799_j59399397704147_2_alg».proof.Proof.Gen.KernelIdeal.Points
import proofs.«151799_j59399397704147_2_alg».proof.Proof.LibWholeStore
import Idealize.ShloMosaic.Lib.Pipeline.FrameBody
import Idealize.ShloMosaic.Lib.Pipeline.FrameSuffix
import Idealize.ShloMosaic.Lib.Ring
import Idealize.ShloMosaic.Lib.Tactic
import proofs.«151799_j59399397704147_2_alg».proof.Proof.KIData
import proofs.«151799_j59399397704147_2_alg».proof.Proof.PayloadAt
import proofs.«151799_j59399397704147_2_alg».proof.Proof.Spec
import proofs.«151799_j59399397704147_2_alg».proof.Proof.LibBlockSum
import Idealize.ShloMosaic.Lib.ValueIdx
import Idealize.ShloMosaic.Lib.Pipeline.Value
set_option maxRecDepth 16384

noncomputable section

namespace Cert.KernelIdeal.Body

open Cert.KernelIdeal Cert.KernelIdeal.Gen Cert.KernelIdeal.PayloadAt Idealize.ShloMosaic.ValueIdx

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

open scoped BigOperators

variable (m : (ℓ : Loc nD τ sig) → Buf (Elt Ideal) ℓ)

/-! ## Where a block sits in its array

Point `t` is row block `t / 8`, reduction step `t % 8`. A window blocked along the neuron axis has its block at
rows `t / 8 · 128 …`; one blocked along the source axis at columns `t % 8 · 128 …`. -/

theorem N64 : cfg0.N = 64 := N_0

/-- Row `r` of point `t`'s row block, as a neuron index. -/
def rowOf (t : Fin cfg0.N) (r : Fin 128) : Fin 1024 := ⟨t.val / 8 * 128 + r.val, by have hN : t.val < 64 := lt_of_lt_of_eq t.isLt N64; have := r.isLt; omega⟩
/-- Lane `q` of point `t`'s reduction step, as a source index. -/
def colOf (t : Fin cfg0.N) (q : Fin 128) : Fin 1024 := ⟨t.val % 8 * 128 + q.val, by have := q.isLt; omega⟩

theorem ixw0 : ∀ t : Fin cfg0.N, win0_0.index t (0 : Fin 3) = 0 ∧ win0_0.index t (1 : Fin 3) = t.val / 8 ∧ win0_0.index t (2 : Fin 3) = t.val % 8 :=
  (by decide +kernel : ∀ t : Fin grid0.N, win0_0.index t (0 : Fin 3) = 0 ∧ win0_0.index t (1 : Fin 3) = t.val / 8 ∧ win0_0.index t (2 : Fin 3) = t.val % 8)
theorem ixw1 : ∀ t : Fin cfg0.N, win0_1.index t (0 : Fin 2) = t.val / 8 ∧ win0_1.index t (1 : Fin 2) = t.val % 8 :=
  (by decide +kernel : ∀ t : Fin grid0.N, win0_1.index t (0 : Fin 2) = t.val / 8 ∧ win0_1.index t (1 : Fin 2) = t.val % 8)
theorem ixw2 : ∀ t : Fin cfg0.N, win0_2.index t (0 : Fin 2) = t.val / 8 ∧ win0_2.index t (1 : Fin 2) = t.val % 8 :=
  (by decide +kernel : ∀ t : Fin grid0.N, win0_2.index t (0 : Fin 2) = t.val / 8 ∧ win0_2.index t (1 : Fin 2) = t.val % 8)
theorem ixw3 : ∀ t : Fin cfg0.N, win0_3.index t (0 : Fin 2) = 0 ∧ win0_3.index t (1 : Fin 2) = t.val % 8 :=
  (by decide +kernel : ∀ t : Fin grid0.N, win0_3.index t (0 : Fin 2) = 0 ∧ win0_3.index t (1 : Fin 2) = t.val % 8)
theorem ixw4 : ∀ t : Fin cfg0.N, win0_4.index t (0 : Fin 3) = 0 ∧ win0_4.index t (1 : Fin 3) = t.val / 8 ∧ win0_4.index t (2 : Fin 3) = t.val % 8 :=
  (by decide +kernel : ∀ t : Fin grid0.N, win0_4.index t (0 : Fin 3) = 0 ∧ win0_4.index t (1 : Fin 3) = t.val / 8 ∧ win0_4.index t (2 : Fin 3) = t.val % 8)
theorem ixw5 : ∀ t : Fin cfg0.N, win0_5.index t (0 : Fin 2) = t.val / 8 ∧ win0_5.index t (1 : Fin 2) = t.val % 8 :=
  (by decide +kernel : ∀ t : Fin grid0.N, win0_5.index t (0 : Fin 2) = t.val / 8 ∧ win0_5.index t (1 : Fin 2) = t.val % 8)
theorem ixw6 : ∀ t : Fin cfg0.N, win0_6.index t (0 : Fin 2) = t.val / 8 ∧ win0_6.index t (1 : Fin 2) = t.val % 8 :=
  (by decide +kernel : ∀ t : Fin grid0.N, win0_6.index t (0 : Fin 2) = t.val / 8 ∧ win0_6.index t (1 : Fin 2) = t.val % 8)
theorem ixw7 : ∀ t : Fin cfg0.N, win0_7.index t (0 : Fin 2) = 0 ∧ win0_7.index t (1 : Fin 2) = t.val % 8 :=
  (by decide +kernel : ∀ t : Fin grid0.N, win0_7.index t (0 : Fin 2) = 0 ∧ win0_7.index t (1 : Fin 2) = t.val % 8)
theorem ixw8 : ∀ t : Fin cfg0.N, win0_8.index t (0 : Fin 2) = 0 ∧ win0_8.index t (1 : Fin 2) = t.val / 8 :=
  (by decide +kernel : ∀ t : Fin grid0.N, win0_8.index t (0 : Fin 2) = 0 ∧ win0_8.index t (1 : Fin 2) = t.val / 8)
theorem ixw9 : ∀ t : Fin cfg0.N, win0_9.index t (0 : Fin 2) = 0 ∧ win0_9.index t (1 : Fin 2) = t.val / 8 :=
  (by decide +kernel : ∀ t : Fin grid0.N, win0_9.index t (0 : Fin 2) = 0 ∧ win0_9.index t (1 : Fin 2) = t.val / 8)
theorem ixw10 : ∀ t : Fin cfg0.N, win0_10.index t (0 : Fin 2) = 0 ∧ win0_10.index t (1 : Fin 2) = t.val / 8 :=
  (by decide +kernel : ∀ t : Fin grid0.N, win0_10.index t (0 : Fin 2) = 0 ∧ win0_10.index t (1 : Fin 2) = t.val / 8)
theorem ixw11 : ∀ t : Fin cfg0.N, win0_11.index t (0 : Fin 3) = 0 ∧ win0_11.index t (1 : Fin 3) = t.val / 8 ∧ win0_11.index t (2 : Fin 3) = t.val % 8 :=
  (by decide +kernel : ∀ t : Fin grid0.N, win0_11.index t (0 : Fin 3) = 0 ∧ win0_11.index t (1 : Fin 3) = t.val / 8 ∧ win0_11.index t (2 : Fin 3) = t.val % 8)
theorem ixw12 : ∀ t : Fin cfg0.N, win0_12.index t (0 : Fin 3) = 0 ∧ win0_12.index t (1 : Fin 3) = t.val / 8 ∧ win0_12.index t (2 : Fin 3) = t.val % 8 :=
  (by decide +kernel : ∀ t : Fin grid0.N, win0_12.index t (0 : Fin 3) = 0 ∧ win0_12.index t (1 : Fin 3) = t.val / 8 ∧ win0_12.index t (2 : Fin 3) = t.val % 8)
theorem ixw13 : ∀ t : Fin cfg0.N, win0_13.index t (0 : Fin 2) = 0 ∧ win0_13.index t (1 : Fin 2) = t.val / 8 :=
  (by decide +kernel : ∀ t : Fin grid0.N, win0_13.index t (0 : Fin 2) = 0 ∧ win0_13.index t (1 : Fin 2) = t.val / 8)

/-! ## Each input block, read at an index, is its array at the global index -/

theorem blk0_at (c : Dev nD) (t : Fin cfg0.N) (b : Fin 32) (r q : Fin 128) :
    iblk m c 0 t (ix3 b r q) = V m c main_arg2 (ix3 b (rowOf t r) (colOf t q)) := by
  show V m c main_arg2 (((cfg0.win 0).blk t).view.emb (ix3 b r q)) = _
  obtain ⟨e0, e1, e2⟩ := ixw0 t
  refine congrArg _ (funext fun a => Fin.ext ?_)
  match a with
  | ⟨0, _⟩ => show win0_0.index t (0 : Fin 3) * 32 + 1 * b.val = b.val; omega
  | ⟨1, _⟩ => show win0_0.index t (1 : Fin 3) * 128 + 1 * r.val = t.val / 8 * 128 + r.val; omega
  | ⟨2, _⟩ => show win0_0.index t (2 : Fin 3) * 128 + 1 * q.val = t.val % 8 * 128 + q.val; omega

theorem blk1_at (c : Dev nD) (t : Fin cfg0.N) (r q : Fin 128) :
    iblk m c 1 t (ix2 r q) = V m c main_arg6 (ix2 (rowOf t r) (colOf t q)) := by
  show V m c main_arg6 (((cfg0.win 1).blk t).view.emb (ix2 r q)) = _
  obtain ⟨e0, e1⟩ := ixw1 t
  refine congrArg _ (funext fun a => Fin.ext ?_)
  match a with
  | ⟨0, _⟩ => show win0_1.index t (0 : Fin 2) * 128 + 1 * r.val = t.val / 8 * 128 + r.val; omega
  | ⟨1, _⟩ => show win0_1.index t (1 : Fin 2) * 128 + 1 * q.val = t.val % 8 * 128 + q.val; omega

theorem blk2_at (c : Dev nD) (t : Fin cfg0.N) (r q : Fin 128) :
    iblk m c 2 t (ix2 r q) = V m c main_arg5 (ix2 (rowOf t r) (colOf t q)) := by
  show V m c main_arg5 (((cfg0.win 2).blk t).view.emb (ix2 r q)) = _
  obtain ⟨e0, e1⟩ := ixw2 t
  refine congrArg _ (funext fun a => Fin.ext ?_)
  match a with
  | ⟨0, _⟩ => show win0_2.index t (0 : Fin 2) * 128 + 1 * r.val = t.val / 8 * 128 + r.val; omega
  | ⟨1, _⟩ => show win0_2.index t (1 : Fin 2) * 128 + 1 * q.val = t.val % 8 * 128 + q.val; omega

theorem blk3_at (c : Dev nD) (t : Fin cfg0.N) (b : Fin 32) (q : Fin 128) :
    iblk m c 3 t (ix2 b q) = V m c main_arg0 (ix2 b (colOf t q)) := by
  show V m c main_arg0 (((cfg0.win 3).blk t).view.emb (ix2 b q)) = _
  obtain ⟨e0, e1⟩ := ixw3 t
  refine congrArg _ (funext fun a => Fin.ext ?_)
  match a with
  | ⟨0, _⟩ => show win0_3.index t (0 : Fin 2) * 32 + 1 * b.val = b.val; omega
  | ⟨1, _⟩ => show win0_3.index t (1 : Fin 2) * 128 + 1 * q.val = t.val % 8 * 128 + q.val; omega

theorem blk4_at (c : Dev nD) (t : Fin cfg0.N) (b : Fin 32) (r q : Fin 128) :
    iblk m c 4 t (ix3 b r q) = V m c main_arg3 (ix3 b (rowOf t r) (colOf t q)) := by
  show V m c main_arg3 (((cfg0.win 4).blk t).view.emb (ix3 b r q)) = _
  obtain ⟨e0, e1, e2⟩ := ixw4 t
  refine congrArg _ (funext fun a => Fin.ext ?_)
  match a with
  | ⟨0, _⟩ => show win0_4.index t (0 : Fin 3) * 32 + 1 * b.val = b.val; omega
  | ⟨1, _⟩ => show win0_4.index t (1 : Fin 3) * 128 + 1 * r.val = t.val / 8 * 128 + r.val; omega
  | ⟨2, _⟩ => show win0_4.index t (2 : Fin 3) * 128 + 1 * q.val = t.val % 8 * 128 + q.val; omega

theorem blk5_at (c : Dev nD) (t : Fin cfg0.N) (r q : Fin 128) :
    iblk m c 5 t (ix2 r q) = V m c main_arg8 (ix2 (rowOf t r) (colOf t q)) := by
  show V m c main_arg8 (((cfg0.win 5).blk t).view.emb (ix2 r q)) = _
  obtain ⟨e0, e1⟩ := ixw5 t
  refine congrArg _ (funext fun a => Fin.ext ?_)
  match a with
  | ⟨0, _⟩ => show win0_5.index t (0 : Fin 2) * 128 + 1 * r.val = t.val / 8 * 128 + r.val; omega
  | ⟨1, _⟩ => show win0_5.index t (1 : Fin 2) * 128 + 1 * q.val = t.val % 8 * 128 + q.val; omega

theorem blk6_at (c : Dev nD) (t : Fin cfg0.N) (r q : Fin 128) :
    iblk m c 6 t (ix2 r q) = V m c main_arg7 (ix2 (rowOf t r) (colOf t q)) := by
  show V m c main_arg7 (((cfg0.win 6).blk t).view.emb (ix2 r q)) = _
  obtain ⟨e0, e1⟩ := ixw6 t
  refine congrArg _ (funext fun a => Fin.ext ?_)
  match a with
  | ⟨0, _⟩ => show win0_6.index t (0 : Fin 2) * 128 + 1 * r.val = t.val / 8 * 128 + r.val; omega
  | ⟨1, _⟩ => show win0_6.index t (1 : Fin 2) * 128 + 1 * q.val = t.val % 8 * 128 + q.val; omega

theorem blk7_at (c : Dev nD) (t : Fin cfg0.N) (b : Fin 32) (q : Fin 128) :
    iblk m c 7 t (ix2 b q) = V m c main_arg1 (ix2 b (colOf t q)) := by
  show V m c main_arg1 (((cfg0.win 7).blk t).view.emb (ix2 b q)) = _
  obtain ⟨e0, e1⟩ := ixw7 t
  refine congrArg _ (funext fun a => Fin.ext ?_)
  match a with
  | ⟨0, _⟩ => show win0_7.index t (0 : Fin 2) * 32 + 1 * b.val = b.val; omega
  | ⟨1, _⟩ => show win0_7.index t (1 : Fin 2) * 128 + 1 * q.val = t.val % 8 * 128 + q.val; omega

theorem blk8_at (c : Dev nD) (t : Fin cfg0.N) (b : Fin 32) (r : Fin 128) :
    iblk m c 8 t (ix2 b r) = V m c main_arg1 (ix2 b (rowOf t r)) := by
  show V m c main_arg1 (((cfg0.win 8).blk t).view.emb (ix2 b r)) = _
  obtain ⟨e0, e1⟩ := ixw8 t
  refine congrArg _ (funext fun a => Fin.ext ?_)
  match a with
  | ⟨0, _⟩ => show win0_8.index t (0 : Fin 2) * 32 + 1 * b.val = b.val; omega
  | ⟨1, _⟩ => show win0_8.index t (1 : Fin 2) * 128 + 1 * r.val = t.val / 8 * 128 + r.val; omega

theorem blk9_at (c : Dev nD) (t : Fin cfg0.N) (b : Fin 32) (r : Fin 128) :
    iblk m c 9 t (ix2 b r) = V m c main_arg4 (ix2 b (rowOf t r)) := by
  show V m c main_arg4 (((cfg0.win 9).blk t).view.emb (ix2 b r)) = _
  obtain ⟨e0, e1⟩ := ixw9 t
  refine congrArg _ (funext fun a => Fin.ext ?_)
  match a with
  | ⟨0, _⟩ => show win0_9.index t (0 : Fin 2) * 32 + 1 * b.val = b.val; omega
  | ⟨1, _⟩ => show win0_9.index t (1 : Fin 2) * 128 + 1 * r.val = t.val / 8 * 128 + r.val; omega

/-! ## An array read through an output block -/

theorem out11_at (c : Dev nD) (t : Fin cfg0.N) (G : S32x1024x1024.Idx → EReal) (b : Fin 32) (r q : Fin 128) :
    ((cfg0.win 11).blk t).view.read (Elt Ideal) G (ix3 b r q) = G (ix3 b (rowOf t r) (colOf t q)) := by
  show G (((cfg0.win 11).blk t).view.emb (ix3 b r q)) = _
  obtain ⟨e0, e1, e2⟩ := ixw11 t
  refine congrArg _ (funext fun a => Fin.ext ?_)
  match a with
  | ⟨0, _⟩ => show win0_11.index t (0 : Fin 3) * 32 + 1 * b.val = b.val; omega
  | ⟨1, _⟩ => show win0_11.index t (1 : Fin 3) * 128 + 1 * r.val = t.val / 8 * 128 + r.val; omega
  | ⟨2, _⟩ => show win0_11.index t (2 : Fin 3) * 128 + 1 * q.val = t.val % 8 * 128 + q.val; omega

theorem out12_at (c : Dev nD) (t : Fin cfg0.N) (G : S32x1024x1024.Idx → EReal) (b : Fin 32) (r q : Fin 128) :
    ((cfg0.win 12).blk t).view.read (Elt Ideal) G (ix3 b r q) = G (ix3 b (rowOf t r) (colOf t q)) := by
  show G (((cfg0.win 12).blk t).view.emb (ix3 b r q)) = _
  obtain ⟨e0, e1, e2⟩ := ixw12 t
  refine congrArg _ (funext fun a => Fin.ext ?_)
  match a with
  | ⟨0, _⟩ => show win0_12.index t (0 : Fin 3) * 32 + 1 * b.val = b.val; omega
  | ⟨1, _⟩ => show win0_12.index t (1 : Fin 3) * 128 + 1 * r.val = t.val / 8 * 128 + r.val; omega
  | ⟨2, _⟩ => show win0_12.index t (2 : Fin 3) * 128 + 1 * q.val = t.val % 8 * 128 + q.val; omega

theorem out13_at (c : Dev nD) (t : Fin cfg0.N) (G : S32x1024.Idx → EReal) (b : Fin 32) (r : Fin 128) :
    ((cfg0.win 13).blk t).view.read (Elt Ideal) G (ix2 b r) = G (ix2 b (rowOf t r)) := by
  show G (((cfg0.win 13).blk t).view.emb (ix2 b r)) = _
  obtain ⟨e0, e1⟩ := ixw13 t
  refine congrArg _ (funext fun a => Fin.ext ?_)
  match a with
  | ⟨0, _⟩ => show win0_13.index t (0 : Fin 2) * 32 + 1 * b.val = b.val; omega
  | ⟨1, _⟩ => show win0_13.index t (1 : Fin 2) * 128 + 1 * r.val = t.val / 8 * 128 + r.val; omega

theorem out10_at (c : Dev nD) (t : Fin cfg0.N) (G : S32x1024.Idx → EReal) (b : Fin 32) (r : Fin 128) :
    ((cfg0.win 10).blk t).view.read (Elt Ideal) G (ix2 b r) = G (ix2 b (rowOf t r)) := by
  show G (((cfg0.win 10).blk t).view.emb (ix2 b r)) = _
  obtain ⟨e0, e1⟩ := ixw10 t
  refine congrArg _ (funext fun a => Fin.ext ?_)
  match a with
  | ⟨0, _⟩ => show win0_10.index t (0 : Fin 2) * 32 + 1 * b.val = b.val; omega
  | ⟨1, _⟩ => show win0_10.index t (1 : Fin 2) * 128 + 1 * r.val = t.val / 8 * 128 + r.val; omega

end Cert.KernelIdeal.Body

end
-- ==== Proof.KIValueB.lean ====
import proofs.«151799_j59399397704147_2_alg».proof.Proof.Gen.KernelIdeal.Launch
import proofs.«151799_j59399397704147_2_alg».proof.Proof.Gen.KernelIdeal.Skeleton
import proofs.«151799_j59399397704147_2_alg».proof.Proof.Gen.KernelIdeal.Points
import proofs.«151799_j59399397704147_2_alg».proof.Proof.LibWholeStore
import Idealize.ShloMosaic.Lib.Pipeline.FrameBody
import Idealize.ShloMosaic.Lib.Pipeline.FrameSuffix
import Idealize.ShloMosaic.Lib.Ring
import Idealize.ShloMosaic.Lib.Tactic
import proofs.«151799_j59399397704147_2_alg».proof.Proof.KIValueA
set_option maxRecDepth 16384

noncomputable section

namespace Cert.KernelIdeal.Body

open Cert.KernelIdeal Cert.KernelIdeal.Gen Cert.KernelIdeal.PayloadAt Idealize.ShloMosaic.ValueIdx

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

open scoped BigOperators

variable (m : (ℓ : Loc nD τ sig) → Buf (Elt Ideal) ℓ)

/-! ## The updated traces of a point's blocks are the specification's traces at the global index -/

theorem traceIn_pt (c : Dev nD) (t : Fin cfg0.N) (b : Fin 32) (r q : Fin 128) :
    k0_pay5 (F := Ideal) (iblk m c 1 t) (iblk m c 0 t) (iblk m c 2 t) (iblk m c 3 t) (ix3 b r q)
      = (Cert.Spec.traceIn (V m c main_arg0) (V m c main_arg2) (V m c main_arg5) (V m c main_arg6)) (ix3 b (rowOf t r) (colOf t q)) := by
  refine (pay5_at _ _ _ _ b r q).trans ?_
  rw [blk1_at, blk0_at, blk2_at, blk3_at]
  rfl

theorem traceRec_pt (c : Dev nD) (t : Fin cfg0.N) (b : Fin 32) (r q : Fin 128) :
    k0_pay7 (F := Ideal) (iblk m c 5 t) (iblk m c 4 t) (iblk m c 6 t) (iblk m c 7 t) (ix3 b r q)
      = (Cert.Spec.traceRec (V m c main_arg1) (V m c main_arg3) (V m c main_arg7) (V m c main_arg8)) (ix3 b (rowOf t r) (colOf t q)) := by
  refine (pay7_at _ _ _ _ b r q).trans ?_
  rw [blk5_at, blk4_at, blk6_at, blk7_at]
  rfl

theorem refr_pt (c : Dev nD) (t : Fin cfg0.N) (b : Fin 32) (r : Fin 128) :
    k0_pay2 (F := Ideal) (iblk m c 9 t) (iblk m c 8 t) (ix2 b r) = (Cert.Spec.refr (V m c main_arg4) (V m c main_arg1)) (ix2 b (rowOf t r)) := by
  refine (pay2_at _ _ b r).trans ?_
  rw [blk9_at, blk8_at]
  rfl

/-! ## The trace outputs and the refractory output: what each point writes back, and the whole arrays -/

theorem flushed11_eq (c : Dev nD) (t : Fin cfg0.N) :
    (dats m 0 c).flushed 11 t = ((cfg0.win 11).blk t).view.read (Elt Ideal) (Cert.Spec.traceIn (V m c main_arg0) (V m c main_arg2) (V m c main_arg5) (V m c main_arg6)) := by
  show (cfg0.win 11).cut (grid0.coords t) ((dats m 0 c).after 11 t) = _
  rw [after11]
  funext j
  obtain ⟨b, r, q, rfl⟩ : ∃ (b : Fin 32) (r q : Fin 128), j = ix3 b r q := ⟨j 0, j 1, j 2, eq_ix3 j⟩
  rw [out11_at c t]
  exact traceIn_pt m c t b r q

theorem flushed12_eq (c : Dev nD) (t : Fin cfg0.N) :
    (dats m 0 c).flushed 12 t = ((cfg0.win 12).blk t).view.read (Elt Ideal) (Cert.Spec.traceRec (V m c main_arg1) (V m c main_arg3) (V m c main_arg7) (V m c main_arg8)) := by
  show (cfg0.win 12).cut (grid0.coords t) ((dats m 0 c).after 12 t) = _
  rw [after12]
  funext j
  obtain ⟨b, r, q, rfl⟩ : ∃ (b : Fin 32) (r q : Fin 128), j = ix3 b r q := ⟨j 0, j 1, j 2, eq_ix3 j⟩
  rw [out12_at c t]
  exact traceRec_pt m c t b r q

theorem flushed13_eq (c : Dev nD) (t : Fin cfg0.N) :
    (dats m 0 c).flushed 13 t = ((cfg0.win 13).blk t).view.read (Elt Ideal) (Cert.Spec.refr (V m c main_arg4) (V m c main_arg1)) := by
  show (cfg0.win 13).cut (grid0.coords t) ((dats m 0 c).after 13 t) = _
  rw [after13]
  funext j
  obtain ⟨b, r, rfl⟩ : ∃ (b : Fin 32) (r : Fin 128), j = ix2 b r := ⟨j 0, j 1, eq_ix2 j⟩
  rw [out13_at c t]
  exact refr_pt m c t b r

theorem mem_blk11 (t : Fin cfg0.N) (i : S32x1024x1024.Idx) :
    i ∈ ((cfg0.win 11).blk t).view.set ↔ ∀ a : Fin 3, win0_11.index t a * S32x128x128.size a ≤ (i a).val ∧ (i a).val < win0_11.index t a * S32x128x128.size a + S32x128x128.size a := by
  show i ∈ ((View.whole main_v0_1).slice (win0_11.rect t)).set ↔ _
  rw [View.set_slice_whole, Rect.mem_set_unit]
  exact Iff.rfl
theorem mem_blk12 (t : Fin cfg0.N) (i : S32x1024x1024.Idx) :
    i ∈ ((cfg0.win 12).blk t).view.set ↔ ∀ a : Fin 3, win0_12.index t a * S32x128x128.size a ≤ (i a).val ∧ (i a).val < win0_12.index t a * S32x128x128.size a + S32x128x128.size a := by
  show i ∈ ((View.whole main_v0_2).slice (win0_12.rect t)).set ↔ _
  rw [View.set_slice_whole, Rect.mem_set_unit]
  exact Iff.rfl
theorem mem_blk13 (t : Fin cfg0.N) (i : S32x1024.Idx) :
    i ∈ ((cfg0.win 13).blk t).view.set ↔ ∀ a : Fin 2, win0_13.index t a * S32x128.size a ≤ (i a).val ∧ (i a).val < win0_13.index t a * S32x128.size a + S32x128.size a := by
  show i ∈ ((View.whole main_v0_3).slice (win0_13.rect t)).set ↔ _
  rw [View.set_slice_whole, Rect.mem_set_unit]
  exact Iff.rfl
theorem mem_blk10 (t : Fin cfg0.N) (i : S32x1024.Idx) :
    i ∈ ((cfg0.win 10).blk t).view.set ↔ ∀ a : Fin 2, win0_10.index t a * S32x128.size a ≤ (i a).val ∧ (i a).val < win0_10.index t a * S32x128.size a + S32x128.size a := by
  show i ∈ ((View.whole main_v0_0).slice (win0_10.rect t)).set ↔ _
  rw [View.set_slice_whole, Rect.mem_set_unit]
  exact Iff.rfl

/-- Every synapse lies in the block of the point (its neuron's row block, its source's reduction step). -/
theorem cover11 (i : S32x1024x1024.Idx) : ∃ t : Fin cfg0.N, (cfg0.win 11).flush t = true ∧ i ∈ ((cfg0.win 11).blk t).view.set := by
  have h0 : (i 0).val < 32 := (i 0).isLt
  have h1 : (i 1).val < 1024 := (i 1).isLt
  have h2 : (i 2).val < 1024 := (i 2).isLt
  have hN : (i 1).val / 128 * 8 + (i 2).val / 128 < cfg0.N := by rw [N64]; omega
  refine ⟨⟨(i 1).val / 128 * 8 + (i 2).val / 128, hN⟩, flush0_11 _, ?_⟩
  rw [mem_blk11]
  obtain ⟨e0, e1, e2⟩ := ixw11 ⟨(i 1).val / 128 * 8 + (i 2).val / 128, hN⟩
  intro a
  match a with
  | ⟨0, _⟩ => show win0_11.index _ (0 : Fin 3) * 32 ≤ (i 0).val ∧ (i 0).val < win0_11.index _ (0 : Fin 3) * 32 + 32; rw [e0]; omega
  | ⟨1, _⟩ => show win0_11.index _ (1 : Fin 3) * 128 ≤ (i 1).val ∧ (i 1).val < win0_11.index _ (1 : Fin 3) * 128 + 128; rw [e1]; show ((i 1).val / 128 * 8 + (i 2).val / 128) / 8 * 128 ≤ (i 1).val ∧ (i 1).val < ((i 1).val / 128 * 8 + (i 2).val / 128) / 8 * 128 + 128; omega
  | ⟨2, _⟩ => show win0_11.index _ (2 : Fin 3) * 128 ≤ (i 2).val ∧ (i 2).val < win0_11.index _ (2 : Fin 3) * 128 + 128; rw [e2]; show ((i 1).val / 128 * 8 + (i 2).val / 128) % 8 * 128 ≤ (i 2).val ∧ (i 2).val < ((i 1).val / 128 * 8 + (i 2).val / 128) % 8 * 128 + 128; omega
theorem cover12 (i : S32x1024x1024.Idx) : ∃ t : Fin cfg0.N, (cfg0.win 12).flush t = true ∧ i ∈ ((cfg0.win 12).blk t).view.set := by
  have h0 : (i 0).val < 32 := (i 0).isLt
  have h1 : (i 1).val < 1024 := (i 1).isLt
  have h2 : (i 2).val < 1024 := (i 2).isLt
  have hN : (i 1).val / 128 * 8 + (i 2).val / 128 < cfg0.N := by rw [N64]; omega
  refine ⟨⟨(i 1).val / 128 * 8 + (i 2).val / 128, hN⟩, flush0_12 _, ?_⟩
  rw [mem_blk12]
  obtain ⟨e0, e1, e2⟩ := ixw12 ⟨(i 1).val / 128 * 8 + (i 2).val / 128, hN⟩
  intro a
  match a with
  | ⟨0, _⟩ => show win0_12.index _ (0 : Fin 3) * 32 ≤ (i 0).val ∧ (i 0).val < win0_12.index _ (0 : Fin 3) * 32 + 32; rw [e0]; omega
  | ⟨1, _⟩ => show win0_12.index _ (1 : Fin 3) * 128 ≤ (i 1).val ∧ (i 1).val < win0_12.index _ (1 : Fin 3) * 128 + 128; rw [e1]; show ((i 1).val / 128 * 8 + (i 2).val / 128) / 8 * 128 ≤ (i 1).val ∧ (i 1).val < ((i 1).val / 128 * 8 + (i 2).val / 128) / 8 * 128 + 128; omega
  | ⟨2, _⟩ => show win0_12.index _ (2 : Fin 3) * 128 ≤ (i 2).val ∧ (i 2).val < win0_12.index _ (2 : Fin 3) * 128 + 128; rw [e2]; show ((i 1).val / 128 * 8 + (i 2).val / 128) % 8 * 128 ≤ (i 2).val ∧ (i 2).val < ((i 1).val / 128 * 8 + (i 2).val / 128) % 8 * 128 + 128; omega
/-- Every neuron lies in the block written at the last step of its row block. -/
theorem cover13 (i : S32x1024.Idx) : ∃ t : Fin cfg0.N, (cfg0.win 13).flush t = true ∧ i ∈ ((cfg0.win 13).blk t).view.set := by
  have h0 : (i 0).val < 32 := (i 0).isLt
  have h1 : (i 1).val < 1024 := (i 1).isLt
  have hN : (i 1).val / 128 * 8 + 7 < cfg0.N := by rw [N64]; omega
  refine ⟨⟨(i 1).val / 128 * 8 + 7, hN⟩, (flush0_13 _).mpr (by show ((i 1).val / 128 * 8 + 7) % 8 = 7; omega), ?_⟩
  rw [mem_blk13]
  obtain ⟨e0, e1⟩ := ixw13 ⟨(i 1).val / 128 * 8 + 7, hN⟩
  intro a
  match a with
  | ⟨0, _⟩ => show win0_13.index _ (0 : Fin 2) * 32 ≤ (i 0).val ∧ (i 0).val < win0_13.index _ (0 : Fin 2) * 32 + 32; rw [e0]; omega
  | ⟨1, _⟩ => show win0_13.index _ (1 : Fin 2) * 128 ≤ (i 1).val ∧ (i 1).val < win0_13.index _ (1 : Fin 2) * 128 + 128; rw [e1]; show ((i 1).val / 128 * 8 + 7) / 8 * 128 ≤ (i 1).val ∧ (i 1).val < ((i 1).val / 128 * 8 + 7) / 8 * 128 + 128; omega
theorem cover10 (i : S32x1024.Idx) : ∃ t : Fin cfg0.N, (cfg0.win 10).flush t = true ∧ i ∈ ((cfg0.win 10).blk t).view.set := by
  have h0 : (i 0).val < 32 := (i 0).isLt
  have h1 : (i 1).val < 1024 := (i 1).isLt
  have hN : (i 1).val / 128 * 8 + 7 < cfg0.N := by rw [N64]; omega
  refine ⟨⟨(i 1).val / 128 * 8 + 7, hN⟩, (flush0_10 _).mpr (by show ((i 1).val / 128 * 8 + 7) % 8 = 7; omega), ?_⟩
  rw [mem_blk10]
  obtain ⟨e0, e1⟩ := ixw10 ⟨(i 1).val / 128 * 8 + 7, hN⟩
  intro a
  match a with
  | ⟨0, _⟩ => show win0_10.index _ (0 : Fin 2) * 32 ≤ (i 0).val ∧ (i 0).val < win0_10.index _ (0 : Fin 2) * 32 + 32; rw [e0]; omega
  | ⟨1, _⟩ => show win0_10.index _ (1 : Fin 2) * 128 ≤ (i 1).val ∧ (i 1).val < win0_10.index _ (1 : Fin 2) * 128 + 128; rw [e1]; show ((i 1).val / 128 * 8 + 7) / 8 * 128 ≤ (i 1).val ∧ (i 1).val < ((i 1).val / 128 * 8 + 7) / 8 * 128 + 128; omega

theorem final11 (c : Dev nD) : (dats m 0 c).arrAt 11 cfg0.N = (Cert.Spec.traceIn (V m c main_arg0) (V m c main_arg2) (V m c main_arg5) (V m c main_arg6)) :=
  (dats m 0 c).arrAt_eq_of_cover 11 _ (fun t _ => flushed11_eq m c t) cover11
theorem final12 (c : Dev nD) : (dats m 0 c).arrAt 12 cfg0.N = (Cert.Spec.traceRec (V m c main_arg1) (V m c main_arg3) (V m c main_arg7) (V m c main_arg8)) :=
  (dats m 0 c).arrAt_eq_of_cover 12 _ (fun t _ => flushed12_eq m c t) cover12
theorem final13 (c : Dev nD) : (dats m 0 c).arrAt 13 cfg0.N = (Cert.Spec.refr (V m c main_arg4) (V m c main_arg1)) :=
  (dats m 0 c).arrAt_eq_of_cover 13 _ (fun t _ => flushed13_eq m c t) cover13

end Cert.KernelIdeal.Body

end
-- ==== Proof.KIValueC.lean ====
import proofs.«151799_j59399397704147_2_alg».proof.Proof.Gen.KernelIdeal.Launch
import proofs.«151799_j59399397704147_2_alg».proof.Proof.Gen.KernelIdeal.Skeleton
import proofs.«151799_j59399397704147_2_alg».proof.Proof.Gen.KernelIdeal.Points
import proofs.«151799_j59399397704147_2_alg».proof.Proof.LibWholeStore
import Idealize.ShloMosaic.Lib.Pipeline.FrameBody
import Idealize.ShloMosaic.Lib.Pipeline.FrameSuffix
import Idealize.ShloMosaic.Lib.Ring
import Idealize.ShloMosaic.Lib.Tactic
import proofs.«151799_j59399397704147_2_alg».proof.Proof.KIValueB
set_option maxRecDepth 16384

noncomputable section

namespace Cert.KernelIdeal.Body

open Cert.KernelIdeal Cert.KernelIdeal.Gen Cert.KernelIdeal.PayloadAt Idealize.ShloMosaic.ValueIdx

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

open scoped BigOperators

variable (m : (ℓ : Loc nD τ sig) → Buf (Elt Ideal) ℓ)

/-! ## The running sum in closed form

Point `t` adds, for batch row `b` and neuron `r` of its row block, the sum over its 128 sources of the input-path
trace plus the sum over its 128 sources of the recurrent-path trace. After the last of the eight steps of a row block
the running sum is therefore the two sums over ALL 1024 sources: addition on the extended reals is commutative and
associative, so the grouping into eight blocks does not matter. -/

/-- What point `t` adds at `(b, r)`. -/
def part (c : Dev nD) (t : Fin cfg0.N) (b : Fin 32) (r : Fin 128) : EReal :=
  (∑ q : Fin 128, (Cert.Spec.traceIn (V m c main_arg0) (V m c main_arg2) (V m c main_arg5) (V m c main_arg6)) (ix3 b (rowOf t r) (colOf t q)))
    + ∑ q : Fin 128, (Cert.Spec.traceRec (V m c main_arg1) (V m c main_arg3) (V m c main_arg7) (V m c main_arg8)) (ix3 b (rowOf t r) (colOf t q))

/-- The same at a position that need not be a point (zero outside the grid). -/
def partN (c : Dev nD) (n : ℕ) (b : Fin 32) (r : Fin 128) : EReal :=
  if h : n < cfg0.N then part m c ⟨n, h⟩ b r else 0

theorem stepSum_at (c : Dev nD) (t : Fin cfg0.N) (prev : Vec Ideal S32x128 .f32) (b : Fin 32) (r : Fin 128) :
    stepSum m c t prev (ix2 b r) = prev (ix2 b r) + part m c t b r := by
  unfold stepSum part
  refine (pay1_at _ _ _ b r).trans ?_
  rw [pay6_at]
  exact congrArg (prev (ix2 b r) + ·)
    (congrArg₂ (· + ·) (Finset.sum_congr rfl fun q _ => traceIn_pt m c t b r q) (Finset.sum_congr rfl fun q _ => traceRec_pt m c t b r q))

/-- One step of the running sum. -/
theorem acc_step (c : Dev nD) (t : Fin cfg0.N) (b : Fin 32) (r : Fin 128) :
    accAt m c t.val t.isLt (ix2 b r)
      = (if t.val % 8 = 0 then 0 else accAt m c (t.val - 1) (Nat.lt_of_le_of_lt (Nat.sub_le _ _) t.isLt) (ix2 b r)) + part m c t b r := by
  by_cases h0 : t.val % 8 = 0
  · rw [accAt_first m c t h0, if_pos h0, stepSum_at, pay4_at]
  · rw [accAt_next m c t h0, if_neg h0, stepSum_at]

/-- After step `k` of row block `I` the running sum holds what steps `0 … k` of that row block added. -/
theorem acc_closed (c : Dev nD) (b : Fin 32) (r : Fin 128) (I : ℕ) (hI : I < 8) :
    ∀ (k : ℕ) (hk : k < 8) (h : I * 8 + k < cfg0.N), accAt m c (I * 8 + k) h (ix2 b r) = ∑ s ∈ Finset.range (k + 1), partN m c (I * 8 + s) b r := by
  intro k
  induction k with
  | zero =>
    intro hk h
    refine (acc_step m c ⟨I * 8 + 0, h⟩ b r).trans ?_
    rw [if_pos (show (I * 8 + 0) % 8 = 0 by omega), zero_add, Finset.sum_range_one]
    unfold partN; rw [dif_pos h]
  | succ k ih =>
    intro hk h
    have hk' : k < 8 := by omega
    have h' : I * 8 + k < cfg0.N := by omega
    refine (acc_step m c ⟨I * 8 + (k + 1), h⟩ b r).trans ?_
    rw [if_neg (show ¬(I * 8 + (k + 1)) % 8 = 0 by omega), Finset.sum_range_succ, ← ih hk' h']
    refine congrArg₂ (· + ·) rfl ?_
    unfold partN; rw [dif_pos h]

theorem accAt_congr (c : Dev nD) {n n' : ℕ} (e : n = n') (hn : n < cfg0.N) (hn' : n' < cfg0.N) : accAt m c n hn = accAt m c n' hn' := by
  subst e; rfl

/-- At the last step of a row block the running sum is the membrane drive of the row block's neurons. -/
theorem acc_last (c : Dev nD) (t : Fin cfg0.N) (h7 : t.val % 8 = 7) (b : Fin 32) (r : Fin 128) :
    accAt m c t.val t.isLt (ix2 b r) = Cert.Spec.drive (Cert.Spec.traceIn (V m c main_arg0) (V m c main_arg2) (V m c main_arg5) (V m c main_arg6)) (Cert.Spec.traceRec (V m c main_arg1) (V m c main_arg3) (V m c main_arg7) (V m c main_arg8)) (ix2 b (rowOf t r)) := by
  have hN : t.val < 64 := lt_of_lt_of_eq t.isLt N64
  have e : t.val = t.val / 8 * 8 + 7 := by omega
  have hlt : t.val / 8 * 8 + 7 < cfg0.N := lt_of_lt_of_eq (by omega : t.val / 8 * 8 + 7 < 64) N64.symm
  rw [accAt_congr m c e t.isLt hlt, acc_closed m c b r (t.val / 8) (by omega) 7 (by omega) hlt, Finset.sum_range]
  have hp : ∀ p : Fin 8, partN m c (t.val / 8 * 8 + p.val) b r
      = (∑ q : Fin 128, (Cert.Spec.traceIn (V m c main_arg0) (V m c main_arg2) (V m c main_arg5) (V m c main_arg6)) (ix3 b (rowOf t r) ⟨p.val * 128 + q.val, by omega⟩))
        + ∑ q : Fin 128, (Cert.Spec.traceRec (V m c main_arg1) (V m c main_arg3) (V m c main_arg7) (V m c main_arg8)) (ix3 b (rowOf t r) ⟨p.val * 128 + q.val, by omega⟩) := fun p => by
    have hpl : t.val / 8 * 8 + p.val < cfg0.N := lt_of_lt_of_eq (by have := p.isLt; omega : t.val / 8 * 8 + p.val < 64) N64.symm
    unfold partN; rw [dif_pos hpl]; unfold part
    have er : rowOf ⟨t.val / 8 * 8 + p.val, hpl⟩ r = rowOf t r := Fin.ext (by show (t.val / 8 * 8 + p.val) / 8 * 128 + r.val = t.val / 8 * 128 + r.val; omega)
    have ec : ∀ q : Fin 128, colOf ⟨t.val / 8 * 8 + p.val, hpl⟩ q = ⟨p.val * 128 + q.val, by omega⟩ := fun q =>
      Fin.ext (by show (t.val / 8 * 8 + p.val) % 8 * 128 + q.val = p.val * 128 + q.val; omega)
    simp only [er, ec]
  simp only [hp]
  rw [Finset.sum_add_distrib]
  unfold Cert.Spec.drive
  rw [Cert.LibBlockSum.sum_8x128 (fun j => (Cert.Spec.traceIn (V m c main_arg0) (V m c main_arg2) (V m c main_arg5) (V m c main_arg6)) (ix3 b (rowOf t r) j)),
    Cert.LibBlockSum.sum_8x128 (fun j => (Cert.Spec.traceRec (V m c main_arg1) (V m c main_arg3) (V m c main_arg7) (V m c main_arg8)) (ix3 b (rowOf t r) j))]

/-! ## The spike output -/

theorem flushed10_eq (c : Dev nD) (t : Fin cfg0.N) (hf : (cfg0.win 10).flush t = true) :
    (dats m 0 c).flushed 10 t = ((cfg0.win 10).blk t).view.read (Elt Ideal) (Cert.Spec.spikes (V m c main_arg0) (V m c main_arg1) (V m c main_arg2) (V m c main_arg3) (V m c main_arg4) (V m c main_arg5) (V m c main_arg6) (V m c main_arg7) (V m c main_arg8)) := by
  have h7 : t.val % 8 = 7 := (flush0_10 t).mp hf
  show (cfg0.win 10).cut (grid0.coords t) ((dats m 0 c).after 10 t) = _
  rw [after10]
  funext j
  obtain ⟨b, r, rfl⟩ : ∃ (b : Fin 32) (r : Fin 128), j = ix2 b r := ⟨j 0, j 1, eq_ix2 j⟩
  rw [out10_at c t]
  refine (pay3_at _ _ _ b r).trans ?_
  rw [acc_last m c t h7 b r, refr_pt m c t b r]
  rfl

theorem final10 (c : Dev nD) : (dats m 0 c).arrAt 10 cfg0.N = (Cert.Spec.spikes (V m c main_arg0) (V m c main_arg1) (V m c main_arg2) (V m c main_arg3) (V m c main_arg4) (V m c main_arg5) (V m c main_arg6) (V m c main_arg7) (V m c main_arg8)) :=
  (dats m 0 c).arrAt_eq_of_cover 10 _ (fun t hf => flushed10_eq m c t hf) cover10

end Cert.KernelIdeal.Body

end
-- ==== Proof.KIClaims.lean ====
import proofs.«151799_j59399397704147_2_alg».proof.Proof.Gen.KernelIdeal.Launch
import proofs.«151799_j59399397704147_2_alg».proof.Proof.Gen.KernelIdeal.Skeleton
import proofs.«151799_j59399397704147_2_alg».proof.Proof.Gen.KernelIdeal.Points
import proofs.«151799_j59399397704147_2_alg».proof.Proof.LibWholeStore
import Idealize.ShloMosaic.Lib.Pipeline.FrameBody
import Idealize.ShloMosaic.Lib.Pipeline.FrameSuffix
import Idealize.ShloMosaic.Lib.Ring
import Idealize.ShloMosaic.Lib.Tactic
import proofs.«151799_j59399397704147_2_alg».proof.Proof.KILaunch
import proofs.«151799_j59399397704147_2_alg».proof.Proof.KIValueC
set_option maxRecDepth 16384

noncomputable section

namespace Cert.KernelIdeal.Body

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

/-- The idealized kernel's run, read: the spikes, the two updated traces and the refractory current are the
    specification's functions of the nine argument arrays, and the arguments end as they began. -/
theorem value_run : θ_run defs (onTc (τ := τ) (main (F := Ideal))) ⟨m, fun _ => 0, ρ⟩ (fun r => ∀ c : Dev nD,
      r.2.mem ((c.tc : Thread nD τ).loc main_v0_0) = (Cert.Spec.spikes (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)))
      ∧ r.2.mem ((c.tc : Thread nD τ).loc main_v0_1) = (Cert.Spec.traceIn (m ((c.tc : Thread nD τ).loc main_arg0)) (m ((c.tc : Thread nD τ).loc main_arg2)) (m ((c.tc : Thread nD τ).loc main_arg5)) (m ((c.tc : Thread nD τ).loc main_arg6)))
      ∧ r.2.mem ((c.tc : Thread nD τ).loc main_v0_2) = (Cert.Spec.traceRec (m ((c.tc : Thread nD τ).loc main_arg1)) (m ((c.tc : Thread nD τ).loc main_arg3)) (m ((c.tc : Thread nD τ).loc main_arg7)) (m ((c.tc : Thread nD τ).loc main_arg8)))
      ∧ r.2.mem ((c.tc : Thread nD τ).loc main_v0_3) = (Cert.Spec.refr (m ((c.tc : Thread nD τ).loc main_arg4)) (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => ⟨
    ((h c 10).trans (final10 m c)).trans (by rw [V_main_arg0 m c, V_main_arg1 m c, V_main_arg2 m c, V_main_arg3 m c, V_main_arg4 m c, V_main_arg5 m c, V_main_arg6 m c, V_main_arg7 m c, V_main_arg8 m c]),
    ((h c 11).trans (final11 m c)).trans (by rw [V_main_arg0 m c, V_main_arg2 m c, V_main_arg5 m c, V_main_arg6 m c]),
    ((h c 12).trans (final12 m c)).trans (by rw [V_main_arg1 m c, V_main_arg3 m c, V_main_arg7 m c, V_main_arg8 m c]),
    ((h c 13).trans (final13 m c)).trans (by rw [V_main_arg4 m c, V_main_arg1 m c]),
    (h c 3).trans (((dats m 0 c).arrAt_in 3 rfl _).trans ((A_eq m c 3).trans (V_main_arg0 m c))),
    (h c 7).trans (((dats m 0 c).arrAt_in 7 rfl _).trans ((A_eq m c 7).trans (V_main_arg1 m c))),
    (h c 0).trans (((dats m 0 c).arrAt_in 0 rfl _).trans ((A_eq m c 0).trans (V_main_arg2 m c))),
    (h c 4).trans (((dats m 0 c).arrAt_in 4 rfl _).trans ((A_eq m c 4).trans (V_main_arg3 m c))),
    (h c 9).trans (((dats m 0 c).arrAt_in 9 rfl _).trans ((A_eq m c 9).trans (V_main_arg4 m c))),
    (h c 2).trans (((dats m 0 c).arrAt_in 2 rfl _).trans ((A_eq m c 2).trans (V_main_arg5 m c))),
    (h c 1).trans (((dats m 0 c).arrAt_in 1 rfl _).trans ((A_eq m c 1).trans (V_main_arg6 m c))),
    (h c 6).trans (((dats m 0 c).arrAt_in 6 rfl _).trans ((A_eq m c 6).trans (V_main_arg7 m c))),
    (h c 5).trans (((dats m 0 c).arrAt_in 5 rfl _).trans ((A_eq m c 5).trans (V_main_arg8 m c)))⟩)
    (run_main m ρ)

end Cert.KernelIdeal.Body

end
-- ==== Proof.RefSpec.lean ====
/-
  The reference's four results are the specification, index by index, over the extended reals.

  Each stage of the reference is read at an index. A weight or decay table `(n, j)` broadcast over the batch is read at
  `(i 1, i 2)`; a spike row `(b, j)` broadcast over the target neurons is read at `(i 0, i 2)`; a broadcast constant is
  its word everywhere; a sum along the last axis starting from the zero word is the plain sum over the source `j`.
  Put together these are exactly the trace, the refractory current and the spike of the specification.
-/
import proofs.«151799_j59399397704147_2_alg».proof.Proof.Gen.ReferenceIdeal.Read
import proofs.«151799_j59399397704147_2_alg».proof.Proof.Spec

noncomputable section

open scoped BigOperators

namespace Cert.ReferenceIdeal.RefValue

open Cert.ReferenceIdeal Cert.ReferenceIdeal.Gen Cert.ReferenceIdeal.Read Idealize.ShloMosaic Idealize.ShloMosaic.TcCoe
  Idealize.SL.Sem Idealize.ShloMosaic.StableHlo Idealize.ShloMosaic.ValueIdx

/-! ## Broadcast tables read at an index -/

/-- The input path's decay table, broadcast over the batch, read at `(b, n, j)` is the table at `(n, j)`. -/
theorem v1_at (x6 : (⟨S1024x1024, .f32⟩ : BufTy).Contents (Elt Ideal)) (i : S32x1024x1024.Idx) :
    val_main_v1 (F := Ideal) x6 i = x6 (ix2 (i 1) (i 2)) := by
  rw [val_main_v1_apply, val_main_v0_apply]
  exact congrArg x6 (funext fun a => Fin.ext (by match a with | ⟨0, _⟩ => rfl | ⟨1, _⟩ => rfl))

/-- The input path's weight table, broadcast over the batch, read at `(b, n, j)` is the table at `(n, j)`. -/
theorem v5_at (x5 : (⟨S1024x1024, .f32⟩ : BufTy).Contents (Elt Ideal)) (i : S32x1024x1024.Idx) :
    val_main_v5 (F := Ideal) x5 i = x5 (ix2 (i 1) (i 2)) := by
  rw [val_main_v5_apply, val_main_v3_apply]
  exact congrArg x5 (funext fun a => Fin.ext (by match a with | ⟨0, _⟩ => rfl | ⟨1, _⟩ => rfl))

/-- The input spikes, broadcast over the target neurons, read at `(b, n, j)` are the spikes at `(b, j)`. -/
theorem v6_at (x0 : (⟨S32x1024, .f32⟩ : BufTy).Contents (Elt Ideal)) (i : S32x1024x1024.Idx) :
    val_main_v6 (F := Ideal) x0 i = x0 (ix2 (i 0) (i 2)) := by
  rw [val_main_v6_apply, val_main_v4_apply]
  exact congrArg x0 (funext fun a => Fin.ext (by match a with | ⟨0, _⟩ => rfl | ⟨1, _⟩ => rfl))

/-- The recurrent path's decay table, broadcast over the batch, read at `(b, n, j)` is the table at `(n, j)`. -/
theorem v11_at (x8 : (⟨S1024x1024, .f32⟩ : BufTy).Contents (Elt Ideal)) (i : S32x1024x1024.Idx) :
    val_main_v11 (F := Ideal) x8 i = x8 (ix2 (i 1) (i 2)) := by
  rw [val_main_v11_apply, val_main_v10_apply]
  exact congrArg x8 (funext fun a => Fin.ext (by match a with | ⟨0, _⟩ => rfl | ⟨1, _⟩ => rfl))

/-- The recurrent path's weight table, broadcast over the batch, read at `(b, n, j)` is the table at `(n, j)`. -/
theorem v15_at (x7 : (⟨S1024x1024, .f32⟩ : BufTy).Contents (Elt Ideal)) (i : S32x1024x1024.Idx) :
    val_main_v15 (F := Ideal) x7 i = x7 (ix2 (i 1) (i 2)) := by
  rw [val_main_v15_apply, val_main_v13_apply]
  exact congrArg x7 (funext fun a => Fin.ext (by match a with | ⟨0, _⟩ => rfl | ⟨1, _⟩ => rfl))

/-- The previous spikes, broadcast over the target neurons, read at `(b, n, j)` are the spikes at `(b, j)`. -/
theorem v16_at (x1 : (⟨S32x1024, .f32⟩ : BufTy).Contents (Elt Ideal)) (i : S32x1024x1024.Idx) :
    val_main_v16 (F := Ideal) x1 i = x1 (ix2 (i 0) (i 2)) := by
  rw [val_main_v16_apply, val_main_v14_apply]
  exact congrArg x1 (funext fun a => Fin.ext (by match a with | ⟨0, _⟩ => rfl | ⟨1, _⟩ => rfl))

/-! ## The two traces -/

/-- The reference's input-path trace is the specification's: `rho (n, j) · h (b, n, j) + w (n, j) · x (b, j)`. -/
theorem v8_eq (x0 : (⟨S32x1024, .f32⟩ : BufTy).Contents (Elt Ideal)) (x2 : (⟨S32x1024x1024, .f32⟩ : BufTy).Contents (Elt Ideal)) (x5 x6 : (⟨S1024x1024, .f32⟩ : BufTy).Contents (Elt Ideal)) :
    Read.val_main_v8 (F := Ideal) x0 x2 x5 x6 = Cert.Spec.traceIn x0 x2 x5 x6 := by
  funext i
  rw [val_main_v8_apply, val_main_v2_apply, val_main_v7_apply, v1_at, v5_at, v6_at]
  simp only [Ideal.addf_def, Ideal.mulf_def]
  rfl

/-- The reference's recurrent-path trace is the specification's: `rho (n, j) · h (b, n, j) + w (n, j) · hz (b, j)`. -/
theorem v18_eq (x1 : (⟨S32x1024, .f32⟩ : BufTy).Contents (Elt Ideal)) (x3 : (⟨S32x1024x1024, .f32⟩ : BufTy).Contents (Elt Ideal)) (x7 x8 : (⟨S1024x1024, .f32⟩ : BufTy).Contents (Elt Ideal)) :
    Read.val_main_v18 (F := Ideal) x1 x3 x7 x8 = Cert.Spec.traceRec x1 x3 x7 x8 := by
  funext i
  rw [val_main_v18_apply, val_main_v12_apply, val_main_v17_apply, v11_at, v15_at, v16_at]
  simp only [Ideal.addf_def, Ideal.mulf_def]
  rfl

/-! ## The refractory current -/

/-- The reference's refractory current is the specification's: `decay · hIr (b, n) + one · hz (b, n)`. -/
theorem v24_eq (x1 x4 : (⟨S32x1024, .f32⟩ : BufTy).Contents (Elt Ideal)) :
    Read.val_main_v24 (F := Ideal) x1 x4 = Cert.Spec.refr x4 x1 := by
  funext i
  rw [val_main_v24_apply, val_main_v21_apply, val_main_v23_apply, val_main_v20_apply, val_main_v22_apply,
    val_main_cst_1_apply, val_main_cst_2_apply]
  simp only [Ideal.addf_def, Ideal.mulf_def, Ideal.ofBits_def]
  rfl

/-! ## The two sums over the sources -/

/-- The reference's sum of the input-path trace along the last axis, started from the zero word, is the sum over every
    source `j` of the specification's trace at `(b, n, j)`. -/
theorem v9_at (x0 : (⟨S32x1024, .f32⟩ : BufTy).Contents (Elt Ideal)) (x2 : (⟨S32x1024x1024, .f32⟩ : BufTy).Contents (Elt Ideal)) (x5 x6 : (⟨S1024x1024, .f32⟩ : BufTy).Contents (Elt Ideal)) (i : S32x1024.Idx) :
    val_main_v9 (F := Ideal) x0 x2 x5 x6 i = ∑ j : Fin 1024, Cert.Spec.traceIn x0 x2 x5 x6 (ix3 (i 0) (i 1) j) := by
  rw [val_main_v9_apply, val_main_cst_apply, Ideal.ofBits_def, Ideal.ofBits_zero_f32, zero_add, v8_eq]
  exact Finset.sum_congr rfl fun k _ => congrArg (Cert.Spec.traceIn x0 x2 x5 x6) (funext fun a => Fin.ext (by match a with | ⟨0, _⟩ => rfl | ⟨1, _⟩ => rfl | ⟨2, _⟩ => rfl))

/-- The reference's sum of the recurrent-path trace along the last axis, started from the zero word, is the sum over
    every source `j` of the specification's trace at `(b, n, j)`. -/
theorem v19_at (x1 : (⟨S32x1024, .f32⟩ : BufTy).Contents (Elt Ideal)) (x3 : (⟨S32x1024x1024, .f32⟩ : BufTy).Contents (Elt Ideal)) (x7 x8 : (⟨S1024x1024, .f32⟩ : BufTy).Contents (Elt Ideal)) (i : S32x1024.Idx) :
    val_main_v19 (F := Ideal) x1 x3 x7 x8 i = ∑ j : Fin 1024, Cert.Spec.traceRec x1 x3 x7 x8 (ix3 (i 0) (i 1) j) := by
  rw [val_main_v19_apply, val_main_cst_0_apply, Ideal.ofBits_def, Ideal.ofBits_zero_f32, zero_add, v18_eq]
  exact Finset.sum_congr rfl fun k _ => congrArg (Cert.Spec.traceRec x1 x3 x7 x8) (funext fun a => Fin.ext (by match a with | ⟨0, _⟩ => rfl | ⟨1, _⟩ => rfl | ⟨2, _⟩ => rfl))

/-! ## The spikes -/

/-- The reference's spikes are the specification's: one where (input drive + recurrent drive) − refractory − one is
    strictly positive, zero elsewhere. The threshold and the compared zero stay the words both sides carry. -/
theorem v31_eq (x0 x1 : (⟨S32x1024, .f32⟩ : BufTy).Contents (Elt Ideal)) (x2 x3 : (⟨S32x1024x1024, .f32⟩ : BufTy).Contents (Elt Ideal)) (x4 : (⟨S32x1024, .f32⟩ : BufTy).Contents (Elt Ideal)) (x5 x6 x7 x8 : (⟨S1024x1024, .f32⟩ : BufTy).Contents (Elt Ideal)) :
    Read.val_main_v31 (F := Ideal) x0 x1 x2 x3 x4 x5 x6 x7 x8 = Cert.Spec.spikes x0 x1 x2 x3 x4 x5 x6 x7 x8 := by
  funext i
  rw [val_main_v31_apply, val_main_v30_apply, val_main_v28_apply, val_main_v26_apply, val_main_v25_apply,
    v9_at, v19_at, v24_eq, val_main_v27_apply, val_main_cst_3_apply, val_main_v29_apply, val_main_cst_4_apply]
  simp only [Ideal.addf_def, Ideal.subf_def, Ideal.ofBits_def]
  rfl

end Cert.ReferenceIdeal.RefValue

end
-- ==== Proof.lean ====
/-
  A recurrent spiking layer whose every synapse carries its own trace, one step: the fused kernel against the plain
  array program, over the extended reals.

  Both programs compute, from the input spikes x, the previous spikes hz, the two trace tensors, the refractory
  current and the four weight and decay tables:
    trace' (b, n, j) = rho (n, j) · trace (b, n, j) + w (n, j) · s (b, j)      (input path: s = x; recurrent path: s = hz),
    refr (b, n)      = decay · hIr (b, n) + one · hz (b, n),
    drive (b, n)     = Σ_j trace'_in (b, n, j) + Σ_j trace'_rec (b, n, j),
    spike (b, n)     = 1 if drive − refr − one > 0, else 0.
  The array program forms each sum over all 1024 sources at once. The kernel walks a grid of (row block of 128 neurons,
  reduction step of 128 sources); at each point it overwrites the point's two trace blocks and adds the two lane sums of
  the point to a running sum it keeps between points, cleared at the first step of a row block; at the last step it
  writes the row block's refractory current and spikes. The two agree because addition on the extended reals is
  commutative and associative: eight block sums added one after the other are the sum over all sources. No finiteness
  of the inputs is used. The two float words (the decay and one) are the same words in both programs and are never
  evaluated.

  The kernel's termination, absence of faults and unchanged arguments are proved once for both readings of the kernel
  (bit level and idealized): the body is run case by case on the reduction step (first, middle, last), the running sum
  is tracked in the invariant between points, and the previous-spike array, which the kernel reads through two windows,
  is held half by each.
-/
import proofs.«151799_j59399397704147_2_alg».proof.Defs
import proofs.«151799_j59399397704147_2_alg».proof.Proof.Gen.Kernel
import proofs.«151799_j59399397704147_2_alg».proof.Proof.Gen.KernelIdeal
import proofs.«151799_j59399397704147_2_alg».proof.Proof.Gen.ReferenceIdeal
import proofs.«151799_j59399397704147_2_alg».proof.Proof.Gen.Pre_finite_inputs
import proofs.«151799_j59399397704147_2_alg».proof.Proof.Gen.ReferenceIdeal.Run
import proofs.«151799_j59399397704147_2_alg».proof.Proof.Gen.ReferenceIdeal.Read
import proofs.«151799_j59399397704147_2_alg».proof.Proof.KLaunch
import proofs.«151799_j59399397704147_2_alg».proof.Proof.KIClaims
import proofs.«151799_j59399397704147_2_alg».proof.Proof.RefSpec
import Idealize.ShloMosaic.Adequacy
import Idealize.ShloMosaic.Init

noncomputable section

namespace Cert.Proof

open Idealize.ShloMosaic Idealize.ShloMosaic.TcCoe Idealize.SL.Sem

theorem frame_k [Cert.Kernel.Facts] [Cert.Pre_finite_inputs.Facts] : Cert.frame_Kernel :=
  fun m ρ _ => Cert.Kernel.Body.frame (F := Bits) m ρ

theorem frame_ki [Cert.KernelIdeal.Facts] [Cert.Pre_finite_inputs.Facts] : Cert.frame_KernelIdeal :=
  fun m ρ _ => Cert.KernelIdeal.Body.frame (F := Ideal) m ρ

/-- The array program's run with its four results dropped. -/
theorem frame_ri [Cert.ReferenceIdeal.Facts] [Cert.Pre_finite_inputs.Facts] : Cert.frame_ReferenceIdeal :=
  fun m ρ _ => (θ_run Cert.ReferenceIdeal.defs _ _).mono (fun _ h c => (h c).2.2.2.2) (Cert.ReferenceIdeal.Value.run (F := Ideal) m ρ)

/-- Both runs end with the specification's four functions of arguments that agree. -/
theorem algebraic [Cert.KernelIdeal.Facts] [Cert.ReferenceIdeal.Facts] [Cert.Pre_finite_inputs.Facts] : Cert.algebraic_KernelIdeal_ReferenceIdeal := by
  intro m ρ m' ρ' _ hagree
  refine ⟨_, _, _, _, Cert.KernelIdeal.Body.value_run m ρ, ?_⟩
  refine (θ_run Cert.ReferenceIdeal.defs _ _).mono (fun _ h c => ⟨(h c).1.trans ?_, (h c).2.1.trans ?_, (h c).2.2.1.trans ?_, (h c).2.2.2.1.trans ?_, (h c).2.2.2.2⟩)
    (Cert.ReferenceIdeal.Value.run (F := Ideal) m' ρ')
  · rw [(hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2]
    exact (Cert.ReferenceIdeal.Read.val_main_v31_eq _ _ _ _ _ _ _ _ _).trans (Cert.ReferenceIdeal.RefValue.v31_eq _ _ _ _ _ _ _ _ _)
  · rw [(hagree c).1, (hagree c).2.2.1, (hagree c).2.2.2.2.2.1, (hagree c).2.2.2.2.2.2.1]
    exact (Cert.ReferenceIdeal.Read.val_main_v8_eq _ _ _ _).trans (Cert.ReferenceIdeal.RefValue.v8_eq _ _ _ _)
  · rw [(hagree c).2.1, (hagree c).2.2.2.1, (hagree c).2.2.2.2.2.2.2.1, (hagree c).2.2.2.2.2.2.2.2]
    exact (Cert.ReferenceIdeal.Read.val_main_v18_eq _ _ _ _).trans (Cert.ReferenceIdeal.RefValue.v18_eq _ _ _ _)
  · rw [(hagree c).2.1, (hagree c).2.2.2.2.1]
    exact (Cert.ReferenceIdeal.Read.val_main_v24_eq _ _).trans (Cert.ReferenceIdeal.RefValue.v24_eq _ _)

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
